-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x512 : Shape := ⟨3, ![16, 256, 512]⟩
abbrev S16x512 : Shape := ⟨2, ![16, 512]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x256x512 .f32) (main_arg1 : FVec F S16x512 .f32) (main_arg2 : IVec S16x512 32) : IVec S_ 1 :=
  let main_v0 : FVec F S16x256x512 .f32 := Host.absf main_arg0
  let main_cst : FVec F S_ .f32 := constant S_ .f32 0x7F800000#32
  let main_v1 : FVec F S16x256x512 .f32 := broadcastInDim S16x256x512 ![] bcast_S_S16x256x512 main_cst
  let main_v2 : IVec S16x256x512 1 := cmpf .olt main_v0 main_v1
  let main_c : IVec S_ 1 := constantI S_ 1 1#1
  let main_v3 : IVec S_ 1 := (fun x v => Host.reduce IntOp.andi x v reducesTo_S16x256x512_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Kernel.lean ====
abbrev S16x256x512 : Shape := ⟨3, ![16, 256, 512]⟩
abbrev S16x512 : Shape := ⟨2, ![16, 512]⟩
abbrev S8x256x512 : Shape := ⟨3, ![8, 256, 512]⟩
abbrev S8x512x256 : Shape := ⟨3, ![8, 512, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S8192x256 : Shape := ⟨2, ![8192, 256]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 46
  | .vmem => 9
  | .smem => 0
  | _ => 0

abbrev bufTy : (tb : Table) → Fin (tcTables nBuf tb) → BufTy
  | .hbm, ⟨0, _⟩ => ⟨S16x256x512, .f32⟩
  | .hbm, ⟨1, _⟩ => ⟨S16x512, .f32⟩
  | .hbm, ⟨2, _⟩ => ⟨S16x512, .i32⟩
  | .hbm, ⟨3, _⟩ => ⟨S8x256x512, .f32⟩
  | .hbm, ⟨4, _⟩ => ⟨S8x512x256, .f32⟩
  | .hbm, ⟨5, _⟩ => ⟨S4096x256, .f32⟩
  | .hbm, ⟨6, _⟩ => ⟨S8x256x512, .f32⟩
  | .hbm, ⟨7, _⟩ => ⟨S8x512x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S8192, .f32⟩
  | .hbm, ⟨36, _⟩ => ⟨S8192x1, .f32⟩
  | .hbm, ⟨37, _⟩ => ⟨S8192x256, .f32⟩
  | .hbm, ⟨38, _⟩ => ⟨S8192x256, .bf16⟩
  | .hbm, ⟨39, _⟩ => ⟨S8192x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S16x256x512_S8x256x512_0_0_0 : S16x256x512.Slices ![0, 0, 0] S8x256x512
  transposes_S8x256x512_S8x512x256_0_2_1 : S8x256x512.Transposes [0, 2, 1] S8x512x256
  shapeCasts_S8x512x256_S4096x256 : S8x512x256.ShapeCasts S4096x256
  slices_S16x256x512_S8x256x512_8_0_0 : S16x256x512.Slices ![8, 0, 0] S8x256x512
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  concatenates_S4096_S4096_S8192_d0 : Shape.Concatenates [S4096, S4096] S8192 0
  bcast_S8192_S8192x1_0 : S8192.BroadcastsInDim S8192x1 (![0] : Fin 1 → Fin S8192x1.rank)
  concatenates_S4096x256_S4096x256_S8192x256_d0 : Shape.Concatenates [S4096x256, S4096x256] S8192x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v29) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x256x512 : Shape := ⟨3, ![16, 256, 512]⟩
abbrev S16x512 : Shape := ⟨2, ![16, 512]⟩
abbrev S8x256x512 : Shape := ⟨3, ![8, 256, 512]⟩
abbrev S8x512x256 : Shape := ⟨3, ![8, 512, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 140
  | .vmem => 0
  | .smem => 0
  | _ => 0

abbrev hbmTy0_0 (i : Nat) : BufTy := match i % 128 with
  | 0 => ⟨S16x256x512, .f32⟩
  | 1 => ⟨S16x512, .f32⟩
  | 2 => ⟨S16x512, .i32⟩
  | 3 => ⟨S8x256x512, .f32⟩
  | 4 => ⟨S8x512x256, .f32⟩
  | 5 => ⟨S4096x256, .f32⟩
  | 6 => ⟨S8x256x512, .f32⟩
  | 7 => ⟨S8x512x256, .f32⟩
  | 8 => ⟨S4096x256, .f32⟩
  | 9 => ⟨S4096x256, .f32⟩
  | 10 => ⟨S_, .f32⟩
  | 11 => ⟨S4096, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x256, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x256, .f32⟩
  | 28 => ⟨S4096x256, .f32⟩
  | 29 => ⟨S8192x256, .f32⟩
  | 30 => ⟨S256x8192, .f32⟩
  | 31 => ⟨S8192x8192, .f32⟩
  | 32 => ⟨S_, .f32⟩
  | 33 => ⟨S8192x8192, .f32⟩
  | 34 => ⟨S8192x8192, .f32⟩
  | 35 => ⟨S_, .f32⟩
  | 36 => ⟨S8192, .f32⟩
  | 37 => ⟨S8192x1, .f32⟩
  | 38 => ⟨S8192x8192, .f32⟩
  | 39 => ⟨S8192x8192, .f32⟩
  | 40 => ⟨S8192, .i32⟩
  | 41 => ⟨S1x8192, .i32⟩
  | 42 => ⟨S8192x1, .i32⟩
  | 43 => ⟨S8192x8192, .i32⟩
  | 44 => ⟨S8192x8192, .i32⟩
  | 45 => ⟨S8192x8192, .i32⟩
  | 46 => ⟨S_, .i32⟩
  | 47 => ⟨S8192x8192, .i32⟩
  | 48 => ⟨S8192x8192, .i1⟩
  | 49 => ⟨S_, .i32⟩
  | 50 => ⟨S8192x8192, .i32⟩
  | 51 => ⟨S8192x8192, .i32⟩
  | 52 => ⟨S8192x8192, .i32⟩
  | 53 => ⟨S_, .i32⟩
  | 54 => ⟨S8192x8192, .i32⟩
  | 55 => ⟨S8192x8192, .i32⟩
  | 56 => ⟨S_, .i32⟩
  | 57 => ⟨S8192x8192, .i32⟩
  | 58 => ⟨S8192x8192, .i32⟩
  | 59 => ⟨S8192x8192, .i32⟩
  | 60 => ⟨S8192x8192, .f32⟩
  | 61 => ⟨S_, .f32⟩
  | 62 => ⟨S8192x8192, .f32⟩
  | 63 => ⟨S8192x8192, .f32⟩
  | 64 => ⟨S8192x8192, .i32⟩
  | 65 => ⟨S8192x8192, .i32⟩
  | 66 => ⟨S_, .i32⟩
  | 67 => ⟨S8192x8192, .i32⟩
  | 68 => ⟨S8192x8192, .i32⟩
  | 69 => ⟨S8192x8192, .i1⟩
  | 70 => ⟨S8192x8192, .f32⟩
  | 71 => ⟨S_, .f32⟩
  | 72 => ⟨S8192x8192, .f32⟩
  | 73 => ⟨S8192x8192, .f32⟩
  | 74 => ⟨S8192x8192, .f32⟩
  | 75 => ⟨S8192x8192, .f32⟩
  | 76 => ⟨S8192x8192, .f32⟩
  | 77 => ⟨S_, .f32⟩
  | 78 => ⟨S8192, .f32⟩
  | 79 => ⟨S8192x8192, .f32⟩
  | 80 => ⟨S8192, .f32⟩
  | 81 => ⟨S8192x1, .f32⟩
  | 82 => ⟨S8192x8192, .f32⟩
  | 83 => ⟨S8192x8192, .f32⟩
  | 84 => ⟨S_, .i32⟩
  | 85 => ⟨S8192, .i32⟩
  | 86 => ⟨S8192, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i1⟩
  | 101 => ⟨S_, .i32⟩
  | 102 => ⟨S_, .i1⟩
  | 103 => ⟨S8192, .i1⟩
  | 104 => ⟨S8192, .i1⟩
  | 105 => ⟨S8192, .i1⟩
  | 106 => ⟨S8192, .i32⟩
  | 107 => ⟨S8192, .i32⟩
  | 108 => ⟨S8192, .i32⟩
  | 109 => ⟨S8192x1, .i32⟩
  | 110 => ⟨S_, .i32⟩
  | 111 => ⟨S8192x1, .i32⟩
  | 112 => ⟨S8192x1, .i1⟩
  | 113 => ⟨S_, .i32⟩
  | 114 => ⟨S8192x1, .i32⟩
  | 115 => ⟨S8192x1, .i32⟩
  | 116 => ⟨S8192x1, .i32⟩
  | 117 => ⟨S8192x1x1, .i32⟩
  | 118 => ⟨S1, .i32⟩
  | 119 => ⟨S_, .i32⟩
  | 120 => ⟨S8192x1x1, .i32⟩
  | 121 => ⟨S8192x1x1, .i1⟩
  | 122 => ⟨S1x1x1, .i32⟩
  | 123 => ⟨S8192x1x1, .i32⟩
  | 124 => ⟨S8192x1x1, .i1⟩
  | 125 => ⟨S8192x1x1, .i1⟩
  | 126 => ⟨S_, .i1⟩
  | 127 => ⟨S8192x1, .i1⟩
  | _ => ⟨S16x256x512, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192, .f32⟩
  | 5 => ⟨S_, .f32⟩
  | 6 => ⟨S8192, .f32⟩
  | 7 => ⟨S8192, .f32⟩
  | 8 => ⟨S_, .f32⟩
  | 9 => ⟨S_, .f32⟩
  | 10 => ⟨S_, .f32⟩
  | 11 => ⟨S_, .f32⟩
  | _ => ⟨S16x256x512, .f32⟩

abbrev hbmTy (i : Nat) : BufTy := match i / 128 with
  | 0 => hbmTy0_0 i
  | 1 => hbmTy0_1 i
  | _ => ⟨S16x256x512, .f32⟩

abbrev bufTy : (tb : Table) → Fin (tcTables nBuf tb) → BufTy
  | .hbm, ⟨i, _⟩ => hbmTy i
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_call3_v0 : Ref sig .tc := ⟨.hbm, 88, rfl⟩
abbrev main_call3_c : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_v5 : Ref sig .tc := ⟨.hbm, 96, rfl⟩
abbrev main_call3_v6 : Ref sig .tc := ⟨.hbm, 97, rfl⟩
abbrev main_call3_c_2 : Ref sig .tc := ⟨.hbm, 98, rfl⟩
abbrev main_call3_v7 : Ref sig .tc := ⟨.hbm, 99, rfl⟩
abbrev main_call3_v8 : Ref sig .tc := ⟨.hbm, 100, rfl⟩
abbrev main_call3_c_3 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_v63 : Ref sig .tc := ⟨.hbm, 108, rfl⟩
abbrev main_v64 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v65 : Ref sig .tc := ⟨.hbm, 131, rfl⟩
abbrev main_v66 : Ref sig .tc := ⟨.hbm, 132, rfl⟩
abbrev main_cst_12 : Ref sig .tc := ⟨.hbm, 133, rfl⟩
abbrev main_v67 : Ref sig .tc := ⟨.hbm, 134, rfl⟩
abbrev main_v68 : Ref sig .tc := ⟨.hbm, 135, rfl⟩
abbrev main_cst_13 : Ref sig .tc := ⟨.hbm, 136, rfl⟩
abbrev main_v69 : Ref sig .tc := ⟨.hbm, 137, rfl⟩
abbrev main_cst_14 : Ref sig .tc := ⟨.hbm, 138, rfl⟩
abbrev main_v70 : Ref sig .tc := ⟨.hbm, 139, rfl⟩

abbrev nD : Nat := 1
abbrev τ : Topo := Topo.v7x

variable {F : FTy → Type} [FloatOps F]

class Facts₀ : Prop where
  slices_S16x256x512_S8x256x512_0_0_0 : S16x256x512.Slices ![0, 0, 0] S8x256x512
  transposes_S8x256x512_S8x512x256_0_2_1 : S8x256x512.Transposes [0, 2, 1] S8x512x256
  shapeCasts_S8x512x256_S4096x256 : S8x512x256.ShapeCasts S4096x256
  slices_S16x256x512_S8x256x512_8_0_0 : S16x256x512.Slices ![8, 0, 0] S8x256x512
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.LibSharedInputs.lean ====
/-
  Launching a one-region TensorCore program whose kernel is handed ONE array through SEVERAL input windows,
  with host operations before and after the region.

  The frame run of the library for an @main that continues after its region (the theorem
  Pipeline.θ_run_frame_around_track) asks the windows' arrays to be pairwise distinct buffers, each held at the
  full share. Here the arrays may coincide: the full share of a buffer that several input windows read is dealt
  among those windows (hypothesis hdeal, an equivalence between the distinct buffers at the full share and the
  windows' arrays at their shares), the region runs on the windows' shares, and at the region's exit the shares
  are joined again so that the host operations after the region run on whole buffers. The post is the library's
  FramePost, read at the contents after those operations from an exit valuation the caller names (VN): every
  window's array at what the proof data computes, every other unscoped buffer at what the later operations
  compute from the exit contents.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

open Idealize.ShloMosaic.Rounds

/-! ## The operations after the region, the arrays possibly shared -/

section SharedTail

variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

omit [Fintype P] [DecidableEq P] in
/-- The buffers an operation after the region may touch, held at Wv, are the DISTINCT buffers behind the windows'
    arrays and the bypassing buffers, each whole at the full share at Wv — whether or not two windows have one
    array (the set of the arrays' buffers is an image: a buffer two windows share is counted once). -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

omit [Fintype P] [DecidableEq P] in
set_option backward.isDefEq.respectTransparency.types false in
/-- THE OPERATIONS AFTER THE REGION, the arrays possibly shared: from the region's exit — the boundary, the distinct
    buffers behind the arrays whole at the exit contents VN, the bypassing buffers at the entry contents V, which
    VN agrees with off the arrays — the operations run within those buffers, writing no array, and hand back the
    arrays' buffers at VN and the bypassing buffers at what the operations compute from VN. -/
theorem tail_seqs_shared [Preorder Lvl] {gr : Nat} {W : Nat} (pre : Prefetch sig) (win : Fin W → WinSpec sig gr)
    (c : Dev nD) (V VN : Valuation τ sig Val)
    (hVN' : ∀ b : Ref sig .tc, (∀ w, arrRef win w ≠ b) → VN (Proc.devRef .tc b) = V (Proc.devRef .tc b))
    (opss : List (List (HloOp τ sig Val)))
    (hsub : ∀ ops ∈ opss, ∀ op ∈ ops, op.bufs ⊆ tailRefs sig pre win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => VN (Proc.devRef .tc b))
              ∗ unscopedRestP pre win c (fun b => StableHlo.after opss.flatten VN (Proc.devRef .tc b))) -∗ Q' ⟨⟩)
        ∗ boundary (c.tc : Thread nD τ) ∗ arrBufs win c (fun b => VN (Proc.devRef .tc b))
        ∗ unscopedRestP pre win c (fun b => V (Proc.devRef .tc b)))
      ⊢ wp frame (wpE 𝔻 𝕍 (c.tc : Thread nD τ) none) Set.univ (chain (opss.map StableHlo.seq)) Q' := by
  classical
  have hW : (StableHlo.held (c.tc : Thread nD τ) (tailRefs sig pre win) VN : sProp 𝕄)
      = iprop(arrBufs win c (fun b => VN (Proc.devRef .tc b)) ∗ unscopedRestP pre win c (fun b => V (Proc.devRef .tc b))) := by
    rw [held_tailRefs_shared pre win c VN]
    congr 1
    unfold unscopedRestP
    exact bigSep_congr fun b hb => by
      beta_reduce
      rw [hVN' b fun w e => (Finset.mem_sdiff.mp (Finset.mem_sdiff.mp hb).1).2 (Finset.mem_image.mpr ⟨w, Finset.mem_univ _, e⟩)]
  have hW' : (StableHlo.held (c.tc : Thread nD τ) (tailRefs sig pre win) (StableHlo.after opss.flatten VN) : sProp 𝕄)
      = iprop(arrBufs win c (fun b => VN (Proc.devRef .tc b))
          ∗ unscopedRestP pre win c (fun b => StableHlo.after opss.flatten VN (Proc.devRef .tc b))) := by
    rw [held_tailRefs_shared pre win c]
    congr 1
    unfold arrBufs
    exact bigSep_congr fun b hb => by
      obtain ⟨w, -, rfl⟩ := Finset.mem_image.mp hb
      beta_reduce
      rw [StableHlo.after_of_forall_not_mem _ _ fun op hop => ?_]
      obtain ⟨ops, hops, hop'⟩ := List.mem_flatten.mp hop
      exact hkeep ops hops op hop' w
  rw [← List.append_nil (opss.map StableHlo.seq), ← hW]
  iintro ⟨Hk, Hb⟩
  iapply (wp_seqs_then pcs defs₀ 𝒱₀ c (tailRefs sig pre win) [] opss hsub hfresh VN) $$ Hb
  iintro Hb
  rw [chain_nil, wp_pure, hW']
  imodintro
  iapply Hk
  icases Hb with ⟨-, H⟩
  iexact H

end SharedTail

/-! ## The frame run around the region, input windows sharing arrays -/

section SharedFrame

variable {Λ₀ : SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The pipeline's arrays at contents that are a function Vb of the array's buffer (hF) are each window's array,
    a whole buffer (harr), at the window's share at Vb. -/
theorem arrays_eq_deal (cfgs : P → Cfg sig Λ₀) (dats : (p : P) → (c : Dev nD) → Dat τ Val Unit ℕ (UR sig nD τ) ℕ (cfgs p) c) (p : P)
    (c : Dev nD) (harr : ∀ w, ((cfgs p).spec w).arr.IsWhole)
    (Vb : (b : Ref sig .tc) → Buf Val ((c.tc : Thread nD τ).loc b))
    (F : (w : Fin (cfgs p).W) → Buf Val (((cfgs p).spec w).arr.view.loc (c.tc : Thread nD τ)))
    (hF : ∀ w, F w = Vb (arrRef (cfgs p).spec w)) :
    ((dats p c).arrays F : sProp 𝕄)
      = bigSep Finset.univ fun w => (((c.tc : Thread nD τ).loc (arrRef (cfgs p).spec w)) ↦{(dats p c).share w} Vb (arrRef (cfgs p).spec w) : sProp 𝕄) := by
  unfold Dat.arrays
  exact bigSep_congr fun w _ => by rw [(harr w).set_eq_univ, hF]

/-- THE FRAME RUN with a TRACKING invariant for an @main that continues after the region with the host operations
    opss, of a pipeline that prefetches nothing and whose windows MAY SHARE ARRAYS (hw: the layout facts but for the
    arrays' distinctness). As Pipeline.θ_run_frame_around_track, with two changes. The shares: instead of every
    array held at the full share, hdeal says that the distinct buffers behind the arrays, each whole at the full
    share, are the windows' arrays each at its window's share — for every contents Vb of the buffers, in both
    directions (dealt at the region's entry, joined again at its exit). The exit contents: VN names what every
    buffer holds at the region's exit — each window's array what the proof data computes (hVN), every buffer that is
    no window's array its entry contents (hVN') — and the post is FramePost at the contents the operations compute
    from VN. -/
theorem θ_run_frame_around_track_shared
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (hdeal : ∀ (c : Dev nD) (Vb : (b : Ref sig .tc) → Buf Val ((c.tc : Thread nD τ).loc b)),
      (arrBufs (cfgs p).spec c Vb : sProp 𝕄)
        ⊣⊢ bigSep Finset.univ fun w => (((c.tc : Thread nD τ).loc (arrRef (cfgs p).spec w)) ↦{(dats p c).share w} Vb (arrRef (cfgs p).spec w) : sProp 𝕄))
    (V₀ VN : Dev nD → Valuation τ sig Val)
    (hVN : ∀ c w, (dats p c).arrAt w (cfgs p).N = VN c (Proc.devRef .tc (arrRef (cfgs p).spec w)))
    (hVN' : ∀ c (b : Ref sig .tc), (∀ w, arrRef (cfgs p).spec w ≠ b) → VN c (Proc.devRef .tc b) = V₀ c (Proc.devRef .tc b))
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (dats p c).A w = V₀ c (Proc.devRef .tc (arrRef (cfgs p).spec w)))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (VN c) (Proc.devRef .tc b))) := by
  classical
  -- the arrays at the region's exit, window by window at its share, at the exit contents
  have hE : ∀ c, ((dats p c).arrays (fun w => (dats p c).arrAt w (cfgs p).N) : sProp 𝕄)
      = bigSep Finset.univ fun w => (((c.tc : Thread nD τ).loc (arrRef (cfgs p).spec w))
          ↦{(dats p c).share w} VN c (Proc.devRef .tc (arrRef (cfgs p).spec w)) : sProp 𝕄) := fun c =>
    arrays_eq_deal cfgs dats p c harr (fun b => VN c (Proc.devRef .tc b)) _ (fun w => hVN c w)
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => ((hdeal c (fun b => V₀ c (Proc.devRef .tc b))).1).trans (Entails.of_eq
      (arrays_eq_deal cfgs dats p c harr (fun b => V₀ c (Proc.devRef .tc b)) (fun w => (dats p c).arrAt w 0) (fun w => hA c w)).symm))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      show iprop((iprop((dats p c).arrays (fun w => (dats p c).arrAt w (cfgs p).N)
                ∗ unscopedRestP Prefetch.none (cfgs p).spec c (fun b => StableHlo.after opss.flatten (VN c) (Proc.devRef .tc b))) -∗ Q' ⟨⟩)
            ∗ boundary (c.tc : Thread nD τ) ∗ (dats p c).arrays (fun w => (dats p c).arrAt w (cfgs p).N)
            ∗ unscopedRestP Prefetch.none (cfgs p).spec c (fun b => V₀ c (Proc.devRef .tc b))) ⊢ _
      rw [hE c]
      iintro ⟨Hk, Hb, Ha, HZ⟩
      ihave Ha' := (hdeal c (fun b => VN c (Proc.devRef .tc b))).2 $$ Ha
      iapply (tail_seqs_shared (fun q => (cfgs q).toPCfg (Val := Val)) defs₀ 𝒱₀ Prefetch.none (cfgs p).spec c (V₀ c) (VN c) (hVN' c)
        opss hsub hfresh hkeep Q')
      isplitl [Hk]
      · iintro ⟨Ha2, Hu⟩
        iapply Hk
        isplitl [Ha2]
        · iapply (hdeal c (fun b => VN c (Proc.devRef .tc b))).1; iexact Ha2
        · iexact Hu
      · isplitl [Hb]; · iexact Hb
        isplitl [Ha']; · iexact Ha'
        iexact HZ)
    (QY := fun c s => ∀ b ∈ restRefsP sig Prefetch.none (cfgs p).spec,
      s.mem ((c.tc : Thread nD τ).loc b) = StableHlo.after opss.flatten (VN c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (VN c) (Proc.devRef .tc b)) s')
      isplitl [HU] <;> iassumption)
    (hQ := fun s h c => ⟨(h c).1, rest_of_restP Prefetch.none (cfgs p).spec (fun k => k.elim0) c
      (fun b => StableHlo.after opss.flatten (VN c) (Proc.devRef .tc b)) s (fun k => k.elim0) (h c).2.1 (h c).2.2⟩)

end SharedFrame

/-! ## The exit contents computed by the library's withArrays -/

section SharedExit

variable {Λ₀ : SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- A valuation read at equal references, across the equation. -/
theorem valuation_cast (V : Valuation τ sig Val) {b' b : DevRef τ sig} (e : b' = b) :
    cast (congrArg (fun x : DevRef τ sig => x.ty.Contents Val) e) (V b') = V b := by
  subst e; rfl

omit [Fintype P] [DecidableEq P] [∀ e, Nonempty (Val e)] in
/-- Pipeline.withArrays read at a window's array when windows may share arrays: withArrays picks SOME window on the
    buffer, and every window on it computes the same contents — when every window is an input window, whose array is
    never written and holds its entry contents (hA: those of the valuation), or is alone on its array (hio). -/
theorem withArrays_arr_shared (cfgs : P → Cfg sig Λ₀) (dats : (p : P) → (c : Dev nD) → Dat τ Val Unit ℕ (UR sig nD τ) ℕ (cfgs p) c) (p : P)
    (c : Dev nD) (V₀ : Valuation τ sig Val)
    (hA : ∀ w, (dats p c).A w = V₀ (Proc.devRef .tc (arrRef (cfgs p).spec w)))
    (hio : ∀ w, ((cfgs p).win w).isOut = false ∨ ∀ w', arrRef (cfgs p).spec w' = arrRef (cfgs p).spec w → w' = w)
    (n : Nat) (w : Fin (cfgs p).W) :
    withArrays (cfgs p).spec c V₀ (fun w => (dats p c).arrAt w n) (Proc.devRef .tc (arrRef (cfgs p).spec w)) = (dats p c).arrAt w n := by
  unfold withArrays
  have h : ∃ w', Proc.devRef .tc (arrRef (cfgs p).spec w') = Proc.devRef (τ := τ) .tc (arrRef (cfgs p).spec w) := ⟨w, rfl⟩
  rw [dif_pos h]
  suffices ∀ (w' : Fin (cfgs p).W) (e : Proc.devRef .tc (arrRef (cfgs p).spec w') = Proc.devRef (τ := τ) .tc (arrRef (cfgs p).spec w)),
      cast (congrArg (fun b' : DevRef τ sig => b'.ty.Contents Val) e) ((dats p c).arrAt w' n) = (dats p c).arrAt w n from this _ h.choose_spec
  intro w' e
  have e' : arrRef (cfgs p).spec w' = arrRef (cfgs p).spec w := Proc.devRef_injective _ e
  rcases hio w with hin | huniq
  · rcases hio w' with hin' | huniq'
    · rw [(dats p c).arrAt_in w' hin' n, (dats p c).arrAt_in w hin n, hA w', hA w]
      exact valuation_cast V₀ e
    · obtain rfl : w = w' := huniq' w e'.symm
      rfl
  · obtain rfl : w' = w := huniq w' e'
    rfl

/-- Pipeline.θ_run_frame_around_track_shared with the exit contents the library computes (Pipeline.withArrays: the
    arrays at what the proof data computes, every other buffer at its entry contents), for windows each of which is an
    input window or alone on its array (hio): the post is the library's, FramePost at Pipeline.afterTail₀. -/
theorem θ_run_frame_around_track_shared_in
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (hio : ∀ w, ((cfgs p).win w).isOut = false ∨ ∀ w', arrRef (cfgs p).spec w' = arrRef (cfgs p).spec w → w' = w)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (hdeal : ∀ (c : Dev nD) (Vb : (b : Ref sig .tc) → Buf Val ((c.tc : Thread nD τ).loc b)),
      (arrBufs (cfgs p).spec c Vb : sProp 𝕄)
        ⊣⊢ bigSep Finset.univ fun w => (((c.tc : Thread nD τ).loc (arrRef (cfgs p).spec w)) ↦{(dats p c).share w} Vb (arrRef (cfgs p).spec w) : sProp 𝕄))
    (V₀ : Dev nD → Valuation τ sig Val)
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (dats p c).A w = V₀ c (Proc.devRef .tc (arrRef (cfgs p).spec w)))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (afterTail₀ cfgs dats p V₀ opss)) :=
  θ_run_frame_around_track_shared cfgs dats p hcell hw hne harr hstage defs₀ 𝒱₀ m g main hbody howed hdeal V₀
    (fun c => withArrays (cfgs p).spec c (V₀ c) fun w => (dats p c).arrAt w (cfgs p).N)
    (fun c w => (withArrays_arr_shared cfgs dats p c (V₀ c) (hA c) hio (cfgs p).N w).symm)
    (fun c b hb => withArrays_of_ne (cfgs p).spec c (V₀ c) _ b hb)
    opss hsub hfresh hkeep hmain hA hin hout

end SharedExit

end Pipeline

end Idealize.ShloMosaic

end
-- ==== Proof.KBFrameBase.lean ====
/-
  The region of the one pallas_call, as the per-case runs of its body and the frame around it see it.

  The grid is 8 × 8: point t has row tile t / 8 and column tile t % 8. The body has four conditionals on the point:
  the first column tile (the row accumulator is zeroed), the column tile within one of the row tile (the banded weight is
  applied), its negation (the plain exponential sum), and the last column tile (the row values are written out).
  The accumulator is a scratch carried from point to point; the output block is stored only at the last column tile and is
  idle, and not written back, elsewhere. Input windows 0 and 1 read ONE array (the feature rows, by row tile and by
  column tile), window 2 the positive terms by row tile.
-/
import proofs.«122991_j63007170232511_2_alg».proof.Proof.Gen.Kernel.Launch
import proofs.«122991_j63007170232511_2_alg».proof.Proof.Gen.Kernel.Skeleton
import proofs.«122991_j63007170232511_2_alg».proof.Proof.Gen.Kernel.Points
import proofs.«122991_j63007170232511_2_alg».proof.Proof.LibSharedInputs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the host operations before it. -/
abbrev V0 (c : Dev nD) : Valuation τ sig (Elt F) := StableHlo.after (List.flatten [hostOps0 (F := F)]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-- The later operations touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The column tile's last column is at least the row tile's first row less 21, and its first column at most the row
    tile's last row plus 21: the bit the two later conditionals test. -/
abbrev bandBit (i : grid0.Coords) : BitVec 1 :=
  Scalar.andi
    (Scalar.cmpi .sge (Scalar.subi (Scalar.addi (Scalar.muli (BitVec.ofNat 32 (i 1).val) 1024#32) 1024#32) 1#32) (Scalar.subi (Scalar.muli (BitVec.ofNat 32 (i 0).val) 1024#32) 21#32))
    (Scalar.cmpi .sle (Scalar.muli (BitVec.ofNat 32 (i 1).val) 1024#32) (Scalar.addi (Scalar.subi (Scalar.addi (Scalar.muli (BitVec.ofNat 32 (i 0).val) 1024#32) 1024#32) 1#32) 21#32))
/-- The weighted branch: column tile within one of the row tile. -/
abbrev cond0_1 (i : grid0.Coords) : Prop := (Scalar.cmpi .ne (Scalar.extui (bandBit i)) 0#32) = 1#1
theorem hcond0_1 : ∀ t : Fin cfg0.N, cond0_1 (grid0.coords t) ↔ (t.val % 8 ≤ t.val / 8 + 1 ∧ t.val / 8 ≤ t.val % 8 + 1) :=
  (by decide +kernel : ∀ t : Fin grid0.N, cond0_1 (grid0.coords t) ↔ (t.val % 8 ≤ t.val / 8 + 1 ∧ t.val / 8 ≤ t.val % 8 + 1))
/-- The unweighted branch: its negation. -/
abbrev cond0_2 (i : grid0.Coords) : Prop := (Scalar.cmpi .ne (Scalar.extui (Scalar.xori (bandBit i) 1#1)) 0#32) = 1#1
theorem hcond0_2 : ∀ t : Fin cfg0.N, cond0_2 (grid0.coords t) ↔ ¬(t.val % 8 ≤ t.val / 8 + 1 ∧ t.val / 8 ≤ t.val % 8 + 1) :=
  (by decide +kernel : ∀ t : Fin grid0.N, cond0_2 (grid0.coords t) ↔ ¬(t.val % 8 ≤ t.val / 8 + 1 ∧ t.val / 8 ≤ t.val % 8 + 1))
/-- The last column tile. -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column tile the output block is idle and not written back; -/
theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
/-- at it the body stores it. -/
theorem liveAt0_3 : ∀ t : Fin cfg0.N, cond0_3 (grid0.coords t) → cfg0.idle 3 (grid0.coords t) = false := by decide +kernel

/-! ## The staging and scratch memrefs -/

/-- One staging buffer of the output window, through which its contents are stated. -/
abbrev VO0_3 : View sig .tc .vmem S1024x1 .f32 := (Memref.whole cc0_stg3_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1 .f32 := Memref.whole cc0_scratch0
abbrev VS0_0 : View sig .tc .vmem S1024x1 .f32 := scM0_0.view

/-- What the launch hands the region besides the windows: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KBRunA.lean ====
/-
  The body at a point of the first column tile, weighted branch: run on whole staging memrefs — the three input blocks at their contents, the
  output block handed back as it was found (the point does not store it), the accumulator at anything (the point zeroes it first) — it ends
  with the inputs as they were and the accumulator with its stores written; the stores, as pieces, are what the
  run finds.
-/
import proofs.«122991_j63007170232511_2_alg».proof.Proof.KBFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBRunB.lean ====
/-
  The body at a point of the first column tile, unweighted branch: run on whole staging memrefs — the three input blocks at their contents, the
  output block handed back as it was found (the point does not store it), the accumulator at anything (the point zeroes it first) — it ends
  with the inputs as they were and the accumulator with its stores written; the stores, as pieces, are what the
  run finds.
-/
import proofs.«122991_j63007170232511_2_alg».proof.Proof.KBFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBRunC.lean ====
/-
  The body at a point of a middle column tile, weighted branch: run on whole staging memrefs — the three input blocks at their contents, the
  output block handed back as it was found (the point does not store it), the accumulator at what the point before left — it ends
  with the inputs as they were and the accumulator with its stores written; the stores, as pieces, are what the
  run finds.
-/
import proofs.«122991_j63007170232511_2_alg».proof.Proof.KBFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBRunD.lean ====
/-
  The body at a point of a middle column tile, unweighted branch: run on whole staging memrefs — the three input blocks at their contents, the
  output block handed back as it was found (the point does not store it), the accumulator at what the point before left — it ends
  with the inputs as they were and the accumulator with its stores written; the stores, as pieces, are what the
  run finds.
-/
import proofs.«122991_j63007170232511_2_alg».proof.Proof.KBFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_D (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KBRunE.lean ====
/-
  The body at a point of the last column tile, weighted branch: run on whole staging memrefs — the three input blocks at their contents, the
  output block at anything, the accumulator at what the point before left — it ends
  with the inputs as they were, the output block with its stores written and the accumulator with its stores written; the stores, as pieces, are what the
  run finds.
-/
import proofs.«122991_j63007170232511_2_alg».proof.Proof.KBFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_E (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KBRunG.lean ====
/-
  The body at a point of the last column tile, unweighted branch: run on whole staging memrefs — the three input blocks at their contents, the
  output block at anything, the accumulator at what the point before left — it ends
  with the inputs as they were, the output block with its stores written and the accumulator with its stores written; the stores, as pieces, are what the
  run finds.
-/
import proofs.«122991_j63007170232511_2_alg».proof.Proof.KBFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_G (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KBFrame.lean ====
/-
  The frame of the region: what the accumulator and the output block hold after each grid point, the proof data of the
  pipeline, the body obligation at every point, and the run of @main around the region.

  After the point of row tile q and column tile k the accumulator holds, for each of the tile's 1024 rows, the sum of the
  column tiles 0 … k's contributions (the first column tile starts it from zero); at the last column tile the output block
  takes shift + log(accumulator) − positive term. The two input windows that read the one feature array hold it at the two
  halves of the full share, joined again when the region ends.
-/
import proofs.«122991_j63007170232511_2_alg».proof.Proof.KBRunA
import proofs.«122991_j63007170232511_2_alg».proof.Proof.KBRunB
import proofs.«122991_j63007170232511_2_alg».proof.Proof.KBRunC
import proofs.«122991_j63007170232511_2_alg».proof.Proof.KBRunD
import proofs.«122991_j63007170232511_2_alg».proof.Proof.KBRunE
import proofs.«122991_j63007170232511_2_alg».proof.Proof.KBRunG

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases' pieces cover their buffers -/

/-- At the first column tile, weighted branch the body's stores into the accumulator cover it. -/
theorem scover0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) (y : S1024x1.Idx) :
    ∃ pc ∈ (kernelRun0_A c i arg2 harg2 arg3 harg3 arg4 harg4 arg5 harg5 arg6 harg6 hc0 hc1 hc2 hc3 x0 x1 x2).2.1, y ∈ pc.1.set :=
  View.cover_of_tiledL (kernelRun0_A c i arg2 harg2 arg3 harg3 arg4 harg4 arg5 harg5 arg6 harg6 hc0 hc1 hc2 hc3 x0 x1 x2).2.1 S1024x1.size (by sl_kernel_rfl) y

/-- What it leaves in the accumulator. -/
def sout0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) : Vec F S1024x1 .f32 :=
  VS0_0.read (Elt F) (VS0_0.writes (Elt F) VS0_0.junk (kernelRun0_A c i arg2 harg2 arg3 harg3 arg4 harg4 arg5 harg5 arg6 harg6 hc0 hc1 hc2 hc3 x0 x1 x2).2.1)

/-- At the first column tile, unweighted branch the body's stores into the accumulator cover it. -/
theorem scover0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) (y : S1024x1.Idx) :
    ∃ pc ∈ (kernelRun0_B c i arg2 harg2 arg3 harg3 arg4 harg4 arg5 harg5 arg6 harg6 hc0 hc1 hc2 hc3 x0 x1 x2).2.1, y ∈ pc.1.set :=
  View.cover_of_tiledL (kernelRun0_B c i arg2 harg2 arg3 harg3 arg4 harg4 arg5 harg5 arg6 harg6 hc0 hc1 hc2 hc3 x0 x1 x2).2.1 S1024x1.size (by sl_kernel_rfl) y

/-- What it leaves in the accumulator. -/
def sout0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 hc2 hc3 x0 x1 x2).2.1)

/-- At a middle column tile, weighted branch the body's stores into the accumulator cover it. -/
theorem scover0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) (y : S1024x1.Idx) :
    ∃ pc ∈ (kernelRun0_C c i arg2 harg2 arg3 harg3 arg4 harg4 arg5 harg5 arg6 harg6 hc0 hc1 hc2 hc3 x0 x1 x2 xs0).2.1, y ∈ pc.1.set :=
  View.cover_of_tiledL (kernelRun0_C c i arg2 harg2 arg3 harg3 arg4 harg4 arg5 harg5 arg6 harg6 hc0 hc1 hc2 hc3 x0 x1 x2 xs0).2.1 S1024x1.size (by sl_kernel_rfl) y

/-- What it leaves in the accumulator. -/
def sout0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 hc2 hc3 x0 x1 x2 xs0).2.1)

/-- At a middle column tile, unweighted branch the body's stores into the accumulator cover it. -/
theorem scover0_D_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) (y : S1024x1.Idx) :
    ∃ pc ∈ (kernelRun0_D c i arg2 harg2 arg3 harg3 arg4 harg4 arg5 harg5 arg6 harg6 hc0 hc1 hc2 hc3 x0 x1 x2 xs0).2.1, y ∈ pc.1.set :=
  View.cover_of_tiledL (kernelRun0_D c i arg2 harg2 arg3 harg3 arg4 harg4 arg5 harg5 arg6 harg6 hc0 hc1 hc2 hc3 x0 x1 x2 xs0).2.1 S1024x1.size (by sl_kernel_rfl) y

/-- What it leaves in the accumulator. -/
def sout0_D_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_D c i arg2 harg2 arg3 harg3 arg4 harg4 arg5 harg5 arg6 harg6 hc0 hc1 hc2 hc3 x0 x1 x2 xs0).2.1)

/-- At the last column tile, weighted branch the body's one store into the output block covers it. -/
theorem cover0_E_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).1, y ∈ pc.1.set :=
  View.cover_of_tiledL (kernelRun0_E c i arg2 harg2 arg3 harg3 arg4 harg4 arg5 harg5 arg6 harg6 hc0 hc1 hc2 hc3 x0 x1 x2 xs0).1 S1024x1.size (by sl_kernel_rfl) y

/-- What it leaves there: the row values. -/
def out0_E_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) : Vec F S1024x1 .f32 :=
  VO0_3.read (Elt F) (VO0_3.writes (Elt F) VO0_3.junk (kernelRun0_E c i arg2 harg2 arg3 harg3 arg4 harg4 arg5 harg5 arg6 harg6 hc0 hc1 hc2 hc3 x0 x1 x2 xs0).1)

/-- At the last column tile, weighted branch the body's stores into the accumulator cover it. -/
theorem scover0_E_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).2.1, y ∈ pc.1.set :=
  View.cover_of_tiledL (kernelRun0_E c i arg2 harg2 arg3 harg3 arg4 harg4 arg5 harg5 arg6 harg6 hc0 hc1 hc2 hc3 x0 x1 x2 xs0).2.1 S1024x1.size (by sl_kernel_rfl) y

/-- What it leaves in the accumulator. -/
def sout0_E_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_E c i arg2 harg2 arg3 harg3 arg4 harg4 arg5 harg5 arg6 harg6 hc0 hc1 hc2 hc3 x0 x1 x2 xs0).2.1)

/-- At the last column tile, unweighted branch the body's one store into the output block covers it. -/
theorem cover0_G_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).1, y ∈ pc.1.set :=
  View.cover_of_tiledL (kernelRun0_G c i arg2 harg2 arg3 harg3 arg4 harg4 arg5 harg5 arg6 harg6 hc0 hc1 hc2 hc3 x0 x1 x2 xs0).1 S1024x1.size (by sl_kernel_rfl) y

/-- What it leaves there: the row values. -/
def out0_G_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) : Vec F S1024x1 .f32 :=
  VO0_3.read (Elt F) (VO0_3.writes (Elt F) VO0_3.junk (kernelRun0_G c i arg2 harg2 arg3 harg3 arg4 harg4 arg5 harg5 arg6 harg6 hc0 hc1 hc2 hc3 x0 x1 x2 xs0).1)

/-- At the last column tile, unweighted branch the body's stores into the accumulator cover it. -/
theorem scover0_G_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).2.1, y ∈ pc.1.set :=
  View.cover_of_tiledL (kernelRun0_G c i arg2 harg2 arg3 harg3 arg4 harg4 arg5 harg5 arg6 harg6 hc0 hc1 hc2 hc3 x0 x1 x2 xs0).2.1 S1024x1.size (by sl_kernel_rfl) y

/-- What it leaves in the accumulator. -/
def sout0_G_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_G c i arg2 harg2 arg3 harg3 arg4 harg4 arg5 harg5 arg6 harg6 hc0 hc1 hc2 hc3 x0 x1 x2 xs0).2.1)

/-! ## The conditions at a point, from the closed forms -/

/-- Point n's column tile is within one of its row tile. -/
abbrev bandAt (n : ℕ) : Prop := n % 8 ≤ n / 8 + 1 ∧ n / 8 ≤ n % 8 + 1

theorem c0_of {t : Fin cfg0.N} (h : t.val % 8 = 0) : cond0_0 (grid0.coords t) := (hcond0_0 t).mpr h
theorem nc0_of {t : Fin cfg0.N} (h : ¬t.val % 8 = 0) : ¬cond0_0 (grid0.coords t) := fun h' => h ((hcond0_0 t).mp h')
theorem c1_of {t : Fin cfg0.N} (h : bandAt t.val) : cond0_1 (grid0.coords t) := (hcond0_1 t).mpr h
theorem nc1_of {t : Fin cfg0.N} (h : ¬bandAt t.val) : ¬cond0_1 (grid0.coords t) := fun h' => h ((hcond0_1 t).mp h')
theorem c2_of {t : Fin cfg0.N} (h : ¬bandAt t.val) : cond0_2 (grid0.coords t) := (hcond0_2 t).mpr h
theorem nc2_of {t : Fin cfg0.N} (h : bandAt t.val) : ¬cond0_2 (grid0.coords t) := fun h' => ((hcond0_2 t).mp h') h
theorem c3_of {t : Fin cfg0.N} (h : t.val % 8 = 7) : cond0_3 (grid0.coords t) := (hcond0_3 t).mpr h
theorem nc3_of {t : Fin cfg0.N} (h : ¬t.val % 8 = 7) : ¬cond0_3 (grid0.coords t) := fun h' => h ((hcond0_3 t).mp h')

/-! ## What the output block and the accumulator hold after each point -/

/-- Where the output block is idle nothing consults its entry. -/
def junkOut : Vec F S1024x1 .f32 := VO0_3.read (Elt F) VO0_3.junk

/-- After the body at position n: the output block's staging buffer and the accumulator — the case the closed forms select,
    run at the point's memrefs and input blocks, the accumulator read at what position n − 1 left. -/
def outsAt0 (c : Dev nD) : (n : ℕ) → n < cfg0.N → Vec F S1024x1 .f32 × Vec F S1024x1 .f32
  | 0, hn => (junkOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of (t := ⟨0, hn⟩) (Nat.zero_mod _)) (c1_of (t := ⟨0, hn⟩) (show bandAt 0 by decide)) (nc2_of (t := ⟨0, hn⟩) (show bandAt 0 by decide)) (nc3_of (t := ⟨0, hn⟩) (show ¬(0 % 8 = 7) by decide)) (iblk m c 0 ⟨0, hn⟩) (iblk m c 1 ⟨0, hn⟩) (iblk m c 2 ⟨0, hn⟩))
  | n + 1, hn =>
    if h0 : (n + 1) % 8 = 0 then
      if hb : bandAt (n + 1) then
        (junkOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of (t := ⟨n + 1, hn⟩) h0) (c1_of (t := ⟨n + 1, hn⟩) hb) (nc2_of (t := ⟨n + 1, hn⟩) hb) (nc3_of (t := ⟨n + 1, hn⟩) (show ¬((n + 1) % 8 = 7) by omega)) (iblk m c 0 ⟨n + 1, hn⟩) (iblk m c 1 ⟨n + 1, hn⟩) (iblk m c 2 ⟨n + 1, hn⟩))
      else
        (junkOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of (t := ⟨n + 1, hn⟩) h0) (nc1_of (t := ⟨n + 1, hn⟩) hb) (c2_of (t := ⟨n + 1, hn⟩) hb) (nc3_of (t := ⟨n + 1, hn⟩) (show ¬((n + 1) % 8 = 7) by omega)) (iblk m c 0 ⟨n + 1, hn⟩) (iblk m c 1 ⟨n + 1, hn⟩) (iblk m c 2 ⟨n + 1, hn⟩))
    else
      if h3 : (n + 1) % 8 = 7 then
        if hb : bandAt (n + 1) then
          (out0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (c1_of (t := ⟨n + 1, hn⟩) hb) (nc2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (c1_of (t := ⟨n + 1, hn⟩) hb) (nc2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)
        else
          (out0_G_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (nc1_of (t := ⟨n + 1, hn⟩) hb) (c2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2, sout0_G_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (nc1_of (t := ⟨n + 1, hn⟩) hb) (c2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)
      else
        if hb : bandAt (n + 1) then
          (junkOut, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (c1_of (t := ⟨n + 1, hn⟩) hb) (nc2_of (t := ⟨n + 1, hn⟩) hb) (nc3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)
        else
          (junkOut, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (nc1_of (t := ⟨n + 1, hn⟩) hb) (c2_of (t := ⟨n + 1, hn⟩) hb) (nc3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)

/-- The accumulation at a point of the first column tile, weighted branch. -/
theorem outsAt0_A (c : Dev nD) (t : Fin cfg0.N) (h0 : t.val % 8 = 0) (hb : bandAt t.val) (h3 : ¬t.val % 8 = 7) :
    outsAt0 m c t.val t.isLt = (junkOut, sout0_A_0 c (grid0.coords t) (ms0_0 t) (hs0_0 t) (ms0_1 t) (hs0_1 t) (ms0_2 t) (hs0_2 t) (ms0_3 t) (hs0_3 t) scM0_0 (Memref.isWhole_whole _) (c0_of (t := t) h0) (c1_of (t := t) hb) (nc2_of (t := t) hb) (nc3_of (t := t) h3) (iblk m c 0 t) (iblk m c 1 t) (iblk m c 2 t)) := by
  obtain ⟨n, hn⟩ := t
  cases n with
  | zero => exact rfl
  | succ n => exact (dif_pos h0).trans ((dif_pos hb).trans rfl)

/-- The accumulation at a point of the first column tile, unweighted branch. -/
theorem outsAt0_B (c : Dev nD) (t : Fin cfg0.N) (h0 : t.val % 8 = 0) (hb : ¬bandAt t.val) (h3 : ¬t.val % 8 = 7) :
    outsAt0 m c t.val t.isLt = (junkOut, sout0_B_0 c (grid0.coords t) (ms0_0 t) (hs0_0 t) (ms0_1 t) (hs0_1 t) (ms0_2 t) (hs0_2 t) (ms0_3 t) (hs0_3 t) scM0_0 (Memref.isWhole_whole _) (c0_of (t := t) h0) (nc1_of (t := t) hb) (c2_of (t := t) hb) (nc3_of (t := t) h3) (iblk m c 0 t) (iblk m c 1 t) (iblk m c 2 t)) := by
  obtain ⟨n, hn⟩ := t
  cases n with
  | zero => exact absurd (show bandAt 0 by decide) hb
  | succ n => exact (dif_pos h0).trans ((dif_neg hb).trans rfl)

/-- The accumulation at a point of a middle column tile, weighted branch. -/
theorem outsAt0_C (c : Dev nD) (t : Fin cfg0.N) (h0 : ¬t.val % 8 = 0) (hb : bandAt t.val) (h3 : ¬t.val % 8 = 7) :
    outsAt0 m c t.val t.isLt = (junkOut, sout0_C_0 c (grid0.coords t) (ms0_0 t) (hs0_0 t) (ms0_1 t) (hs0_1 t) (ms0_2 t) (hs0_2 t) (ms0_3 t) (hs0_3 t) scM0_0 (Memref.isWhole_whole _) (nc0_of (t := t) h0) (c1_of (t := t) hb) (nc2_of (t := t) hb) (nc3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_pos hb).trans rfl))

/-- The accumulation at a point of a middle column tile, unweighted branch. -/
theorem outsAt0_D (c : Dev nD) (t : Fin cfg0.N) (h0 : ¬t.val % 8 = 0) (hb : ¬bandAt t.val) (h3 : ¬t.val % 8 = 7) :
    outsAt0 m c t.val t.isLt = (junkOut, sout0_D_0 c (grid0.coords t) (ms0_0 t) (hs0_0 t) (ms0_1 t) (hs0_1 t) (ms0_2 t) (hs0_2 t) (ms0_3 t) (hs0_3 t) scM0_0 (Memref.isWhole_whole _) (nc0_of (t := t) h0) (nc1_of (t := t) hb) (c2_of (t := t) hb) (nc3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_neg hb).trans rfl))

/-- The accumulation at a point of the last column tile, weighted branch. -/
theorem outsAt0_E (c : Dev nD) (t : Fin cfg0.N) (h0 : ¬t.val % 8 = 0) (hb : bandAt t.val) (h3 : t.val % 8 = 7) :
    outsAt0 m c t.val t.isLt = (out0_E_3 c (grid0.coords t) (ms0_0 t) (hs0_0 t) (ms0_1 t) (hs0_1 t) (ms0_2 t) (hs0_2 t) (ms0_3 t) (hs0_3 t) scM0_0 (Memref.isWhole_whole _) (nc0_of (t := t) h0) (c1_of (t := t) hb) (nc2_of (t := t) hb) (c3_of (t := t) h3) (iblk m c 0 t) (iblk m c 1 t) (iblk m c 2 t) (outsAt0 m c (t.val - 1) (Nat.lt_of_le_of_lt (Nat.sub_le _ _) t.isLt)).2, sout0_E_0 c (grid0.coords t) (ms0_0 t) (hs0_0 t) (ms0_1 t) (hs0_1 t) (ms0_2 t) (hs0_2 t) (ms0_3 t) (hs0_3 t) scM0_0 (Memref.isWhole_whole _) (nc0_of (t := t) h0) (c1_of (t := t) hb) (nc2_of (t := t) hb) (c3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_pos hb).trans rfl))

/-- The accumulation at a point of the last column tile, unweighted branch. -/
theorem outsAt0_G (c : Dev nD) (t : Fin cfg0.N) (h0 : ¬t.val % 8 = 0) (hb : ¬bandAt t.val) (h3 : t.val % 8 = 7) :
    outsAt0 m c t.val t.isLt = (out0_G_3 c (grid0.coords t) (ms0_0 t) (hs0_0 t) (ms0_1 t) (hs0_1 t) (ms0_2 t) (hs0_2 t) (ms0_3 t) (hs0_3 t) scM0_0 (Memref.isWhole_whole _) (nc0_of (t := t) h0) (nc1_of (t := t) hb) (c2_of (t := t) hb) (c3_of (t := t) h3) (iblk m c 0 t) (iblk m c 1 t) (iblk m c 2 t) (outsAt0 m c (t.val - 1) (Nat.lt_of_le_of_lt (Nat.sub_le _ _) t.isLt)).2, sout0_G_0 c (grid0.coords t) (ms0_0 t) (hs0_0 t) (ms0_1 t) (hs0_1 t) (ms0_2 t) (hs0_2 t) (ms0_3 t) (hs0_3 t) scM0_0 (Memref.isWhole_whole _) (nc0_of (t := t) h0) (nc1_of (t := t) hb) (c2_of (t := t) hb) (c3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_neg hb).trans rfl))

/-- The region invariant before position n: before the first point what the launch hands over (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at the accumulation's
    first component; the invariant above; nothing owed; the feature array's full share dealt in halves to the two windows
    that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 9600000 in
/-- The body at any point: the inputs' buffers hold their blocks; the closed forms say which case the point is in; the invariant
    hands the body the accumulator at what the point before left (at anything before the first point) and takes it back at this
    point's contents; the output block is handed back untouched off the last column tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h3 : ¬t.val % 8 = 7 := by omega
    by_cases hb : bandAt t.val
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc3_of (t := t) h3)) (noFlush0_3 t (nc3_of (t := t) h3))]
      rw [outsAt0_A m c t h0 hb h3]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ (c0_of (t := t) h0) (c1_of (t := t) hb) (nc2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ (c0_of (t := t) h0) (c1_of (t := t) hb) (nc2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc3_of (t := t) h3)) (noFlush0_3 t (nc3_of (t := t) h3))]
      rw [outsAt0_B m c t h0 hb h3]
      unfold sout0_B_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (c0_of (t := t) h0) (nc1_of (t := t) hb) (c2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (c0_of (t := t) h0) (nc1_of (t := t) hb) (c2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h3 : t.val % 8 = 7
    · by_cases hb : bandAt t.val
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t (c3_of (t := t) h3)], after0_3]
        rw [outsAt0_E m c t h0 hb h3]
        unfold out0_E_3 sout0_E_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_E c (grid0.coords t) _ _ _ _ _ _ _ _ _ _ (nc0_of (t := t) h0) (c1_of (t := t) hb) (nc2_of (t := t) hb) (c3_of (t := t) h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_E_0 c _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_E_3 c _ _ _ _ _ _ _ _ _ _ _ _ _ _ _ _ _ _ _)
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t (c3_of (t := t) h3)], after0_3]
        rw [outsAt0_G m c t h0 hb h3]
        unfold out0_G_3 sout0_G_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_G c (grid0.coords t) _ _ _ _ _ _ _ _ _ _ (nc0_of (t := t) h0) (nc1_of (t := t) hb) (c2_of (t := t) hb) (c3_of (t := t) h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_G_0 c _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_G_3 c _ _ _ _ _ _ _ _ _ _ _ _ _ _ _ _ _ _ _)
    · by_cases hb : bandAt t.val
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [Dat.leavesExact_idle (dats m 0 c) 3 t (idleAt0_3 t (nc3_of (t := t) h3)) (noFlush0_3 t (nc3_of (t := t) h3))]
        rw [outsAt0_C m c t h0 hb h3]
        unfold sout0_C_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (nc0_of (t := t) h0) (c1_of (t := t) hb) (nc2_of (t := t) hb) (nc3_of (t := t) h3) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [Dat.leavesExact_idle (dats m 0 c) 3 t (idleAt0_3 t (nc3_of (t := t) h3)) (noFlush0_3 t (nc3_of (t := t) h3))]
        rw [outsAt0_D m c t h0 hb h3]
        unfold sout0_D_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_D c (grid0.coords t) _ _ _ _ _ _ _ _ _ _ (nc0_of (t := t) h0) (nc1_of (t := t) hb) (c2_of (t := t) hb) (nc3_of (t := t) h3) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_D_0 c _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.KBLaunch.lean ====
/-
  The run of @main around the region, the feature array shared by two input windows.

  The three distinct buffers behind the four windows' arrays, each whole at the full share, are the four windows' arrays at
  their shares: the feature array's full share is its left half (the row-tile window) and its right half (the column-tile
  window). With that dealing the library's launch applies, and the argument arrays end as they began.
-/
import proofs.«122991_j63007170232511_2_alg».proof.Proof.KBFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays. -/
theorem arrRefs_eq : (Finset.univ.image (Pipeline.arrRef spec0) : Finset (Ref sig .tc)) = {main_v29, main_v27, main_v30} := by decide

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl

/-- The distinct buffers, one by one. -/
theorem arrBufs_eq (c : Dev nD) (Vb : (b : Ref sig .tc) → Buf (Elt F) ((c.tc : Thread nD τ).loc b)) :
    (Pipeline.arrBufs spec0 c Vb : sProp 𝕄)
      = iprop((((c.tc : Thread nD τ).loc main_v29) ↦{fullShare} Vb main_v29) ∗ (((c.tc : Thread nD τ).loc main_v27) ↦{fullShare} Vb main_v27)
          ∗ (((c.tc : Thread nD τ).loc main_v30) ↦{fullShare} Vb main_v30)) := by
  unfold Pipeline.arrBufs
  rw [arrRefs_eq, BI.bigSep_insert (by decide), BI.bigSep_insert (by decide), BI.bigSep_singleton]
  rfl

/-- The dealing of the shares, in both directions. -/
theorem hdeal (c : Dev nD) (Vb : (b : Ref sig .tc) → Buf (Elt F) ((c.tc : Thread nD τ).loc b)) :
    (Pipeline.arrBufs spec0 c Vb : sProp 𝕄)
      ⊣⊢ bigSep Finset.univ fun w : Fin 4 => (((c.tc : Thread nD τ).loc (Pipeline.arrRef spec0 w)) ↦{(dats m 0 c).share w} Vb (Pipeline.arrRef spec0 w) : sProp 𝕄) := by
  rw [arrBufs_eq, bigSep_W0, share0_0, share0_1, share0_2, share0_3]
  refine ⟨?_, ?_⟩
  · iintro ⟨Hf, Hp, Ho⟩
    ihave Hs := (pointsTo_share (PosShare.mem_left_op_right fullShare)).1 $$ Hf
    icases Hs with ⟨Hl, Hr⟩
    isplitl [Hl]; · iexact Hl
    isplitl [Hr]; · iexact Hr
    isplitl [Hp]; · iexact Hp
    iexact Ho
  · iintro ⟨Hl, Hr, Hp, Ho⟩
    isplitl [Hl Hr]
    · iapply (pointsTo_share (PosShare.mem_left_op_right fullShare)).2
      isplitl [Hl]; · iexact Hl
      iexact Hr
    isplitl [Hp]; · iexact Hp
    iexact Ho

/-- Every window is an input or alone on its array. -/
theorem hio : ∀ w : Fin 4, ((cfgs 0).win w).isOut = false ∨ ∀ w', Pipeline.arrRef (cfgs 0).spec w' = Pipeline.arrRef (cfgs 0).spec w → w' = w := by decide

set_option backward.isDefEq.respectTransparency.types false in
/-- Every weakly fair execution of @main terminates, and in every final state each array of the pipeline holds what the
    proof data computes and every other unscoped buffer what the later operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track_shared_in cfgs (dats m) (0 : Fin 1) cellOf_inj winFacts₀0 block_pos0 arr_whole0 stage_whole0 hio
    defs₀ Variants.none m ρ main
    (hbody := fun c => (body_obligation m c).loose) (howed := fun _ _ => rfl) (hdeal := hdeal m)
    (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.KBHostArgs.lean ====
/-
  The host operations of the word-level program, before and after its region, write none of the program's three argument
  buffers: each operation writes its own result buffer, and no result buffer is an argument. This holds whatever the float
  values are, so it is stated for every instance of the float operations.
-/
import proofs.«122991_j63007170232511_2_alg».proof.Proof.Gen.Kernel.Launch
import Idealize.ShloMosaic.Lib.StableHlo.Run

noncomputable section

namespace Cert.KSideB

open Idealize.ShloMosaic
open Cert.Kernel

variable {F : FTy → Type} [FloatOps F]

/-- The first argument's buffer is untouched by the operations before the region. -/
theorem entry_arg0 (W : Valuation τ sig (Elt F)) :
    StableHlo.after (Gen.hostOps0 (F := F)) W (Proc.devRef .tc main_arg0) = W (Proc.devRef .tc main_arg0) := by
  after_results_simp

/-- The second argument's buffer is untouched by the operations before the region. -/
theorem entry_arg1 (W : Valuation τ sig (Elt F)) :
    StableHlo.after (Gen.hostOps0 (F := F)) W (Proc.devRef .tc main_arg1) = W (Proc.devRef .tc main_arg1) := by
  after_results_simp

/-- The third argument's buffer is untouched by the operations before the region. -/
theorem entry_arg2 (W : Valuation τ sig (Elt F)) :
    StableHlo.after (Gen.hostOps0 (F := F)) W (Proc.devRef .tc main_arg2) = W (Proc.devRef .tc main_arg2) := by
  after_results_simp

/-- The first argument's buffer is untouched by the operations after the region. -/
theorem tail_arg0 (W : Valuation τ sig (Elt F)) :
    StableHlo.after (Gen.hostOps1 (F := F)) W (Proc.devRef .tc main_arg0) = W (Proc.devRef .tc main_arg0) := by
  after_results_simp

/-- The second argument's buffer is untouched by the operations after the region. -/
theorem tail_arg1 (W : Valuation τ sig (Elt F)) :
    StableHlo.after (Gen.hostOps1 (F := F)) W (Proc.devRef .tc main_arg1) = W (Proc.devRef .tc main_arg1) := by
  after_results_simp

/-- The third argument's buffer is untouched by the operations after the region. -/
theorem tail_arg2 (W : Valuation τ sig (Elt F)) :
    StableHlo.after (Gen.hostOps1 (F := F)) W (Proc.devRef .tc main_arg2) = W (Proc.devRef .tc main_arg2) := by
  after_results_simp

end Cert.KSideB

end
-- ==== Proof.KBFrameArgs.lean ====
/-
  The word-level program's frame: it runs to the end without a fault and its argument arrays end as they began.

  The region stages none of the arguments, the host operations before and after it write none of them, so what the
  run's post says of every other unscoped buffer — its contents after the later operations, from the region's exit
  contents — reads, at an argument, the launch memory.
-/
import proofs.«122991_j63007170232511_2_alg».proof.Proof.KBLaunch
import proofs.«122991_j63007170232511_2_alg».proof.Proof.KBHostArgs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

variable (m : (ℓ : Loc nD τ sig) → Buf (Elt F) ℓ) (ρ : Dev nD → PrngReg)

theorem flatten0 : List.flatten [hostOps0 (F := F)] = hostOps0 := by
  simp only [List.flatten_cons, List.flatten_nil, List.append_nil]
theorem flatten1 : List.flatten [hostOps1 (F := F)] = hostOps1 := by
  simp only [List.flatten_cons, List.flatten_nil, List.append_nil]

theorem mem_rest_arg0 : main_arg0 ∈ Pipeline.restRefs sig spec0 := by decide
theorem mem_rest_arg1 : main_arg1 ∈ Pipeline.restRefs sig spec0 := by decide
theorem mem_rest_arg2 : main_arg2 ∈ Pipeline.restRefs sig spec0 := by decide

/-- The contents the later operations start from. -/
abbrev WN (c : Dev nD) : Valuation τ sig (Elt F) :=
  Pipeline.withArrays spec0 c (V0 m c) fun w => (dats m 0 c).arrAt w cfg0.N

theorem WN_arg (c : Dev nD) (b : Ref sig .tc) (hb : ∀ w, Pipeline.arrRef spec0 w ≠ b) :
    WN m c (Proc.devRef .tc b) = V0 m c (Proc.devRef .tc b) :=
  Pipeline.withArrays_of_ne spec0 c (V0 m c) _ b hb

/-- Every weakly fair execution terminates, nothing faults, and the three argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_⟩) (run_main m ρ)
  · rw [(h c).2 main_arg0 mem_rest_arg0]
    unfold Pipeline.afterTail₀
    show StableHlo.after (List.flatten [hostOps1 (F := F)]) (WN m c) (Proc.devRef .tc main_arg0) = _
    rw [flatten1, Cert.KSideB.tail_arg0, WN_arg m c main_arg0 (by decide)]
    show StableHlo.after (List.flatten [hostOps0 (F := F)]) (fun b => m (c, b)) (Proc.devRef .tc main_arg0) = _
    rw [flatten0, Cert.KSideB.entry_arg0]
  · rw [(h c).2 main_arg1 mem_rest_arg1]
    unfold Pipeline.afterTail₀
    show StableHlo.after (List.flatten [hostOps1 (F := F)]) (WN m c) (Proc.devRef .tc main_arg1) = _
    rw [flatten1, Cert.KSideB.tail_arg1, WN_arg m c main_arg1 (by decide)]
    show StableHlo.after (List.flatten [hostOps0 (F := F)]) (fun b => m (c, b)) (Proc.devRef .tc main_arg1) = _
    rw [flatten0, Cert.KSideB.entry_arg1]
  · rw [(h c).2 main_arg2 mem_rest_arg2]
    unfold Pipeline.afterTail₀
    show StableHlo.after (List.flatten [hostOps1 (F := F)]) (WN m c) (Proc.devRef .tc main_arg2) = _
    rw [flatten1, Cert.KSideB.tail_arg2, WN_arg m c main_arg2 (by decide)]
    show StableHlo.after (List.flatten [hostOps0 (F := F)]) (fun b => m (c, b)) (Proc.devRef .tc main_arg2) = _
    rw [flatten0, Cert.KSideB.entry_arg2]

end Cert.Kernel.Hand

end
-- ==== Proof.KIFrameBase.lean ====
/-
  The region of the one pallas_call, as the per-case runs of its body and the frame around it see it.

  The grid is 8 × 8: point t has row tile t / 8 and column tile t % 8. The body has four conditionals on the point:
  the first column tile (the row accumulator is zeroed), the column tile within one of the row tile (the banded weight is
  applied), its negation (the plain exponential sum), and the last column tile (the row values are written out).
  The accumulator is a scratch carried from point to point; the output block is stored only at the last column tile and is
  idle, and not written back, elsewhere. Input windows 0 and 1 read ONE array (the feature rows, by row tile and by
  column tile), window 2 the positive terms by row tile.
-/
import proofs.«122991_j63007170232511_2_alg».proof.Proof.Gen.KernelIdeal.Launch
import proofs.«122991_j63007170232511_2_alg».proof.Proof.Gen.KernelIdeal.Skeleton
import proofs.«122991_j63007170232511_2_alg».proof.Proof.Gen.KernelIdeal.Points
import proofs.«122991_j63007170232511_2_alg».proof.Proof.LibSharedInputs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the host operations before it. -/
abbrev V0 (c : Dev nD) : Valuation τ sig (Elt F) := StableHlo.after (List.flatten [hostOps0 (F := F)]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-- The later operations touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the region's arrays (each writes its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first column tile. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The column tile's last column is at least the row tile's first row less 21, and its first column at most the row
    tile's last row plus 21: the bit the two later conditionals test. -/
abbrev bandBit (i : grid0.Coords) : BitVec 1 :=
  Scalar.andi
    (Scalar.cmpi .sge (Scalar.subi (Scalar.addi (Scalar.muli (BitVec.ofNat 32 (i 1).val) 1024#32) 1024#32) 1#32) (Scalar.subi (Scalar.muli (BitVec.ofNat 32 (i 0).val) 1024#32) 21#32))
    (Scalar.cmpi .sle (Scalar.muli (BitVec.ofNat 32 (i 1).val) 1024#32) (Scalar.addi (Scalar.subi (Scalar.addi (Scalar.muli (BitVec.ofNat 32 (i 0).val) 1024#32) 1024#32) 1#32) 21#32))
/-- The weighted branch: column tile within one of the row tile. -/
abbrev cond0_1 (i : grid0.Coords) : Prop := (Scalar.cmpi .ne (Scalar.extui (bandBit i)) 0#32) = 1#1
theorem hcond0_1 : ∀ t : Fin cfg0.N, cond0_1 (grid0.coords t) ↔ (t.val % 8 ≤ t.val / 8 + 1 ∧ t.val / 8 ≤ t.val % 8 + 1) :=
  (by decide +kernel : ∀ t : Fin grid0.N, cond0_1 (grid0.coords t) ↔ (t.val % 8 ≤ t.val / 8 + 1 ∧ t.val / 8 ≤ t.val % 8 + 1))
/-- The unweighted branch: its negation. -/
abbrev cond0_2 (i : grid0.Coords) : Prop := (Scalar.cmpi .ne (Scalar.extui (Scalar.xori (bandBit i) 1#1)) 0#32) = 1#1
theorem hcond0_2 : ∀ t : Fin cfg0.N, cond0_2 (grid0.coords t) ↔ ¬(t.val % 8 ≤ t.val / 8 + 1 ∧ t.val / 8 ≤ t.val % 8 + 1) :=
  (by decide +kernel : ∀ t : Fin grid0.N, cond0_2 (grid0.coords t) ↔ ¬(t.val % 8 ≤ t.val / 8 + 1 ∧ t.val / 8 ≤ t.val % 8 + 1))
/-- The last column tile. -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column tile the output block is idle and not written back; -/
theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
/-- at it the body stores it. -/
theorem liveAt0_3 : ∀ t : Fin cfg0.N, cond0_3 (grid0.coords t) → cfg0.idle 3 (grid0.coords t) = false := by decide +kernel

/-! ## The staging and scratch memrefs -/

/-- One staging buffer of the output window, through which its contents are stated. -/
abbrev VO0_3 : View sig .tc .vmem S1024x1 .f32 := (Memref.whole cc0_stg3_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1 .f32 := Memref.whole cc0_scratch0
abbrev VS0_0 : View sig .tc .vmem S1024x1 .f32 := scM0_0.view

/-- What the launch hands the region besides the windows: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/-
  The body at a point of the first column tile, weighted branch: run on whole staging memrefs — the three input blocks at their contents, the
  output block handed back as it was found (the point does not store it), the accumulator at anything (the point zeroes it first) — it ends
  with the inputs as they were and the accumulator with its stores written; the stores, as pieces, are what the
  run finds.
-/
import proofs.«122991_j63007170232511_2_alg».proof.Proof.KIFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRunB.lean ====
/-
  The body at a point of the first column tile, unweighted branch: run on whole staging memrefs — the three input blocks at their contents, the
  output block handed back as it was found (the point does not store it), the accumulator at anything (the point zeroes it first) — it ends
  with the inputs as they were and the accumulator with its stores written; the stores, as pieces, are what the
  run finds.
-/
import proofs.«122991_j63007170232511_2_alg».proof.Proof.KIFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRunC.lean ====
/-
  The body at a point of a middle column tile, weighted branch: run on whole staging memrefs — the three input blocks at their contents, the
  output block handed back as it was found (the point does not store it), the accumulator at what the point before left — it ends
  with the inputs as they were and the accumulator with its stores written; the stores, as pieces, are what the
  run finds.
-/
import proofs.«122991_j63007170232511_2_alg».proof.Proof.KIFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRunD.lean ====
/-
  The body at a point of a middle column tile, unweighted branch: run on whole staging memrefs — the three input blocks at their contents, the
  output block handed back as it was found (the point does not store it), the accumulator at what the point before left — it ends
  with the inputs as they were and the accumulator with its stores written; the stores, as pieces, are what the
  run finds.
-/
import proofs.«122991_j63007170232511_2_alg».proof.Proof.KIFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_D (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRunE.lean ====
/-
  The body at a point of the last column tile, weighted branch: run on whole staging memrefs — the three input blocks at their contents, the
  output block at anything, the accumulator at what the point before left — it ends
  with the inputs as they were, the output block with its stores written and the accumulator with its stores written; the stores, as pieces, are what the
  run finds.
-/
import proofs.«122991_j63007170232511_2_alg».proof.Proof.KIFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_E (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIRunG.lean ====
/-
  The body at a point of the last column tile, unweighted branch: run on whole staging memrefs — the three input blocks at their contents, the
  output block at anything, the accumulator at what the point before left — it ends
  with the inputs as they were, the output block with its stores written and the accumulator with its stores written; the stores, as pieces, are what the
  run finds.
-/
import proofs.«122991_j63007170232511_2_alg».proof.Proof.KIFrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the accumulator at such a point, with the run. -/
noncomputable def kernelRun0_G (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) :
    Σ' (L3 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIFrame.lean ====
/-
  The frame of the region: what the accumulator and the output block hold after each grid point, the proof data of the
  pipeline, the body obligation at every point, and the run of @main around the region.

  After the point of row tile q and column tile k the accumulator holds, for each of the tile's 1024 rows, the sum of the
  column tiles 0 … k's contributions (the first column tile starts it from zero); at the last column tile the output block
  takes shift + log(accumulator) − positive term. The two input windows that read the one feature array hold it at the two
  halves of the full share, joined again when the region ends.
-/
import proofs.«122991_j63007170232511_2_alg».proof.Proof.KIRunA
import proofs.«122991_j63007170232511_2_alg».proof.Proof.KIRunB
import proofs.«122991_j63007170232511_2_alg».proof.Proof.KIRunC
import proofs.«122991_j63007170232511_2_alg».proof.Proof.KIRunD
import proofs.«122991_j63007170232511_2_alg».proof.Proof.KIRunE
import proofs.«122991_j63007170232511_2_alg».proof.Proof.KIRunG

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases' pieces cover their buffers -/

/-- At the first column tile, weighted branch the body's stores into the accumulator cover it. -/
theorem scover0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) (y : S1024x1.Idx) :
    ∃ pc ∈ (kernelRun0_A c i arg2 harg2 arg3 harg3 arg4 harg4 arg5 harg5 arg6 harg6 hc0 hc1 hc2 hc3 x0 x1 x2).2.1, y ∈ pc.1.set :=
  View.cover_of_tiledL (kernelRun0_A c i arg2 harg2 arg3 harg3 arg4 harg4 arg5 harg5 arg6 harg6 hc0 hc1 hc2 hc3 x0 x1 x2).2.1 S1024x1.size (by sl_kernel_rfl) y

/-- What it leaves in the accumulator. -/
def sout0_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) : Vec F S1024x1 .f32 :=
  VS0_0.read (Elt F) (VS0_0.writes (Elt F) VS0_0.junk (kernelRun0_A c i arg2 harg2 arg3 harg3 arg4 harg4 arg5 harg5 arg6 harg6 hc0 hc1 hc2 hc3 x0 x1 x2).2.1)

/-- At the first column tile, unweighted branch the body's stores into the accumulator cover it. -/
theorem scover0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) (y : S1024x1.Idx) :
    ∃ pc ∈ (kernelRun0_B c i arg2 harg2 arg3 harg3 arg4 harg4 arg5 harg5 arg6 harg6 hc0 hc1 hc2 hc3 x0 x1 x2).2.1, y ∈ pc.1.set :=
  View.cover_of_tiledL (kernelRun0_B c i arg2 harg2 arg3 harg3 arg4 harg4 arg5 harg5 arg6 harg6 hc0 hc1 hc2 hc3 x0 x1 x2).2.1 S1024x1.size (by sl_kernel_rfl) y

/-- What it leaves in the accumulator. -/
def sout0_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) : Vec F S1024x1 .f32 :=
  VS0_0.read (Elt F) (VS0_0.writes (Elt F) VS0_0.junk (kernelRun0_B c i arg2 harg2 arg3 harg3 arg4 harg4 arg5 harg5 arg6 harg6 hc0 hc1 hc2 hc3 x0 x1 x2).2.1)

/-- At a middle column tile, weighted branch the body's stores into the accumulator cover it. -/
theorem scover0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) (y : S1024x1.Idx) :
    ∃ pc ∈ (kernelRun0_C c i arg2 harg2 arg3 harg3 arg4 harg4 arg5 harg5 arg6 harg6 hc0 hc1 hc2 hc3 x0 x1 x2 xs0).2.1, y ∈ pc.1.set :=
  View.cover_of_tiledL (kernelRun0_C c i arg2 harg2 arg3 harg3 arg4 harg4 arg5 harg5 arg6 harg6 hc0 hc1 hc2 hc3 x0 x1 x2 xs0).2.1 S1024x1.size (by sl_kernel_rfl) y

/-- What it leaves in the accumulator. -/
def sout0_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 hc0 hc1 hc2 hc3 x0 x1 x2 xs0).2.1)

/-- At a middle column tile, unweighted branch the body's stores into the accumulator cover it. -/
theorem scover0_D_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) (y : S1024x1.Idx) :
    ∃ pc ∈ (kernelRun0_D c i arg2 harg2 arg3 harg3 arg4 harg4 arg5 harg5 arg6 harg6 hc0 hc1 hc2 hc3 x0 x1 x2 xs0).2.1, y ∈ pc.1.set :=
  View.cover_of_tiledL (kernelRun0_D c i arg2 harg2 arg3 harg3 arg4 harg4 arg5 harg5 arg6 harg6 hc0 hc1 hc2 hc3 x0 x1 x2 xs0).2.1 S1024x1.size (by sl_kernel_rfl) y

/-- What it leaves in the accumulator. -/
def sout0_D_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_D c i arg2 harg2 arg3 harg3 arg4 harg4 arg5 harg5 arg6 harg6 hc0 hc1 hc2 hc3 x0 x1 x2 xs0).2.1)

/-- At the last column tile, weighted branch the body's one store into the output block covers it. -/
theorem cover0_E_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).1, y ∈ pc.1.set :=
  View.cover_of_tiledL (kernelRun0_E c i arg2 harg2 arg3 harg3 arg4 harg4 arg5 harg5 arg6 harg6 hc0 hc1 hc2 hc3 x0 x1 x2 xs0).1 S1024x1.size (by sl_kernel_rfl) y

/-- What it leaves there: the row values. -/
def out0_E_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) : Vec F S1024x1 .f32 :=
  VO0_3.read (Elt F) (VO0_3.writes (Elt F) VO0_3.junk (kernelRun0_E c i arg2 harg2 arg3 harg3 arg4 harg4 arg5 harg5 arg6 harg6 hc0 hc1 hc2 hc3 x0 x1 x2 xs0).1)

/-- At the last column tile, weighted branch the body's stores into the accumulator cover it. -/
theorem scover0_E_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_E c i arg2 harg2 arg3 harg3 arg4 harg4 arg5 harg5 arg6 harg6 hc0 hc1 hc2 hc3 x0 x1 x2 xs0).2.1, y ∈ pc.1.set :=
  View.cover_of_tiledL (kernelRun0_E c i arg2 harg2 arg3 harg3 arg4 harg4 arg5 harg5 arg6 harg6 hc0 hc1 hc2 hc3 x0 x1 x2 xs0).2.1 S1024x1.size (by sl_kernel_rfl) y

/-- What it leaves in the accumulator. -/
def sout0_E_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_E c i arg2 harg2 arg3 harg3 arg4 harg4 arg5 harg5 arg6 harg6 hc0 hc1 hc2 hc3 x0 x1 x2 xs0).2.1)

/-- At the last column tile, unweighted branch the body's one store into the output block covers it. -/
theorem cover0_G_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).1, y ∈ pc.1.set :=
  View.cover_of_tiledL (kernelRun0_G c i arg2 harg2 arg3 harg3 arg4 harg4 arg5 harg5 arg6 harg6 hc0 hc1 hc2 hc3 x0 x1 x2 xs0).1 S1024x1.size (by sl_kernel_rfl) y

/-- What it leaves there: the row values. -/
def out0_G_3 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) : Vec F S1024x1 .f32 :=
  VO0_3.read (Elt F) (VO0_3.writes (Elt F) VO0_3.junk (kernelRun0_G c i arg2 harg2 arg3 harg3 arg4 harg4 arg5 harg5 arg6 harg6 hc0 hc1 hc2 hc3 x0 x1 x2 xs0).1)

/-- At the last column tile, unweighted branch the body's stores into the accumulator cover it. -/
theorem scover0_G_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) (y : S1024x1.Idx) :
    ∃ pc ∈ (kernelRun0_G c i arg2 harg2 arg3 harg3 arg4 harg4 arg5 harg5 arg6 harg6 hc0 hc1 hc2 hc3 x0 x1 x2 xs0).2.1, y ∈ pc.1.set :=
  View.cover_of_tiledL (kernelRun0_G c i arg2 harg2 arg3 harg3 arg4 harg4 arg5 harg5 arg6 harg6 hc0 hc1 hc2 hc3 x0 x1 x2 xs0).2.1 S1024x1.size (by sl_kernel_rfl) y

/-- What it leaves in the accumulator. -/
def sout0_G_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) : Vec F S1024x1 .f32 :=
  VS0_0.read (Elt F) (VS0_0.writes (Elt F) VS0_0.junk (kernelRun0_G c i arg2 harg2 arg3 harg3 arg4 harg4 arg5 harg5 arg6 harg6 hc0 hc1 hc2 hc3 x0 x1 x2 xs0).2.1)

/-! ## The conditions at a point, from the closed forms -/

/-- Point n's column tile is within one of its row tile. -/
abbrev bandAt (n : ℕ) : Prop := n % 8 ≤ n / 8 + 1 ∧ n / 8 ≤ n % 8 + 1

theorem c0_of {t : Fin cfg0.N} (h : t.val % 8 = 0) : cond0_0 (grid0.coords t) := (hcond0_0 t).mpr h
theorem nc0_of {t : Fin cfg0.N} (h : ¬t.val % 8 = 0) : ¬cond0_0 (grid0.coords t) := fun h' => h ((hcond0_0 t).mp h')
theorem c1_of {t : Fin cfg0.N} (h : bandAt t.val) : cond0_1 (grid0.coords t) := (hcond0_1 t).mpr h
theorem nc1_of {t : Fin cfg0.N} (h : ¬bandAt t.val) : ¬cond0_1 (grid0.coords t) := fun h' => h ((hcond0_1 t).mp h')
theorem c2_of {t : Fin cfg0.N} (h : ¬bandAt t.val) : cond0_2 (grid0.coords t) := (hcond0_2 t).mpr h
theorem nc2_of {t : Fin cfg0.N} (h : bandAt t.val) : ¬cond0_2 (grid0.coords t) := fun h' => ((hcond0_2 t).mp h') h
theorem c3_of {t : Fin cfg0.N} (h : t.val % 8 = 7) : cond0_3 (grid0.coords t) := (hcond0_3 t).mpr h
theorem nc3_of {t : Fin cfg0.N} (h : ¬t.val % 8 = 7) : ¬cond0_3 (grid0.coords t) := fun h' => h ((hcond0_3 t).mp h')

/-! ## What the output block and the accumulator hold after each point -/

/-- Where the output block is idle nothing consults its entry. -/
def junkOut : Vec F S1024x1 .f32 := VO0_3.read (Elt F) VO0_3.junk

/-- After the body at position n: the output block's staging buffer and the accumulator — the case the closed forms select,
    run at the point's memrefs and input blocks, the accumulator read at what position n − 1 left. -/
def outsAt0 (c : Dev nD) : (n : ℕ) → n < cfg0.N → Vec F S1024x1 .f32 × Vec F S1024x1 .f32
  | 0, hn => (junkOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) (c0_of (t := ⟨0, hn⟩) (Nat.zero_mod _)) (c1_of (t := ⟨0, hn⟩) (show bandAt 0 by decide)) (nc2_of (t := ⟨0, hn⟩) (show bandAt 0 by decide)) (nc3_of (t := ⟨0, hn⟩) (show ¬(0 % 8 = 7) by decide)) (iblk m c 0 ⟨0, hn⟩) (iblk m c 1 ⟨0, hn⟩) (iblk m c 2 ⟨0, hn⟩))
  | n + 1, hn =>
    if h0 : (n + 1) % 8 = 0 then
      if hb : bandAt (n + 1) then
        (junkOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of (t := ⟨n + 1, hn⟩) h0) (c1_of (t := ⟨n + 1, hn⟩) hb) (nc2_of (t := ⟨n + 1, hn⟩) hb) (nc3_of (t := ⟨n + 1, hn⟩) (show ¬((n + 1) % 8 = 7) by omega)) (iblk m c 0 ⟨n + 1, hn⟩) (iblk m c 1 ⟨n + 1, hn⟩) (iblk m c 2 ⟨n + 1, hn⟩))
      else
        (junkOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (c0_of (t := ⟨n + 1, hn⟩) h0) (nc1_of (t := ⟨n + 1, hn⟩) hb) (c2_of (t := ⟨n + 1, hn⟩) hb) (nc3_of (t := ⟨n + 1, hn⟩) (show ¬((n + 1) % 8 = 7) by omega)) (iblk m c 0 ⟨n + 1, hn⟩) (iblk m c 1 ⟨n + 1, hn⟩) (iblk m c 2 ⟨n + 1, hn⟩))
    else
      if h3 : (n + 1) % 8 = 7 then
        if hb : bandAt (n + 1) then
          (out0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (c1_of (t := ⟨n + 1, hn⟩) hb) (nc2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (c1_of (t := ⟨n + 1, hn⟩) hb) (nc2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)
        else
          (out0_G_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (nc1_of (t := ⟨n + 1, hn⟩) hb) (c2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2, sout0_G_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (nc1_of (t := ⟨n + 1, hn⟩) hb) (c2_of (t := ⟨n + 1, hn⟩) hb) (c3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)
      else
        if hb : bandAt (n + 1) then
          (junkOut, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (c1_of (t := ⟨n + 1, hn⟩) hb) (nc2_of (t := ⟨n + 1, hn⟩) hb) (nc3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)
        else
          (junkOut, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (nc0_of (t := ⟨n + 1, hn⟩) h0) (nc1_of (t := ⟨n + 1, hn⟩) hb) (c2_of (t := ⟨n + 1, hn⟩) hb) (nc3_of (t := ⟨n + 1, hn⟩) h3) (iblk m c 0 ⟨n + 1, hn⟩) (iblk m c 1 ⟨n + 1, hn⟩) (iblk m c 2 ⟨n + 1, hn⟩) (outsAt0 c n (Nat.lt_of_succ_lt hn)).2)

/-- The accumulation at a point of the first column tile, weighted branch. -/
theorem outsAt0_A (c : Dev nD) (t : Fin cfg0.N) (h0 : t.val % 8 = 0) (hb : bandAt t.val) (h3 : ¬t.val % 8 = 7) :
    outsAt0 m c t.val t.isLt = (junkOut, sout0_A_0 c (grid0.coords t) (ms0_0 t) (hs0_0 t) (ms0_1 t) (hs0_1 t) (ms0_2 t) (hs0_2 t) (ms0_3 t) (hs0_3 t) scM0_0 (Memref.isWhole_whole _) (c0_of (t := t) h0) (c1_of (t := t) hb) (nc2_of (t := t) hb) (nc3_of (t := t) h3) (iblk m c 0 t) (iblk m c 1 t) (iblk m c 2 t)) := by
  obtain ⟨n, hn⟩ := t
  cases n with
  | zero => exact rfl
  | succ n => exact (dif_pos h0).trans ((dif_pos hb).trans rfl)

/-- The accumulation at a point of the first column tile, unweighted branch. -/
theorem outsAt0_B (c : Dev nD) (t : Fin cfg0.N) (h0 : t.val % 8 = 0) (hb : ¬bandAt t.val) (h3 : ¬t.val % 8 = 7) :
    outsAt0 m c t.val t.isLt = (junkOut, sout0_B_0 c (grid0.coords t) (ms0_0 t) (hs0_0 t) (ms0_1 t) (hs0_1 t) (ms0_2 t) (hs0_2 t) (ms0_3 t) (hs0_3 t) scM0_0 (Memref.isWhole_whole _) (c0_of (t := t) h0) (nc1_of (t := t) hb) (c2_of (t := t) hb) (nc3_of (t := t) h3) (iblk m c 0 t) (iblk m c 1 t) (iblk m c 2 t)) := by
  obtain ⟨n, hn⟩ := t
  cases n with
  | zero => exact absurd (show bandAt 0 by decide) hb
  | succ n => exact (dif_pos h0).trans ((dif_neg hb).trans rfl)

/-- The accumulation at a point of a middle column tile, weighted branch. -/
theorem outsAt0_C (c : Dev nD) (t : Fin cfg0.N) (h0 : ¬t.val % 8 = 0) (hb : bandAt t.val) (h3 : ¬t.val % 8 = 7) :
    outsAt0 m c t.val t.isLt = (junkOut, sout0_C_0 c (grid0.coords t) (ms0_0 t) (hs0_0 t) (ms0_1 t) (hs0_1 t) (ms0_2 t) (hs0_2 t) (ms0_3 t) (hs0_3 t) scM0_0 (Memref.isWhole_whole _) (nc0_of (t := t) h0) (c1_of (t := t) hb) (nc2_of (t := t) hb) (nc3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_pos hb).trans rfl))

/-- The accumulation at a point of a middle column tile, unweighted branch. -/
theorem outsAt0_D (c : Dev nD) (t : Fin cfg0.N) (h0 : ¬t.val % 8 = 0) (hb : ¬bandAt t.val) (h3 : ¬t.val % 8 = 7) :
    outsAt0 m c t.val t.isLt = (junkOut, sout0_D_0 c (grid0.coords t) (ms0_0 t) (hs0_0 t) (ms0_1 t) (hs0_1 t) (ms0_2 t) (hs0_2 t) (ms0_3 t) (hs0_3 t) scM0_0 (Memref.isWhole_whole _) (nc0_of (t := t) h0) (nc1_of (t := t) hb) (c2_of (t := t) hb) (nc3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h3).trans ((dif_neg hb).trans rfl))

/-- The accumulation at a point of the last column tile, weighted branch. -/
theorem outsAt0_E (c : Dev nD) (t : Fin cfg0.N) (h0 : ¬t.val % 8 = 0) (hb : bandAt t.val) (h3 : t.val % 8 = 7) :
    outsAt0 m c t.val t.isLt = (out0_E_3 c (grid0.coords t) (ms0_0 t) (hs0_0 t) (ms0_1 t) (hs0_1 t) (ms0_2 t) (hs0_2 t) (ms0_3 t) (hs0_3 t) scM0_0 (Memref.isWhole_whole _) (nc0_of (t := t) h0) (c1_of (t := t) hb) (nc2_of (t := t) hb) (c3_of (t := t) h3) (iblk m c 0 t) (iblk m c 1 t) (iblk m c 2 t) (outsAt0 m c (t.val - 1) (Nat.lt_of_le_of_lt (Nat.sub_le _ _) t.isLt)).2, sout0_E_0 c (grid0.coords t) (ms0_0 t) (hs0_0 t) (ms0_1 t) (hs0_1 t) (ms0_2 t) (hs0_2 t) (ms0_3 t) (hs0_3 t) scM0_0 (Memref.isWhole_whole _) (nc0_of (t := t) h0) (c1_of (t := t) hb) (nc2_of (t := t) hb) (c3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_pos hb).trans rfl))

/-- The accumulation at a point of the last column tile, unweighted branch. -/
theorem outsAt0_G (c : Dev nD) (t : Fin cfg0.N) (h0 : ¬t.val % 8 = 0) (hb : ¬bandAt t.val) (h3 : t.val % 8 = 7) :
    outsAt0 m c t.val t.isLt = (out0_G_3 c (grid0.coords t) (ms0_0 t) (hs0_0 t) (ms0_1 t) (hs0_1 t) (ms0_2 t) (hs0_2 t) (ms0_3 t) (hs0_3 t) scM0_0 (Memref.isWhole_whole _) (nc0_of (t := t) h0) (nc1_of (t := t) hb) (c2_of (t := t) hb) (c3_of (t := t) h3) (iblk m c 0 t) (iblk m c 1 t) (iblk m c 2 t) (outsAt0 m c (t.val - 1) (Nat.lt_of_le_of_lt (Nat.sub_le _ _) t.isLt)).2, sout0_G_0 c (grid0.coords t) (ms0_0 t) (hs0_0 t) (ms0_1 t) (hs0_1 t) (ms0_2 t) (hs0_2 t) (ms0_3 t) (hs0_3 t) scM0_0 (Memref.isWhole_whole _) (nc0_of (t := t) h0) (nc1_of (t := t) hb) (c2_of (t := t) hb) (c3_of (t := t) h3) (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h3).trans ((dif_neg hb).trans rfl))

/-- The region invariant before position n: before the first point what the launch hands over (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at the accumulation's
    first component; the invariant above; nothing owed; the feature array's full share dealt in halves to the two windows
    that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 9600000 in
/-- The body at any point: the inputs' buffers hold their blocks; the closed forms say which case the point is in; the invariant
    hands the body the accumulator at what the point before left (at anything before the first point) and takes it back at this
    point's contents; the output block is handed back untouched off the last column tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h3 : ¬t.val % 8 = 7 := by omega
    by_cases hb : bandAt t.val
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc3_of (t := t) h3)) (noFlush0_3 t (nc3_of (t := t) h3))]
      rw [outsAt0_A m c t h0 hb h3]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ (c0_of (t := t) h0) (c1_of (t := t) hb) (nc2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ (c0_of (t := t) h0) (c1_of (t := t) hb) (nc2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (nc3_of (t := t) h3)) (noFlush0_3 t (nc3_of (t := t) h3))]
      rw [outsAt0_B m c t h0 hb h3]
      unfold sout0_B_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (c0_of (t := t) h0) (nc1_of (t := t) hb) (c2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (c0_of (t := t) h0) (nc1_of (t := t) hb) (c2_of (t := t) hb) (nc3_of (t := t) h3) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h3 : t.val % 8 = 7
    · by_cases hb : bandAt t.val
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t (c3_of (t := t) h3)], after0_3]
        rw [outsAt0_E m c t h0 hb h3]
        unfold out0_E_3 sout0_E_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_E c (grid0.coords t) _ _ _ _ _ _ _ _ _ _ (nc0_of (t := t) h0) (c1_of (t := t) hb) (nc2_of (t := t) hb) (c3_of (t := t) h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_E_0 c _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_E_3 c _ _ _ _ _ _ _ _ _ _ _ _ _ _ _ _ _ _ _)
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t (c3_of (t := t) h3)], after0_3]
        rw [outsAt0_G m c t h0 hb h3]
        unfold out0_G_3 sout0_G_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_G c (grid0.coords t) _ _ _ _ _ _ _ _ _ _ (nc0_of (t := t) h0) (nc1_of (t := t) hb) (c2_of (t := t) hb) (c3_of (t := t) h3) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_G_0 c _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_G_3 c _ _ _ _ _ _ _ _ _ _ _ _ _ _ _ _ _ _ _)
    · by_cases hb : bandAt t.val
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [Dat.leavesExact_idle (dats m 0 c) 3 t (idleAt0_3 t (nc3_of (t := t) h3)) (noFlush0_3 t (nc3_of (t := t) h3))]
        rw [outsAt0_C m c t h0 hb h3]
        unfold sout0_C_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (nc0_of (t := t) h0) (c1_of (t := t) hb) (nc2_of (t := t) hb) (nc3_of (t := t) h3) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [show (dats m 0 c).leavesExact 0 t = owns (c : Thread nD τ) (ms0_0 t) fullShare ((dats m 0 c).after 0 t) from by
          unfold Dat.leavesExact; rw [liveAt0_0 t], after0_0]
        rw [show (dats m 0 c).leavesExact 1 t = owns (c : Thread nD τ) (ms0_1 t) fullShare ((dats m 0 c).after 1 t) from by
          unfold Dat.leavesExact; rw [liveAt0_1 t], after0_1]
        rw [show (dats m 0 c).leavesExact 2 t = owns (c : Thread nD τ) (ms0_2 t) fullShare ((dats m 0 c).after 2 t) from by
          unfold Dat.leavesExact; rw [liveAt0_2 t], after0_2]
        rw [Dat.leavesExact_idle (dats m 0 c) 3 t (idleAt0_3 t (nc3_of (t := t) h3)) (noFlush0_3 t (nc3_of (t := t) h3))]
        rw [outsAt0_D m c t h0 hb h3]
        unfold sout0_D_0; (try dsimp only)
        have hz : t.val ≠ 0 := fun hz => h0 (by rw [hz])
        rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_D c (grid0.coords t) _ _ _ _ _ _ _ _ _ _ (nc0_of (t := t) h0) (nc1_of (t := t) hb) (c2_of (t := t) hb) (nc3_of (t := t) h3) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_D_0 c _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KILaunch.lean ====
/-
  The run of @main around the region, the feature array shared by two input windows.

  The three distinct buffers behind the four windows' arrays, each whole at the full share, are the four windows' arrays at
  their shares: the feature array's full share is its left half (the row-tile window) and its right half (the column-tile
  window). With that dealing the library's launch applies, and the argument arrays end as they began.
-/
import proofs.«122991_j63007170232511_2_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays. -/
theorem arrRefs_eq : (Finset.univ.image (Pipeline.arrRef spec0) : Finset (Ref sig .tc)) = {main_v29, main_v27, main_v30} := by decide

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl

/-- The distinct buffers, one by one. -/
theorem arrBufs_eq (c : Dev nD) (Vb : (b : Ref sig .tc) → Buf (Elt F) ((c.tc : Thread nD τ).loc b)) :
    (Pipeline.arrBufs spec0 c Vb : sProp 𝕄)
      = iprop((((c.tc : Thread nD τ).loc main_v29) ↦{fullShare} Vb main_v29) ∗ (((c.tc : Thread nD τ).loc main_v27) ↦{fullShare} Vb main_v27)
          ∗ (((c.tc : Thread nD τ).loc main_v30) ↦{fullShare} Vb main_v30)) := by
  unfold Pipeline.arrBufs
  rw [arrRefs_eq, BI.bigSep_insert (by decide), BI.bigSep_insert (by decide), BI.bigSep_singleton]
  rfl

/-- The dealing of the shares, in both directions. -/
theorem hdeal (c : Dev nD) (Vb : (b : Ref sig .tc) → Buf (Elt F) ((c.tc : Thread nD τ).loc b)) :
    (Pipeline.arrBufs spec0 c Vb : sProp 𝕄)
      ⊣⊢ bigSep Finset.univ fun w : Fin 4 => (((c.tc : Thread nD τ).loc (Pipeline.arrRef spec0 w)) ↦{(dats m 0 c).share w} Vb (Pipeline.arrRef spec0 w) : sProp 𝕄) := by
  rw [arrBufs_eq, bigSep_W0, share0_0, share0_1, share0_2, share0_3]
  refine ⟨?_, ?_⟩
  · iintro ⟨Hf, Hp, Ho⟩
    ihave Hs := (pointsTo_share (PosShare.mem_left_op_right fullShare)).1 $$ Hf
    icases Hs with ⟨Hl, Hr⟩
    isplitl [Hl]; · iexact Hl
    isplitl [Hr]; · iexact Hr
    isplitl [Hp]; · iexact Hp
    iexact Ho
  · iintro ⟨Hl, Hr, Hp, Ho⟩
    isplitl [Hl Hr]
    · iapply (pointsTo_share (PosShare.mem_left_op_right fullShare)).2
      isplitl [Hl]; · iexact Hl
      iexact Hr
    isplitl [Hp]; · iexact Hp
    iexact Ho

/-- Every window is an input or alone on its array. -/
theorem hio : ∀ w : Fin 4, ((cfgs 0).win w).isOut = false ∨ ∀ w', Pipeline.arrRef (cfgs 0).spec w' = Pipeline.arrRef (cfgs 0).spec w → w' = w := by decide

set_option backward.isDefEq.respectTransparency.types false in
/-- Every weakly fair execution of @main terminates, and in every final state each array of the pipeline holds what the
    proof data computes and every other unscoped buffer what the later operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track_shared_in cfgs (dats m) (0 : Fin 1) cellOf_inj winFacts₀0 block_pos0 arr_whole0 stage_whole0 hio
    defs₀ Variants.none m ρ main
    (hbody := fun c => (body_obligation m c).loose) (howed := fun _ _ => rfl) (hdeal := hdeal m)
    (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.KICaseValues.lean ====
/-
  What each case of the body leaves, as values: the stores the runs found, read back as the payloads of the input blocks.
  The accumulator after a point is its contents before (zero at the first column tile) plus the tile's row sums of
  exp(score − shift), weighted on the tiles next to the diagonal; the output block at the last column tile is
  shift + log(accumulator) − positive term.
-/
import proofs.«122991_j63007170232511_2_alg».proof.Proof.KIFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem hz2 : (![0, 0] : Fin 2 → Nat) = fun _ => 0 := funext fun a => by fin_cases a <;> rfl

/-- At the first column tile, weighted branch the accumulator is left at zero plus the tile's weighted exponential row sums. -/
theorem sout_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : cond0_1 i) (hc2 : ¬cond0_2 i) (hc3 : ¬cond0_3 i)
    (x0 : Vec F S1024x256 .bf16) (x1 : Vec F S1024x256 .bf16) (x2 : Vec F S1024x1 .f32) :
    sout0_A_0 c i arg2 harg2 arg3 harg3 arg4 harg4 arg5 harg5 arg6 harg6 hc0 hc1 hc2 hc3 x0 x1 x2 = k0_pay3 i x0 x1 (k0_pay1 (F := F)) := by
  unfold sout0_A_0
  rw [View.read_writes_eq_canon _ _ _ (scover0_A_0 c i arg2 harg2 arg3 harg3 arg4 harg4 arg5 harg5 arg6 harg6 hc0 hc1 hc2 hc3 x0 x1 x2)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg6.read_unread, View.ld_unit_zero (S := S1024x256) hz2, View.ld_unit_zero (S := S1024x1) hz2]

/-- At the first column tile, unweighted branch the accumulator is left at zero plus the tile's exponential row sums. -/
theorem sout_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i) (hc2 : cond0_2 i) (hc3 : ¬cond0_3 i)
    (x0 : Vec F S1024x256 .bf16) (x1 : Vec F S1024x256 .bf16) (x2 : Vec F S1024x1 .f32) :
    sout0_B_0 c i arg2 harg2 arg3 harg3 arg4 harg4 arg5 harg5 arg6 harg6 hc0 hc1 hc2 hc3 x0 x1 x2 = k0_pay4 x0 x1 (k0_pay1 (F := F)) := by
  unfold sout0_B_0
  rw [View.read_writes_eq_canon _ _ _ (scover0_B_0 c i arg2 harg2 arg3 harg3 arg4 harg4 arg5 harg5 arg6 harg6 hc0 hc1 hc2 hc3 x0 x1 x2)]
  unfold kernelRun0_B
  dsimp only
  sl_unfold_words
  rw [View.canon_cons_unit_zero (S := S1024x1) hz2, View.readCov_unit_zero (S := S1024x1) _ hz2]
  simp only [View.readAt_eq_ld, harg2.read_unread, harg3.read_unread, harg4.read_unread, harg6.read_unread, View.ld_unit_zero (S := S1024x256) hz2, View.ld_unit_zero (S := S1024x1) hz2]

/-- At a middle column tile, weighted branch the accumulator is left at what it held plus the tile's weighted exponential row sums. -/
theorem sout_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : ¬cond0_3 i)
    (x0 : Vec F S1024x256 .bf16) (x1 : Vec F S1024x256 .bf16) (x2 : Vec F S1024x1 .f32) (xs0 : Vec F S1024x1 .f32) :
    sout0_C_0 c i arg2 harg2 arg3 harg3 arg4 harg4 arg5 harg5 arg6 harg6 hc0 hc1 hc2 hc3 x0 x1 x2 xs0 = k0_pay3 i x0 x1 xs0 := by
  unfold sout0_C_0
  rw [View.read_writes_eq_canon _ _ _ (scover0_C_0 c i arg2 harg2 arg3 harg3 arg4 harg4 arg5 harg5 arg6 harg6 hc0 hc1 hc2 hc3 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1024x256) hz2, View.ld_unit_zero (S := S1024x1) hz2]

/-- At a middle column tile, unweighted branch the accumulator is left at what it held plus the tile's exponential row sums. -/
theorem sout_D (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : ¬cond0_3 i)
    (x0 : Vec F S1024x256 .bf16) (x1 : Vec F S1024x256 .bf16) (x2 : Vec F S1024x1 .f32) (xs0 : Vec F S1024x1 .f32) :
    sout0_D_0 c i arg2 harg2 arg3 harg3 arg4 harg4 arg5 harg5 arg6 harg6 hc0 hc1 hc2 hc3 x0 x1 x2 xs0 = k0_pay4 x0 x1 xs0 := by
  unfold sout0_D_0
  rw [View.read_writes_eq_canon _ _ _ (scover0_D_0 c i arg2 harg2 arg3 harg3 arg4 harg4 arg5 harg5 arg6 harg6 hc0 hc1 hc2 hc3 x0 x1 x2 xs0)]
  unfold kernelRun0_D
  dsimp only
  sl_unfold_words
  rw [View.canon_unit_zero hz2]
  simp only [View.readAt_eq_ld, harg2.read_unread, harg3.read_unread, harg4.read_unread, harg6.read_unread, View.ld_unit_zero (S := S1024x256) hz2, View.ld_unit_zero (S := S1024x1) hz2]

/-- At the last column tile, weighted branch the accumulator is left at what it held plus the tile's weighted exponential row sums. -/
theorem sout_E (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) :
    sout0_E_0 c i arg2 harg2 arg3 harg3 arg4 harg4 arg5 harg5 arg6 harg6 hc0 hc1 hc2 hc3 x0 x1 x2 xs0 = k0_pay3 i x0 x1 xs0 := by
  unfold sout0_E_0
  rw [View.read_writes_eq_canon _ _ _ (scover0_E_0 c i arg2 harg2 arg3 harg3 arg4 harg4 arg5 harg5 arg6 harg6 hc0 hc1 hc2 hc3 x0 x1 x2 xs0)]
  unfold kernelRun0_E
  dsimp only
  sl_unfold_words
  rw [View.canon_unit_zero hz2]
  simp only [View.readAt_eq_ld, harg2.read_unread, harg3.read_unread, harg4.read_unread, harg6.read_unread, View.ld_unit_zero (S := S1024x256) hz2, View.ld_unit_zero (S := S1024x1) hz2]

/-- And the output block takes shift + log of that, less the positive terms. -/
theorem out_E (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i) (hc2 : ¬cond0_2 i) (hc3 : cond0_3 i)
    (x0 : Vec F S1024x256 .bf16) (x1 : Vec F S1024x256 .bf16) (x2 : Vec F S1024x1 .f32) (xs0 : Vec F S1024x1 .f32) :
    out0_E_3 c i arg2 harg2 arg3 harg3 arg4 harg4 arg5 harg5 arg6 harg6 hc0 hc1 hc2 hc3 x0 x1 x2 xs0 = k0_pay5 (k0_pay3 i x0 x1 xs0) x2 := by
  unfold out0_E_3
  rw [View.read_writes_eq_canon _ _ _ (cover0_E_3 c i arg2 harg2 arg3 harg3 arg4 harg4 arg5 harg5 arg6 harg6 hc0 hc1 hc2 hc3 x0 x1 x2 xs0)]
  unfold kernelRun0_E
  dsimp only
  sl_unfold_words
  rw [View.canon_unit_zero hz2, View.readCov_unit_zero (S := S1024x1) _ hz2]
  simp only [View.readAt_eq_ld, harg2.read_unread, harg3.read_unread, harg4.read_unread, harg6.read_unread, View.ld_unit_zero (S := S1024x256) hz2, View.ld_unit_zero (S := S1024x1) hz2]

/-- At the last column tile, unweighted branch the accumulator is left at what it held plus the tile's exponential row sums. -/
theorem sout_G (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) :
    sout0_G_0 c i arg2 harg2 arg3 harg3 arg4 harg4 arg5 harg5 arg6 harg6 hc0 hc1 hc2 hc3 x0 x1 x2 xs0 = k0_pay4 x0 x1 xs0 := by
  unfold sout0_G_0
  rw [View.read_writes_eq_canon _ _ _ (scover0_G_0 c i arg2 harg2 arg3 harg3 arg4 harg4 arg5 harg5 arg6 harg6 hc0 hc1 hc2 hc3 x0 x1 x2 xs0)]
  unfold kernelRun0_G
  dsimp only
  sl_unfold_words
  rw [View.canon_unit_zero hz2]
  simp only [View.readAt_eq_ld, harg2.read_unread, harg3.read_unread, harg4.read_unread, harg6.read_unread, View.ld_unit_zero (S := S1024x256) hz2, View.ld_unit_zero (S := S1024x1) hz2]

/-- And the output block takes shift + log of that, less the positive terms. -/
theorem out_G (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i) (hc2 : cond0_2 i) (hc3 : cond0_3 i)
    (x0 : Vec F S1024x256 .bf16) (x1 : Vec F S1024x256 .bf16) (x2 : Vec F S1024x1 .f32) (xs0 : Vec F S1024x1 .f32) :
    out0_G_3 c i arg2 harg2 arg3 harg3 arg4 harg4 arg5 harg5 arg6 harg6 hc0 hc1 hc2 hc3 x0 x1 x2 xs0 = k0_pay5 (k0_pay4 x0 x1 xs0) x2 := by
  unfold out0_G_3
  rw [View.read_writes_eq_canon _ _ _ (cover0_G_3 c i arg2 harg2 arg3 harg3 arg4 harg4 arg5 harg5 arg6 harg6 hc0 hc1 hc2 hc3 x0 x1 x2 xs0)]
  unfold kernelRun0_G
  dsimp only
  sl_unfold_words
  rw [View.canon_unit_zero hz2, View.readCov_unit_zero (S := S1024x1) _ hz2]
  simp only [View.readAt_eq_ld, harg2.read_unread, harg3.read_unread, harg4.read_unread, harg6.read_unread, View.ld_unit_zero (S := S1024x256) hz2, View.ld_unit_zero (S := S1024x1) hz2]

end Cert.KernelIdeal.Hand

end
-- ==== Proof.KIBlocks.lean ====
/-
  The windows' blocks read at an index.

  The grid is 8 × 8 and runs row-major: point t has row tile t / 8 and column tile t % 8. Window 0 takes the block of feature
  rows of the row tile, window 1 that of the column tile, windows 2 and 3 the block of the column array of the row tile; every
  block index on the second axis is 0. A block is 1024 rows, and an element of a block sits in its array, on each axis, at the
  block index times the block's size plus its own coordinate. So row p of window 0's block at point t is row
  1024 · (t / 8) + p of the feature array as the region finds it, row p of window 1's block is row 1024 · (t % 8) + p of the
  same array, and row p of window 2's block is row 1024 · (t / 8) + p of the positive-term column; window 3's block at t covers
  exactly the rows 1024 · (t / 8) … 1024 · (t / 8) + 1023 of the output column.
-/
import proofs.«122991_j63007170232511_2_alg».proof.Proof.KIFrameBase
import Idealize.ShloMosaic.Lib.Pipeline.Value
import Idealize.ShloMosaic.Lib.ValueIdx

noncomputable section

namespace Cert.KernelIdeal.Hand

open Idealize.ShloMosaic Idealize.ShloMosaic.TcCoe
open Idealize.SL.Sem
open Cert.KernelIdeal Cert.KernelIdeal.Gen Idealize.ShloMosaic.ValueIdx

variable {F : FTy → Type} [FloatOps F]
variable (m : (ℓ : Loc nD τ sig) → Buf (Elt F) ℓ)

/-! ## The grid's coordinates and the windows' block indices, decided over the 64 points -/

/-- A point's first coordinate is its row tile. -/
theorem coords_0 : ∀ t : Fin cfg0.N, ((grid0.coords t) (0 : Fin 2)).val = t.val / 8 :=
  (by decide +kernel : ∀ t : Fin grid0.N, ((grid0.coords t) (0 : Fin 2)).val = t.val / 8)
/-- A point's second coordinate is its column tile. -/
theorem coords_1 : ∀ t : Fin cfg0.N, ((grid0.coords t) (1 : Fin 2)).val = t.val % 8 :=
  (by decide +kernel : ∀ t : Fin grid0.N, ((grid0.coords t) (1 : Fin 2)).val = t.val % 8)

/-- Window 0's block index: the row tile, and 0. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- Window 1's block index: the column tile, and 0. -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
/-- Window 2's block index: the row tile, and 0. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
/-- Window 3's block index: the row tile, and 0. -/
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-! ## The input blocks at an index -/

/-- Row p of window 0's block at point t is row 1024 · (t / 8) + p of the feature array. -/
theorem iblk0_apply (c : Dev nD) (t : Fin cfg0.N) (p : Fin 1024) (k : Fin 256) (r : Fin 8192)
    (hr : r.val = 1024 * (t.val / 8) + p.val) :
    (iblk m c 0 t : Vec F S1024x256 .bf16) (ix2 p k) = V m c main_v29 (ix2 r k) := by
  unfold iblk
  rw [View.read_apply]
  show V m c main_v29 _ = V m c main_v29 _
  refine congrArg (V m c main_v29) ?_
  funext a
  apply Fin.ext
  match a with
  | ⟨0, _⟩ => show win0_0.index t (0 : Fin 2) * 1024 + 1 * p.val = r.val; rw [(idx0 t).1]; omega
  | ⟨1, _⟩ => show win0_0.index t (1 : Fin 2) * 256 + 1 * k.val = k.val; rw [(idx0 t).2]; omega

/-- Row p of window 1's block at point t is row 1024 · (t % 8) + p of the feature array. -/
theorem iblk1_apply (c : Dev nD) (t : Fin cfg0.N) (p : Fin 1024) (k : Fin 256) (r : Fin 8192)
    (hr : r.val = 1024 * (t.val % 8) + p.val) :
    (iblk m c 1 t : Vec F S1024x256 .bf16) (ix2 p k) = V m c main_v29 (ix2 r k) := by
  unfold iblk
  rw [View.read_apply]
  show V m c main_v29 _ = V m c main_v29 _
  refine congrArg (V m c main_v29) ?_
  funext a
  apply Fin.ext
  match a with
  | ⟨0, _⟩ => show win0_1.index t (0 : Fin 2) * 1024 + 1 * p.val = r.val; rw [(idx1 t).1]; omega
  | ⟨1, _⟩ => show win0_1.index t (1 : Fin 2) * 256 + 1 * k.val = k.val; rw [(idx1 t).2]; omega

/-- Row p of window 2's block at point t is row 1024 · (t / 8) + p of the positive-term column. -/
theorem iblk2_apply (c : Dev nD) (t : Fin cfg0.N) (p : Fin 1024) (r : Fin 8192)
    (hr : r.val = 1024 * (t.val / 8) + p.val) :
    (iblk m c 2 t : Vec F S1024x1 .f32) (ix2 p (0 : Fin 1)) = V m c main_v27 (ix2 r (0 : Fin 1)) := by
  unfold iblk
  rw [View.read_apply]
  show V m c main_v27 _ = V m c main_v27 _
  refine congrArg (V m c main_v27) ?_
  funext a
  apply Fin.ext
  match a with
  | ⟨0, _⟩ => show win0_2.index t (0 : Fin 2) * 1024 + 1 * p.val = r.val; rw [(idx2 t).1]; omega
  | ⟨1, _⟩ => show win0_2.index t (1 : Fin 2) * 1 + 1 * 0 = 0; rw [(idx2 t).2]

/-! ## The output window's block -/

/-- An index of the output column is in point t's block iff each coordinate is in the block's range on its axis. -/
theorem mem_blk3 (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v30).slice (win0_3.rect t)).set ↔ _
  rw [View.set_slice_whole, Rect.mem_set_unit]
  exact Iff.rfl

/-- Row p of the output window's block at point t sits at row 1024 · (t / 8) + p of the output column. -/
theorem blk3_emb (t : Fin cfg0.N) (p : Fin 1024) (r : Fin 8192) (hr : r.val = 1024 * (t.val / 8) + p.val) :
    ((cfg0.win 3).blk t).view.emb (ix2 p (0 : Fin 1)) = (ix2 r (0 : Fin 1) : S8192x1.Idx) := by
  funext a
  apply Fin.ext
  match a with
  | ⟨0, _⟩ => show win0_3.index t (0 : Fin 2) * 1024 + 1 * p.val = r.val; rw [(idx3 t).1]; omega
  | ⟨1, _⟩ => show win0_3.index t (1 : Fin 2) * 1 + 1 * 0 = 0; rw [(idx3 t).2]

end Cert.KernelIdeal.Hand

end
-- ==== Proof.Spec.lean ====
/-
  The two sides of the claim as functions of the normalised feature rows.

  Rows: the 8192 unit-normalised feature rows f r (r < 4096 the first view, r ≥ 4096 the second), each of 256 channels.
  Similarity: sim r j = (Σ_k f r k · f j k) / τ with τ the binary value of the f32 literal 0.07.
  Weight: w r j = min(j − r, 20)/20 for j ≥ r and min(r − j − 1, 20)/20 for j < r; so w r r = 0, and w r j = 1 as soon as
  j ≥ r + 20 or j ≤ r − 21.
  The kernel's row value: σ + log(Σ over the eight column tiles of Σ_j exp(sim r j − σ)·w r j) − sim r (r ± 4096), with σ the
  binary value of the f32 literal nearest 100/7, the weight left out on the tiles at distance two or more from the row's own tile
  (where it is 1), and the positive term computed from the two views' rows directly.
  The reference's row value: (sim r p − M)·w r p − log(Σ_j exp(sim r j − M)·(1 − [r = j])·w r j) with M the row's maximum and
  p = (r + 4096) mod 8192; the loss is the mean of its negation.
  The law between the two (a shift of the exponent by any finite constant leaves shift + log Σ exp(· − shift) unchanged) is
  proved in another module, for feature rows that are real numbers.
-/
import Idealize.ShloMosaic.PureOps.Ideal
import Mathlib.Data.Finset.Fold

noncomputable section

namespace Cert.Spec

open Idealize.ShloMosaic

/-- The feature rows: 8192 rows of 256 channels, extended reals. -/
abbrev Feats := Fin 8192 → Fin 256 → EReal

/-- The temperature literal (f32 0.07), the kernel's shift literal (f32 nearest 100/7), and the other float literals. -/
def tau : EReal := Ideal.ofBits .f32 0x3D8F5C29#32
def shift : EReal := Ideal.ofBits .f32 0x41649249#32
def twenty : EReal := Ideal.ofBits .f32 0x41A00000#32
def oneF : EReal := Ideal.ofBits .f32 0x3F800000#32
def negOneF : EReal := Ideal.ofBits .f32 0xBF800000#32
def count : EReal := Ideal.ofBits .f32 0x46000000#32

/-- The scaled inner product of rows r and j. -/
def sim (f : Feats) (r j : Fin 8192) : EReal := Ideal.div (∑ k : Fin 256, f r k * f j k) tau

/-- The banded weight's integer numerator, and the weight. -/
def wInt (r j : Fin 8192) : Int :=
  if (r.val : Int) ≤ (j.val : Int) then min ((j.val : Int) - (r.val : Int)) 20 else min ((r.val : Int) - (j.val : Int) - 1) 20
def wgt (r j : Fin 8192) : EReal := Ideal.div (((wInt r j : Int) : ℝ) : EReal) twenty

/-- Column j' of column tile k. -/
def col (k : Fin 8) (j' : Fin 1024) : Fin 8192 := ⟨1024 * k.val + j'.val, by omega⟩
/-- The row's own tile. -/
def rowTile (r : Fin 8192) : Fin 8 := ⟨r.val / 1024, by omega⟩
/-- Tiles q and k are neighbours or equal: where the kernel applies the weight. -/
def onBand (q k : Fin 8) : Prop := k.val ≤ q.val + 1 ∧ q.val ≤ k.val + 1
instance (q k : Fin 8) : Decidable (onBand q k) := by unfold onBand; infer_instance

/-- What the kernel adds to a row's accumulator at column tile k. -/
def tile (f : Feats) (r : Fin 8192) (k : Fin 8) : EReal :=
  if onBand (rowTile r) k then ∑ j' : Fin 1024, Ideal.exp (sim f r (col k j') - shift) * wgt r (col k j')
  else ∑ j' : Fin 1024, Ideal.exp (sim f r (col k j') - shift)

/-- The two views' rows of one sample: row r modulo 4096, and that plus 4096. -/
def lo (r : Fin 8192) : Fin 8192 := ⟨r.val % 4096, by omega⟩
def hi (r : Fin 8192) : Fin 8192 := ⟨r.val % 4096 + 4096, by omega⟩
/-- The positive term as the kernel's wrapper computes it. -/
def posK (f : Feats) (r : Fin 8192) : EReal := Ideal.div (∑ k : Fin 256, f (lo r) k * f (hi r) k) tau

/-- The kernel's value of row r, and its loss. -/
def rowK (f : Feats) (r : Fin 8192) : EReal := (shift + Ideal.log (∑ k : Fin 8, tile f r k)) - posK f r
def lossK (f : Feats) : EReal := Ideal.div (∑ r : Fin 8192, rowK f r) count * oneF

/-- The reference's row maximum, diagonal mask, denominator, positive column, row value and loss. -/
def rowMax (f : Feats) (r : Fin 8192) : EReal := (Finset.univ : Finset (Fin 8192)).fold max ⊥ (fun j => sim f r j)
def mask (r j : Fin 8192) : EReal := oneF - (if r = j then (1 : EReal) else 0)
def den (f : Feats) (r : Fin 8192) : EReal := ∑ j : Fin 8192, Ideal.exp (sim f r j - rowMax f r) * mask r j * wgt r j
def posIdx (r : Fin 8192) : Fin 8192 := ⟨(r.val + 4096) % 8192, by omega⟩
def rowR (f : Feats) (r : Fin 8192) : EReal := (sim f r (posIdx r) - rowMax f r) * wgt r (posIdx r) - Ideal.log (den f r)
def lossR (f : Feats) : EReal := Ideal.div (∑ r : Fin 8192, negOneF * rowR f r) count

end Cert.Spec

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.KPayDot.lean ====
/-
  The similarity block the matrix unit computes, read at an entry.

  The body multiplies the row block [1024, 256] against the column block [1024, 256] along the channel axis of both, from
  the zero splat, and divides by the temperature literal: entry (p, j) is (Σ_c lhs[p, c] · rhs[j, c]) / τ. The dimension
  numbers contract axis 1 of each operand and keep axis 0 of each, the left one first.
-/
import proofs.«122991_j63007170232511_2_alg».proof.Proof.Gen.KernelIdeal.Skeleton
import proofs.«122991_j63007170232511_2_alg».proof.Proof.Spec
import proofs.«122991_j63007170232511_2_alg».proof.Proof.LibDotLastAxes
import Idealize.ShloMosaic.Lib.Pipeline.Value

noncomputable section

namespace Cert.KPay

open Cert.KernelIdeal Cert.KernelIdeal.Gen Idealize.ShloMosaic Idealize.ShloMosaic.ValueIdx

/-- The body's dimension numbers. -/
abbrev D := dot_S1024x256_S1024x256_S1024x1024_1_1_0_0_n_n

theorem D_rank : D.contr.rank = 1 := by decide
theorem D_size : D.contr.size ⟨0, by rw [D_rank]; exact Nat.one_pos⟩ = 256 := by decide

theorem D_lhs0 (j : S1024x1024.Idx) (k : D.contr.Idx) : (D.lhsIdx j k 0).val = (j 0).val := by
  simp [DotDims.lhsIdx, D, dot_S1024x256_S1024x256_S1024x1024_1_1_0_0_n_n]; rfl
theorem D_lhs1 (j : S1024x1024.Idx) (k : D.contr.Idx) :
    (D.lhsIdx j k 1).val = (k ⟨0, by rw [D_rank]; exact Nat.one_pos⟩).val := by
  simp [DotDims.lhsIdx, D, dot_S1024x256_S1024x256_S1024x1024_1_1_0_0_n_n]; rfl
theorem D_rhs0 (j : S1024x1024.Idx) (k : D.contr.Idx) : (D.rhsIdx j k 0).val = (j 1).val := by
  simp [DotDims.rhsIdx, D, dot_S1024x256_S1024x256_S1024x1024_1_1_0_0_n_n]; rfl
theorem D_rhs1 (j : S1024x1024.Idx) (k : D.contr.Idx) :
    (D.rhsIdx j k 1).val = (k ⟨0, by rw [D_rank]; exact Nat.one_pos⟩).val := by
  simp [DotDims.rhsIdx, D, dot_S1024x256_S1024x256_S1024x1024_1_1_0_0_n_n]; rfl

/-- Entry (p, j) of the similarity block. -/
theorem pay2_apply (v3 v5 : FVec Ideal S1024x256 .bf16) (p j : Fin 1024) :
    k0_pay2 (F := Ideal) v3 v5 (ix2 p j)
      = Ideal.div (∑ c : Fin 256, v3 (ix2 p c) * v5 (ix2 j c)) Cert.Spec.tau := by
  unfold k0_pay2
  simp only [shapeCast_self]
  show Ideal.div (FloatOps.matmul D none v3 v5 (constant (F := Ideal) S1024x1024 .f32 0x00000000#32) (ix2 p j))
      (Ideal.ofBits .f32 0x3D8F5C29#32) = _
  rw [DotLastAxes.matmul_zero_apply D D_rank D_size D_lhs0 D_lhs1 D_rhs0 D_rhs1 none v3 v5 p j]
  rfl

end Cert.KPay

end
-- ==== Proof.KPayWeight.lean ====
/-
  The banded weight's integer numerator as the body computes it on 32-bit words.

  Row position 1024·q + p and column position 1024·k + j (q, k < 8; p, j < 1024) are below 2^13, so the word sums,
  the word difference d = column − row, and 0 − d − 1 read signed as the integers they look like; the comparison d ≥ 0
  and the two signed minima with 20 then select min(d, 20) for d ≥ 0 and min(−d − 1, 20) for d < 0: the numerator of
  the weight at (row, column).
-/
import Idealize.ShloMosaic.Lib.WordArith
import Idealize.ShloMosaic.Lib.Affine
import proofs.«122991_j63007170232511_2_alg».proof.Proof.Spec

noncomputable section

namespace Cert.KPay

open Idealize.ShloMosaic

/-- A position inside the 8 × 1024 range as the body computes it: the tile number times 1024 plus the offset. -/
def posWord (t p : Nat) : BitVec 32 := IntOp.addi (Scalar.muli (BitVec.ofNat 32 t) 1024#32) (BitVec.ofNat 32 p)

/-- The select of the two clamped distances on the sign of the difference. -/
def wWord (d : BitVec 32) : BitVec 32 :=
  Scalar.select (IntOp.cmpi .sge d 0#32) (IntOp.minsi d 20#32) (IntOp.minsi (IntOp.subi (IntOp.subi 0#32 d) 1#32) 20#32)

theorem toInt_posWord (t p : Nat) (ht : t < 8) (hp : p < 1024) : (posWord t p).toInt = 1024 * (t : Int) + p := by
  have h1 : (BitVec.ofNat 32 t).toInt = t := WordArith.toInt_ofNat_small t (by omega)
  have h2 : (1024#32 : BitVec 32).toInt = 1024 := by decide
  have h3 : (BitVec.ofNat 32 p).toInt = p := WordArith.toInt_ofNat_small p (by omega)
  have hm : (BitVec.ofNat 32 t * 1024#32).toInt = 1024 * (t : Int) := by
    rw [WordArith.toInt_mul_of_bounds _ _ (by rw [h1, h2]; omega) (by rw [h1, h2]; omega), h1, h2]
    omega
  show (BitVec.ofNat 32 t * 1024#32 + BitVec.ofNat 32 p).toInt = _
  rw [WordArith.toInt_add_of_bounds _ _ (by rw [hm, h3]; omega) (by rw [hm, h3]; omega), hm, h3]

/-- The difference column − row. -/
theorem toInt_diff (q k p j : Nat) (hq : q < 8) (hk : k < 8) (hp : p < 1024) (hj : j < 1024) :
    (IntOp.subi (posWord k j) (posWord q p)).toInt = (1024 * (k : Int) + j) - (1024 * (q : Int) + p) := by
  have h1 := toInt_posWord k j hk hj
  have h2 := toInt_posWord q p hq hp
  show (posWord k j - posWord q p).toInt = _
  rw [WordArith.toInt_sub_of_bounds _ _ (by rw [h1, h2]; omega) (by rw [h1, h2]; omega), h1, h2]

/-- The selected clamped distance, for a difference that is small. -/
theorem toInt_wWord (d : BitVec 32) (hlo : -2 ^ 30 ≤ d.toInt) (hhi : d.toInt < 2 ^ 30) :
    (wWord d).toInt = if 0 ≤ d.toInt then min d.toInt 20 else min (-d.toInt - 1) 20 := by
  have h0 : (0#32 : BitVec 32).toInt = 0 := by decide
  have h1 : (1#32 : BitVec 32).toInt = 1 := by decide
  have h20 : (20#32 : BitVec 32).toInt = 20 := by decide
  have hmin : ∀ x : BitVec 32, (IntOp.minsi x 20#32).toInt = min x.toInt 20 := fun x => by
    unfold IntOp.minsi
    by_cases hs : x.slt 20#32
    · rw [if_pos hs]; rw [BitVec.slt_iff_toInt_lt, h20] at hs; omega
    · rw [if_neg hs]; rw [BitVec.slt_iff_toInt_lt, h20] at hs; omega
  unfold wWord Scalar.select
  by_cases hc : 0 ≤ d.toInt
  · have hb : IntOp.cmpi .sge d 0#32 = (1 : BitVec 1) := IntOp.cmpi_sge.mpr (by rw [h0]; exact hc)
    rw [if_pos hb, if_pos hc, hmin]
  · have hb : ¬ IntOp.cmpi .sge d 0#32 = (1 : BitVec 1) := fun h => hc (by have := IntOp.cmpi_sge.mp h; rwa [h0] at this)
    have e1 : (IntOp.subi 0#32 d).toInt = -d.toInt := by
      show (0#32 - d).toInt = _
      rw [WordArith.toInt_sub_of_bounds _ _ (by rw [h0]; omega) (by rw [h0]; omega), h0]
      omega
    have e2 : (IntOp.subi (IntOp.subi 0#32 d) 1#32).toInt = -d.toInt - 1 := by
      show (IntOp.subi 0#32 d - 1#32).toInt = _
      rw [WordArith.toInt_sub_of_bounds _ _ (by rw [e1, h1]; omega) (by rw [e1, h1]; omega), e1, h1]
    rw [if_neg hb, if_neg hc, hmin, e2]

/-- The body's integer weight at row position (q, p) and column position (k, j) is the weight's numerator. -/
theorem toInt_weight (q k : Fin 8) (p j : Fin 1024) :
    (wWord (IntOp.subi (posWord k.val j.val) (posWord q.val p.val))).toInt
      = Cert.Spec.wInt (Cert.Spec.col q p) (Cert.Spec.col k j) := by
  have hq := q.isLt
  have hk := k.isLt
  have hp := p.isLt
  have hj := j.isLt
  have hd := toInt_diff q.val k.val p.val j.val hq hk hp hj
  rw [toInt_wWord _ (by rw [hd]; omega) (by rw [hd]; omega), hd]
  unfold Cert.Spec.wInt Cert.Spec.col
  simp only
  split <;> split <;> omega

end Cert.KPay

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.KPayTile.lean ====
/-
  The accumulating payloads read at a row: the accumulator plus one column tile's contribution.

  With the row block holding the feature rows of row tile q and the column block those of column tile k, entry (p, j) of
  the similarity block is the similarity of rows 1024·q + p and 1024·k + j. The body exponentiates it less the shift
  literal, on a near tile multiplies by the banded weight (its integer numerator computed from the two positions,
  converted and divided by the literal 20), sums each row over the 1024 columns, turns the vector of row sums into a
  column, and adds it to the accumulator. Row 1024·q + p lies in row tile q, so the tile's contribution is the one the
  specification names for that row and tile.
-/
import proofs.«122991_j63007170232511_2_alg».proof.Proof.KPayDot
import proofs.«122991_j63007170232511_2_alg».proof.Proof.KPayWeight
import proofs.«122991_j63007170232511_2_alg».proof.Proof.LibRowSum
import proofs.«122991_j63007170232511_2_alg».proof.Proof.LibKeepdimsLayout

noncomputable section

namespace Cert.KPay

open Cert.KernelIdeal Cert.KernelIdeal.Gen Idealize.ShloMosaic Idealize.ShloMosaic.ValueIdx

/-- Row 1024·q + p lies in row tile q. -/
theorem rowTile_col (q : Fin 8) (p : Fin 1024) : Cert.Spec.rowTile (Cert.Spec.col q p) = q := by
  have hp := p.isLt
  apply Fin.ext
  show (1024 * q.val + p.val) / 1024 = q.val
  omega

/-- Entry (p, j) of the similarity block is the similarity of the two rows. -/
theorem pay2_sim (f : Cert.Spec.Feats) (q k : Fin 8) (v3 v5 : FVec Ideal S1024x256 .bf16)
    (h3 : ∀ (p : Fin 1024) (c : Fin 256), v3 (ix2 p c) = f (Cert.Spec.col q p) c)
    (h5 : ∀ (j : Fin 1024) (c : Fin 256), v5 (ix2 j c) = f (Cert.Spec.col k j) c) (p j : Fin 1024) :
    k0_pay2 (F := Ideal) v3 v5 (ix2 p j) = Cert.Spec.sim f (Cert.Spec.col q p) (Cert.Spec.col k j) := by
  rw [pay2_apply, Cert.Spec.sim]
  congr 1
  exact Finset.sum_congr rfl fun c _ => by rw [h3, h5]

/-- The body's integer weight word at (p, c), the tile offsets read from the grid point. -/
def wIdx (i : grid0.Coords) (p c : Fin 1024) : BitVec 32 :=
  wWord (IntOp.subi
    (IntOp.addi (Scalar.muli (BitVec.ofNat 32 (i 1).val) 1024#32)
      (iota .tc S1024x1024 32 [1] iota_S1024x1024_d1_w32 (ix2 p c)))
    (IntOp.addi (Scalar.muli (BitVec.ofNat 32 (i 0).val) 1024#32)
      (iota .tc S1024x1024 32 [0] iota_S1024x1024_d0_w32 (ix2 p c))))

/-- It is the weight's numerator at the two positions. -/
theorem toInt_wIdx (i : grid0.Coords) (q k : Fin 8) (hq : (i 0).val = q.val) (hk : (i 1).val = k.val) (p c : Fin 1024) :
    (wIdx i p c).toInt = Cert.Spec.wInt (Cert.Spec.col q p) (Cert.Spec.col k c) := by
  unfold wIdx
  rw [iota_single_apply, iota_single_apply, hq, hk]
  exact toInt_weight q k p c

/-- A far tile: no weight. -/
theorem pay4_tile (f : Cert.Spec.Feats) (q k : Fin 8) (v3 v5 : FVec Ideal S1024x256 .bf16)
    (h3 : ∀ (p : Fin 1024) (c : Fin 256), v3 (ix2 p c) = f (Cert.Spec.col q p) c)
    (h5 : ∀ (j : Fin 1024) (c : Fin 256), v5 (ix2 j c) = f (Cert.Spec.col k j) c)
    (hband : ¬ Cert.Spec.onBand q k) (v29 : FVec Ideal S1024x1 .f32) (p : Fin 1024) :
    k0_pay4 (F := Ideal) v3 v5 v29 (ix2 p (0 : Fin 1))
      = v29 (ix2 p 0) + Cert.Spec.tile f (Cert.Spec.col q p) k := by
  have hterm : ∀ c : Fin 1024,
      Ideal.exp (k0_pay2 (F := Ideal) v3 v5 (ix2 p c) - Ideal.ofBits .f32 0x41649249#32)
        = Ideal.exp (Cert.Spec.sim f (Cert.Spec.col q p) (Cert.Spec.col k c) - Cert.Spec.shift) := fun c => by
    rw [pay2_sim f q k v3 v5 h3 h5 p c]; rfl
  unfold k0_pay4
  simp only [shapeCast_self]
  rw [addf_apply, Cert.LayoutKeepdims.shapeCast_a_a1_apply, RowSum.rowSum_apply]
  rw [Cert.Spec.tile, rowTile_col, if_neg hband]
  congr 1
  exact Finset.sum_congr rfl fun c _ => hterm c

/-- A near tile: the banded weight. -/
theorem pay3_tile (f : Cert.Spec.Feats) (i : grid0.Coords) (q k : Fin 8) (hq : (i 0).val = q.val) (hk : (i 1).val = k.val)
    (hband : Cert.Spec.onBand q k) (v3 v5 : FVec Ideal S1024x256 .bf16) (v50 : FVec Ideal S1024x1 .f32)
    (h3 : ∀ (p : Fin 1024) (c : Fin 256), v3 (ix2 p c) = f (Cert.Spec.col q p) c)
    (h5 : ∀ (j : Fin 1024) (c : Fin 256), v5 (ix2 j c) = f (Cert.Spec.col k j) c) (p : Fin 1024) :
    k0_pay3 (F := Ideal) i v3 v5 v50 (ix2 p (0 : Fin 1))
      = v50 (ix2 p 0) + Cert.Spec.tile f (Cert.Spec.col q p) k := by
  have hterm : ∀ c : Fin 1024,
      Ideal.exp (k0_pay2 (F := Ideal) v3 v5 (ix2 p c) - Ideal.ofBits .f32 0x41649249#32)
          * Ideal.div ((((wIdx i p c).toInt : ℝ)) : EReal) (Ideal.ofBits .f32 0x41A00000#32)
        = Ideal.exp (Cert.Spec.sim f (Cert.Spec.col q p) (Cert.Spec.col k c) - Cert.Spec.shift)
          * Cert.Spec.wgt (Cert.Spec.col q p) (Cert.Spec.col k c) := fun c => by
    rw [pay2_sim f q k v3 v5 h3 h5 p c, toInt_wIdx i q k hq hk p c]; rfl
  unfold k0_pay3
  simp only [shapeCast_self]
  rw [addf_apply, Cert.LayoutKeepdims.shapeCast_a_a1_apply, RowSum.rowSum_apply]
  rw [Cert.Spec.tile, rowTile_col, if_pos hband]
  congr 1
  exact Finset.sum_congr rfl fun c _ => hterm c

end Cert.KPay

end
-- ==== Proof.KPaySmall.lean ====
/-
  The two payloads without a reduction, read at a row.

  The accumulator's initial value is the zero splat. The finished row value is σ + log(acc) − pos: the shift literal plus
  the logarithm of the accumulated sum, less the positive term.
-/
import proofs.«122991_j63007170232511_2_alg».proof.Proof.Gen.KernelIdeal.Skeleton
import proofs.«122991_j63007170232511_2_alg».proof.Proof.Spec
import Idealize.ShloMosaic.Lib.Pipeline.Value
import Idealize.ShloMosaic.Lib.ValueIdx
import Idealize.ShloMosaic.PureOps.Ideal.Laws

noncomputable section

namespace Cert.KPay

open Cert.KernelIdeal Cert.KernelIdeal.Gen Idealize.ShloMosaic Idealize.ShloMosaic.ValueIdx

/-- The accumulator starts from zero. -/
theorem pay1_apply (p : Fin 1024) : k0_pay1 (F := Ideal) (ix2 p (0 : Fin 1)) = 0 := by
  unfold k0_pay1
  simp only [shapeCast_self]
  show Ideal.ofBits .f32 0x00000000#32 = 0
  exact Ideal.ofBits_zero_f32

/-- The finished row value. -/
theorem pay5_apply (v29 v33 : FVec Ideal S1024x1 .f32) (p : Fin 1024) :
    k0_pay5 (F := Ideal) v29 v33 (ix2 p (0 : Fin 1))
      = (Cert.Spec.shift + Ideal.log (v29 (ix2 p 0))) - v33 (ix2 p 0) := by
  unfold k0_pay5
  simp only [shapeCast_self]
  rfl

end Cert.KPay

end
-- ==== Proof.KHostFeats.lean ====
/-
  The feature array the wrapper computes from the embeddings, as one function of the embeddings' contents.

  The embeddings are 16 samples of 256 channels at 512 positions. The first eight samples are one view and the last eight
  the other. A view's rows are its (sample, position) pairs, 8 · 512 = 4096 of them, each row the 256 channel values at that
  pair: the slice of eight samples, the channel axis moved last, and the two leading axes flattened. A row is then divided
  by the larger of its Euclidean norm (the square root of the sum, from zero, of its squared entries) and the small positive
  literal 0x2B8CBCCC. The feature array is the first view's 4096 normalised rows followed by the second view's.

  The host operations before the region leave exactly this term, narrowed to the sixteen-bit format, in the buffer the
  region's two feature windows read; on extended reals the narrowing is the identity.
-/
import proofs.«122991_j63007170232511_2_alg».proof.Proof.Gen.KernelIdeal.Launch
import Idealize.ShloMosaic.Lib.StableHlo.Run
import Idealize.ShloMosaic.Lib.ValueIdx

noncomputable section

namespace Cert.KSide

open Idealize.ShloMosaic Idealize.ShloMosaic.ValueIdx
open Cert.KernelIdeal

/-- The first view's rows: samples 0 to 7, channels last, (sample, position) flattened to 4096 rows. -/
def viewLo (A : FVec Ideal S16x256x512 .f32) : FVec Ideal S4096x256 .f32 :=
  shapeCast S4096x256
    (transpose S8x512x256 [0, 2, 1]
      (extractStridedSlice S8x256x512 ![0, 0, 0] A Gen.slices_S16x256x512_S8x256x512_0_0_0)
      Gen.transposes_S8x256x512_S8x512x256_0_2_1)
    Gen.shapeCasts_S8x512x256_S4096x256

/-- The second view's rows: samples 8 to 15, laid out the same way. -/
def viewHi (A : FVec Ideal S16x256x512 .f32) : FVec Ideal S4096x256 .f32 :=
  shapeCast S4096x256
    (transpose S8x512x256 [0, 2, 1]
      (extractStridedSlice S8x256x512 ![8, 0, 0] A Gen.slices_S16x256x512_S8x256x512_8_0_0)
      Gen.transposes_S8x256x512_S8x512x256_0_2_1)
    Gen.shapeCasts_S8x512x256_S4096x256

/-- The divisor of each row: the larger of the row's Euclidean norm and the small positive literal, as a column. -/
def rowDen (X : FVec Ideal S4096x256 .f32) : FVec Ideal S4096x1 .f32 :=
  maximumf
    (Host.sqrt (broadcastInDim S4096x1 ![0] Gen.bcast_S4096_S4096x1_0
      (Host.reduceAdd (mulf X X) (constant (F := Ideal) S_ .f32 0x00000000#32) Gen.reducesTo_S4096x256_S4096_d1 Gen.h_S_)))
    (broadcastInDim S4096x1 ![] Gen.bcast_S_S4096x1 (constant (F := Ideal) S_ .f32 0x2B8CBCCC#32))

/-- Each row divided by its divisor. -/
def normRows (X : FVec Ideal S4096x256 .f32) : FVec Ideal S4096x256 .f32 :=
  Host.divf X (broadcastInDim S4096x256 ![0, 1] Gen.bcast_S4096x1_S4096x256_0_1 (rowDen X))

/-- The feature array: the first view's normalised rows, then the second view's. -/
def featsArr (A : FVec Ideal S16x256x512 .f32) : FVec Ideal S8192x256 .f32 :=
  concatenate S8192x256 0 [⟨S4096x256, normRows (viewLo A)⟩, ⟨S4096x256, normRows (viewHi A)⟩]
    Gen.concatenates_S4096x256_S4096x256_S8192x256_d0

/-- The buffer the region's feature windows read holds the feature array of the embeddings' contents. -/
theorem entry_feats (W : Valuation τ sig (Elt Ideal)) :
    StableHlo.after (Gen.hostOps0 (F := Ideal)) W (Proc.devRef .tc main_v29)
      = featsArr (W (Proc.devRef .tc main_arg0)) := by
  after_results_simp
  rfl

end Cert.KSide

end
-- ==== Proof.KHostRead.lean ====
/-
  The feature array read at an index.

  Row r of the feature array is row r of the first view's normalised rows when r is below 4096, and row r − 4096 of the second
  view's otherwise (the array is the two blocks of rows one after the other). A normalised row's entry is the view's entry
  divided by the row's divisor, and the divisor is the larger of the square root of the row's sum of squares and the small
  positive literal: the sum over the channel axis from the zero word is the plain sum over the 256 channels. A view's entry at
  row s · 512 + p and channel k is the embeddings' entry at sample s (plus 8 for the second view), channel k, position p: the
  flattening keeps the row-major position, the transposition swaps the last two coordinates, and the slice shifts the sample.
-/
import proofs.«122991_j63007170232511_2_alg».proof.Proof.KHostFeats
import Idealize.ShloMosaic.Lib.Pipeline.Value
import Idealize.ShloMosaic.PureOps.Ideal.Laws

noncomputable section

namespace Cert.KSide

open Idealize.ShloMosaic Idealize.ShloMosaic.ValueIdx
open Cert.KernelIdeal

/-- A row below 4096 of the feature array is that row of the first view's normalised rows. -/
theorem featsArr_lo (A : FVec Ideal S16x256x512 .f32) (r : Fin 8192) (i : Fin 4096) (k : Fin 256) (h : r.val = i.val) :
    featsArr A (ix2 r k) = normRows (viewLo A) (ix2 i k) := by
  unfold featsArr
  exact concatenate_pair_apply_left (s₁ := S4096x256) (s₂ := S4096x256) (0 : Fin S8192x256.rank) _ _ _ (ix2 r k) rfl (ix2 i k)
    (fun b => match b with | ⟨0, _⟩ => h.symm | ⟨1, _⟩ => rfl)

/-- A row from 4096 on of the feature array is row r − 4096 of the second view's normalised rows. -/
theorem featsArr_hi (A : FVec Ideal S16x256x512 .f32) (r : Fin 8192) (i : Fin 4096) (k : Fin 256) (h : r.val = i.val + 4096) :
    featsArr A (ix2 r k) = normRows (viewHi A) (ix2 i k) := by
  unfold featsArr
  exact concatenate_pair_apply_right (s₁ := S4096x256) (s₂ := S4096x256) (0 : Fin S8192x256.rank) _ _ _ (ix2 r k) rfl rfl (ix2 i k)
    (fun b hb => match b, hb with | ⟨0, _⟩, hb => absurd rfl hb | ⟨1, _⟩, _ => rfl)
    (by show i.val + 4096 = r.val; omega)

/-- The sum over the channel axis, from an initial value, read at a row: the initial value plus the sum over the 256 channels. -/
theorem rowSum_apply (Y : FVec Ideal S4096x256 .f32) (init : EReal) (i : Fin 4096) :
    Ideal.hostReduceAdd Gen.reducesTo_S4096x256_S4096_d1 Y init (ix1 i) = init + ∑ k : Fin 256, Y (ix2 i k) := by
  have hR : S4096x256.Reduces [1] S4096 := by decide
  rw [Ideal.hostReduceAdd_single _ hR]
  refine congrArg (init + ·) (Finset.sum_congr rfl fun k _ => congrArg Y ?_)
  funext a
  match a with
  | ⟨0, _⟩ => rfl
  | ⟨1, _⟩ => rfl

/-- A row's divisor: the larger of the square root of the row's sum of squares and the small positive literal. -/
theorem rowDen_apply (X : FVec Ideal S4096x256 .f32) (i : Fin 4096) (u : Fin 1) :
    rowDen X (ix2 i u)
      = max (Ideal.sqrt (∑ k : Fin 256, X (ix2 i k) * X (ix2 i k))) (Ideal.ofBits .f32 0x2B8CBCCC#32) := by
  unfold rowDen
  rw [maximumf_apply]
  refine congrArg₂ max (congrArg Ideal.sqrt ?_) ?_
  · refine (broadcastInDim_apply _ _ _ (ix2 i u) (ix1 i) (fun a => ?_)).trans ?_
    · match a with
      | ⟨0, _⟩ => exact (if_neg (show ¬ ((4096 : ℕ) = 1) by decide)).symm
    · show Ideal.hostReduceAdd Gen.reducesTo_S4096x256_S4096_d1 (mulf X X) (Ideal.ofBits .f32 0x00000000#32) (ix1 i) = _
      rw [rowSum_apply, Ideal.ofBits_zero_f32, zero_add]
      rfl
  · exact broadcastInDim_apply _ _ _ (ix2 i u) ix0 (fun a => a.elim0)

/-- A normalised row's entry: the entry divided by the row's divisor. -/
theorem normRows_apply (X : FVec Ideal S4096x256 .f32) (i : Fin 4096) (k : Fin 256) :
    normRows X (ix2 i k)
      = Ideal.div (X (ix2 i k))
          (max (Ideal.sqrt (∑ k' : Fin 256, X (ix2 i k') * X (ix2 i k'))) (Ideal.ofBits .f32 0x2B8CBCCC#32)) := by
  unfold normRows
  show Ideal.div (X (ix2 i k)) (broadcastInDim S4096x256 ![0, 1] Gen.bcast_S4096x1_S4096x256_0_1 (rowDen X) (ix2 i k)) = _
  refine congrArg (Ideal.div (X (ix2 i k))) ?_
  refine (broadcastInDim_apply _ _ _ (ix2 i k) (ix2 i (0 : Fin 1)) (fun a => ?_)).trans (rowDen_apply X i 0)
  match a with
  | ⟨0, _⟩ => exact (if_neg (show ¬ ((4096 : ℕ) = 1) by decide)).symm
  | ⟨1, _⟩ => exact (if_pos rfl).symm

/-- The first view's entry at row s · 512 + p, channel k: the embeddings at sample s, channel k, position p. -/
theorem viewLo_apply (A : FVec Ideal S16x256x512 .f32) (s : Fin 8) (p : Fin 512) (k : Fin 256) (i : Fin 4096)
    (hi : i.val = s.val * 512 + p.val) :
    viewLo A (ix2 i k) = A (ix3 (⟨s.val, by omega⟩ : Fin 16) k p) := by
  unfold viewLo
  refine (shapeCast_apply _ _ (ix2 i k) (ix3 s p k) ?_).trans ?_
  · rw [Shape.rowMajor_val_three, Shape.rowMajor_val_two]
    show (s.val * 512 + p.val) * 256 + k.val = i.val * 256 + k.val
    omega
  refine (transpose_apply _ _ _ (ix3 s p k) (ix3 s k p) (fun b => ?_)).trans ?_
  · match b with
    | ⟨0, _⟩ => rfl
    | ⟨1, _⟩ => rfl
    | ⟨2, _⟩ => rfl
  refine extractStridedSlice_apply _ _ _ (ix3 s k p) (ix3 (⟨s.val, by omega⟩ : Fin 16) k p) (fun a => ?_)
  match a with
  | ⟨0, _⟩ => exact (Nat.zero_add _).symm
  | ⟨1, _⟩ => exact (Nat.zero_add _).symm
  | ⟨2, _⟩ => exact (Nat.zero_add _).symm

/-- The second view's entry at row s · 512 + p, channel k: the embeddings at sample s + 8, channel k, position p. -/
theorem viewHi_apply (A : FVec Ideal S16x256x512 .f32) (s : Fin 8) (p : Fin 512) (k : Fin 256) (i : Fin 4096)
    (hi : i.val = s.val * 512 + p.val) :
    viewHi A (ix2 i k) = A (ix3 (⟨s.val + 8, by omega⟩ : Fin 16) k p) := by
  unfold viewHi
  refine (shapeCast_apply _ _ (ix2 i k) (ix3 s p k) ?_).trans ?_
  · rw [Shape.rowMajor_val_three, Shape.rowMajor_val_two]
    show (s.val * 512 + p.val) * 256 + k.val = i.val * 256 + k.val
    omega
  refine (transpose_apply _ _ _ (ix3 s p k) (ix3 s k p) (fun b => ?_)).trans ?_
  · match b with
    | ⟨0, _⟩ => rfl
    | ⟨1, _⟩ => rfl
    | ⟨2, _⟩ => rfl
  refine extractStridedSlice_apply _ _ _ (ix3 s k p) (ix3 (⟨s.val + 8, by omega⟩ : Fin 16) k p) (fun a => ?_)
  match a with
  | ⟨0, _⟩ => exact Nat.add_comm _ _
  | ⟨1, _⟩ => exact (Nat.zero_add _).symm
  | ⟨2, _⟩ => exact (Nat.zero_add _).symm

end Cert.KSide

end
-- ==== Proof.KHostPos.lean ====
/-
  The positive-pair column the wrapper hands to the region.

  For each of the 4096 (sample, position) pairs the wrapper takes the inner product over the 256 channels of the first view's
  normalised row and the second view's normalised row (a sum from the zero word, which the sum absorbs) and divides it by the
  temperature literal. The column the region reads is that vector written twice, one copy after the other, as an 8192 × 1
  array: entry r is the vector's entry r mod 4096. Rows r mod 4096 and r mod 4096 + 4096 of the feature array are exactly those
  two normalised rows, so entry r is the positive term of row r as the specification states it.
-/
import proofs.«122991_j63007170232511_2_alg».proof.Proof.KHostRead
import proofs.«122991_j63007170232511_2_alg».proof.Proof.Spec

noncomputable section

namespace Cert.KSide

open Idealize.ShloMosaic Idealize.ShloMosaic.ValueIdx
open Cert.KernelIdeal

/-- The positive term per (sample, position) pair: the two views' normalised rows' inner product over the temperature. -/
def posVec (A : FVec Ideal S16x256x512 .f32) : FVec Ideal S4096 .f32 :=
  Host.divf
    (Host.reduceAdd (mulf (normRows (viewLo A)) (normRows (viewHi A))) (constant (F := Ideal) S_ .f32 0x00000000#32)
      Gen.reducesTo_S4096x256_S4096_d1 Gen.h_S_)
    (broadcastInDim S4096 ![] Gen.bcast_S_S4096 (constant (F := Ideal) S_ .f32 0x3D8F5C29#32))

/-- The column the region reads: the vector twice over, as an 8192 × 1 array. -/
def posArr (A : FVec Ideal S16x256x512 .f32) : FVec Ideal S8192x1 .f32 :=
  broadcastInDim S8192x1 ![0] Gen.bcast_S8192_S8192x1_0
    (concatenate S8192 0 [⟨S4096, posVec A⟩, ⟨S4096, posVec A⟩] Gen.concatenates_S4096_S4096_S8192_d0)

/-- The buffer the region's positive-term window reads holds that column of the embeddings' contents. -/
theorem entry_posArr (W : Valuation τ sig (Elt Ideal)) :
    StableHlo.after (Gen.hostOps0 (F := Ideal)) W (Proc.devRef .tc main_v27) = posArr (W (Proc.devRef .tc main_arg0)) := by
  after_results_simp
  rfl

/-- The vector at a pair: the channel sum of the products of the two normalised rows, over the temperature. -/
theorem posVec_apply (A : FVec Ideal S16x256x512 .f32) (i : Fin 4096) :
    posVec A (ix1 i)
      = Ideal.div (∑ k : Fin 256, normRows (viewLo A) (ix2 i k) * normRows (viewHi A) (ix2 i k)) Cert.Spec.tau := by
  unfold posVec Cert.Spec.tau
  show Ideal.div (Ideal.hostReduceAdd Gen.reducesTo_S4096x256_S4096_d1 (mulf (normRows (viewLo A)) (normRows (viewHi A)))
      (Ideal.ofBits .f32 0x00000000#32) (ix1 i))
    (broadcastInDim S4096 ![] Gen.bcast_S_S4096 (constant (F := Ideal) S_ .f32 0x3D8F5C29#32) (ix1 i)) = _
  rw [rowSum_apply, Ideal.ofBits_zero_f32, zero_add]
  exact congrArg (Ideal.div _) (broadcastInDim_apply _ _ _ (ix1 i) ix0 (fun a => a.elim0))

/-- The column at row r: the vector at r mod 4096. -/
theorem posArr_apply (A : FVec Ideal S16x256x512 .f32) (r : Fin 8192) (i : Fin 4096) (h : r.val % 4096 = i.val) :
    posArr A (ix2 r (0 : Fin 1)) = posVec A (ix1 i) := by
  have hr8 := r.isLt
  have hi4 := i.isLt
  unfold posArr
  refine (broadcastInDim_apply _ _ _ (ix2 r (0 : Fin 1)) (ix1 r)
    (fun a => match a with | ⟨0, _⟩ => (if_neg (show ¬ ((8192 : ℕ) = 1) by decide)).symm)).trans ?_
  by_cases hr : r.val < 4096
  · exact concatenate_pair_apply_left (s₁ := S4096) (s₂ := S4096) (0 : Fin S8192.rank) _ _ _ (ix1 r) rfl (ix1 i)
      (fun b => match b with | ⟨0, _⟩ => by show i.val = r.val; omega)
  · exact concatenate_pair_apply_right (s₁ := S4096) (s₂ := S4096) (0 : Fin S8192.rank) _ _ _ (ix1 r) rfl rfl (ix1 i)
      (fun b hb => match b, hb with | ⟨0, _⟩, hb => absurd rfl hb)
      (by show i.val + 4096 = r.val; omega)

/-- Entry r of the region's positive-term column is the specification's positive term of row r of the feature array. -/
theorem entry_pos (W : Valuation τ sig (Elt Ideal)) (r : Fin 8192) :
    (StableHlo.after (Gen.hostOps0 (F := Ideal)) W (Proc.devRef .tc main_v27) : S8192x1.Idx → EReal) (ix2 r (0 : Fin 1))
      = Cert.Spec.posK (fun r k => featsArr (W (Proc.devRef .tc main_arg0)) (ix2 r k)) r := by
  refine (congrFun (entry_posArr W) (ix2 r (0 : Fin 1))).trans ?_
  have hr8 := r.isLt
  rw [posArr_apply _ r (⟨r.val % 4096, by omega⟩ : Fin 4096) rfl, posVec_apply]
  unfold Cert.Spec.posK
  refine congrArg (Ideal.div · Cert.Spec.tau) (Finset.sum_congr rfl fun k _ => ?_)
  show _ = featsArr (W (Proc.devRef .tc main_arg0)) (ix2 (Cert.Spec.lo r) k)
      * featsArr (W (Proc.devRef .tc main_arg0)) (ix2 (Cert.Spec.hi r) k)
  rw [featsArr_lo _ (Cert.Spec.lo r) (⟨r.val % 4096, by omega⟩ : Fin 4096) k rfl,
    featsArr_hi _ (Cert.Spec.hi r) (⟨r.val % 4096, by omega⟩ : Fin 4096) k rfl]

end Cert.KSide

end
-- ==== Proof.KHostTail.lean ====
/-
  The value the host operations after the region compute from the region's output column.

  The region leaves a column of 8192 per-row values. The operations after it sum the column over both its axes starting from
  the zero word, divide by the literal 8192, and multiply by the literal one. The sum over the column's index set is the sum
  over its 8192 rows, the second axis having the single coordinate 0; the zero word is the extended real 0, which the sum
  absorbs.
-/
import proofs.«122991_j63007170232511_2_alg».proof.Proof.Gen.KernelIdeal.Launch
import proofs.«122991_j63007170232511_2_alg».proof.Proof.Spec
import Idealize.ShloMosaic.Lib.StableHlo.Run
import Idealize.ShloMosaic.Lib.ValueIdx
import Idealize.ShloMosaic.PureOps.Ideal.Laws

noncomputable section

namespace Cert.KSide

open Idealize.ShloMosaic Idealize.ShloMosaic.ValueIdx
open Cert.KernelIdeal

/-- The result buffer after the closing operations: the mean of the region's output column, times one. -/
theorem tail_value (W : Valuation τ sig (Elt Ideal)) :
    StableHlo.after (Gen.hostOps1 (F := Ideal)) W (Proc.devRef .tc main_v33)
      = fun _ => Ideal.div (∑ r : Fin 8192, (W (Proc.devRef .tc main_v30) : S8192x1.Idx → EReal) (ix2 r (0 : Fin 1)))
          Cert.Spec.count * Cert.Spec.oneF := by
  after_results
  funext j
  show Ideal.div (Ideal.hostReduceAdd Gen.reducesTo_S8192x1_S_d0_1 (W (Proc.devRef .tc main_v30) : S8192x1.Idx → EReal)
      (Ideal.ofBits .f32 0x00000000#32) j) (Ideal.ofBits .f32 0x46000000#32) * Ideal.ofBits .f32 0x3F800000#32 = _
  rw [Ideal.hostReduceAdd_total _ (fun b => b.elim0), Ideal.ofBits_zero_f32, zero_add, sum_idx2]
  simp only [Fin.sum_univ_one]
  rfl

end Cert.KSide

end
-- ==== Proof.KHostOther.lean ====
/-
  The host operations before the region write none of the program's three argument buffers: each operation writes its own
  result buffer, and no result buffer is an argument. So the arguments hold at the region's entry what they held at launch.
-/
import proofs.«122991_j63007170232511_2_alg».proof.Proof.Gen.KernelIdeal.Launch
import Idealize.ShloMosaic.Lib.StableHlo.Run
import Idealize.ShloMosaic.Lib.ValueIdx

noncomputable section

namespace Cert.KSide

open Idealize.ShloMosaic Idealize.ShloMosaic.ValueIdx
open Cert.KernelIdeal

/-- The embeddings' buffer is untouched by the operations before the region. -/
theorem entry_arg0 (W : Valuation τ sig (Elt Ideal)) :
    StableHlo.after (Gen.hostOps0 (F := Ideal)) W (Proc.devRef .tc main_arg0) = W (Proc.devRef .tc main_arg0) := by
  after_results_simp

/-- The second argument's buffer is untouched by the operations before the region. -/
theorem entry_arg1 (W : Valuation τ sig (Elt Ideal)) :
    StableHlo.after (Gen.hostOps0 (F := Ideal)) W (Proc.devRef .tc main_arg1) = W (Proc.devRef .tc main_arg1) := by
  after_results_simp

/-- The third argument's buffer is untouched by the operations before the region. -/
theorem entry_arg2 (W : Valuation τ sig (Elt Ideal)) :
    StableHlo.after (Gen.hostOps0 (F := Ideal)) W (Proc.devRef .tc main_arg2) = W (Proc.devRef .tc main_arg2) := by
  after_results_simp

end Cert.KSide

end
-- ==== Proof.KHostTailArgs.lean ====
/-
  The host operations after the region write none of the program's three argument buffers: each of the six operations writes
  its own result buffer, and no result buffer is an argument. So the arguments hold at the end what they held at the region's exit.
-/
import proofs.«122991_j63007170232511_2_alg».proof.Proof.Gen.KernelIdeal.Launch
import Idealize.ShloMosaic.Lib.StableHlo.Run
import Idealize.ShloMosaic.Lib.ValueIdx

noncomputable section

namespace Cert.KSide

open Idealize.ShloMosaic Idealize.ShloMosaic.ValueIdx
open Cert.KernelIdeal

/-- The embeddings' buffer is untouched by the operations after the region. -/
theorem tail_arg0 (W : Valuation τ sig (Elt Ideal)) :
    StableHlo.after (Gen.hostOps1 (F := Ideal)) W (Proc.devRef .tc main_arg0) = W (Proc.devRef .tc main_arg0) := by
  after_results_simp

/-- The second argument's buffer is untouched by the operations after the region. -/
theorem tail_arg1 (W : Valuation τ sig (Elt Ideal)) :
    StableHlo.after (Gen.hostOps1 (F := Ideal)) W (Proc.devRef .tc main_arg1) = W (Proc.devRef .tc main_arg1) := by
  after_results_simp

/-- The third argument's buffer is untouched by the operations after the region. -/
theorem tail_arg2 (W : Valuation τ sig (Elt Ideal)) :
    StableHlo.after (Gen.hostOps1 (F := Ideal)) W (Proc.devRef .tc main_arg2) = W (Proc.devRef .tc main_arg2) := by
  after_results_simp

end Cert.KSide

end
-- ==== Proof.KIValue.lean ====
/-
  The value of the idealized kernel's run: the scalar it returns is the specification's kernel-side loss of the feature rows.

  At the region's entry the feature array holds the normalised rows and the positive-term array their scaled inner
  products with the other view's rows. At the point of row tile q and column tile k, window 0's block is rows
  1024·q …, window 1's rows 1024·k …, so the body adds to row p's accumulator the specification's tile k of row
  1024·q + p; by induction on the point the accumulator after column tile k is the sum of tiles 0 … k. At column tile 7 the
  output block takes shift + log(that sum) − positive term: the specification's row value. The eight write-backs tile the
  result array, the later host operations sum it, divide by the count and multiply by one.
-/
import proofs.«122991_j63007170232511_2_alg».proof.Proof.KILaunch
import proofs.«122991_j63007170232511_2_alg».proof.Proof.KICaseValues
import proofs.«122991_j63007170232511_2_alg».proof.Proof.KIBlocks
import proofs.«122991_j63007170232511_2_alg».proof.Proof.KPayTile
import proofs.«122991_j63007170232511_2_alg».proof.Proof.KPaySmall
import proofs.«122991_j63007170232511_2_alg».proof.Proof.KHostFeats
import proofs.«122991_j63007170232511_2_alg».proof.Proof.KHostPos
import proofs.«122991_j63007170232511_2_alg».proof.Proof.KHostTail
import proofs.«122991_j63007170232511_2_alg».proof.Proof.KHostOther
import proofs.«122991_j63007170232511_2_alg».proof.Proof.KHostTailArgs
import proofs.«122991_j63007170232511_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-- The feature rows, from the embeddings on core c. -/
def featsOf (c : Dev nD) : Cert.Spec.Feats :=
  fun r k => Cert.KSide.featsArr (m ((c.tc : Thread nD τ).loc main_arg0)) (ix2 r k)

theorem flatten0 : List.flatten [hostOps0 (F := Ideal)] = hostOps0 := by
  simp only [List.flatten_cons, List.flatten_nil, List.append_nil]
theorem flatten1 : List.flatten [hostOps1 (F := Ideal)] = hostOps1 := by
  simp only [List.flatten_cons, List.flatten_nil, List.append_nil]

/-- The feature array as the region finds it. -/
theorem V_feats (c : Dev nD) (r : Fin 8192) (k : Fin 256) :
    (V m c main_v29 : S8192x256.Idx → EReal) (ix2 r k) = featsOf m c r k := by
  show (StableHlo.after (List.flatten [hostOps0 (F := Ideal)]) (fun b => m (c, b)) (Proc.devRef .tc main_v29) : S8192x256.Idx → EReal) (ix2 r k) = _
  rw [flatten0, Cert.KSide.entry_feats]
  rfl

/-- The positive terms as the region finds them. -/
theorem V_pos (c : Dev nD) (r : Fin 8192) :
    (V m c main_v27 : S8192x1.Idx → EReal) (ix2 r (0 : Fin 1)) = Cert.Spec.posK (featsOf m c) r := by
  show (StableHlo.after (List.flatten [hostOps0 (F := Ideal)]) (fun b => m (c, b)) (Proc.devRef .tc main_v27) : S8192x1.Idx → EReal) (ix2 r (0 : Fin 1)) = _
  rw [flatten0, Cert.KSide.entry_pos]
  rfl

/-- Tile k of a row, for any natural k (zero past the eighth). -/
def tileN (f : Cert.Spec.Feats) (r : Fin 8192) (k : ℕ) : EReal := if h : k < 8 then Cert.Spec.tile f r ⟨k, h⟩ else 0

theorem sum_tileN (f : Cert.Spec.Feats) (r : Fin 8192) :
    ∑ k' ∈ Finset.range 8, tileN f r k' = ∑ k : Fin 8, Cert.Spec.tile f r k := by
  rw [← Fin.sum_univ_eq_sum_range (fun k => tileN f r k) 8]
  exact Finset.sum_congr rfl fun k _ => by unfold tileN; rw [dif_pos k.isLt]

/-- One point of the weighted branch: row p's accumulator gains the point's tile of row 1024·(t / 8) + p. -/
theorem step_band (c : Dev nD) (t : Fin cfg0.N) (hb : bandAt t.val) (xs : FVec Ideal S1024x1 .f32) (p : Fin 1024)
    (r : Fin 8192) (hr : r.val = 1024 * (t.val / 8) + p.val) :
    (k0_pay3 (F := Ideal) (grid0.coords t) (iblk m c 0 t) (iblk m c 1 t) xs : S1024x1.Idx → EReal) (ix2 p (0 : Fin 1))
      = xs (ix2 p (0 : Fin 1)) + tileN (featsOf m c) r (t.val % 8) := by
  have hN : t.val < 64 := lt_of_lt_of_eq t.isLt (show cfg0.N = 64 from N_0)
  have hq : t.val / 8 < 8 := by omega
  have hk : t.val % 8 < 8 := by omega
  obtain rfl : r = Cert.Spec.col ⟨t.val / 8, hq⟩ p := Fin.ext hr
  rw [Cert.KPay.pay3_tile (featsOf m c) (grid0.coords t) ⟨t.val / 8, hq⟩ ⟨t.val % 8, hk⟩ (coords_0 t) (coords_1 t) hb
    (iblk m c 0 t) (iblk m c 1 t) xs
    (fun p' c' => (iblk0_apply m c t p' c' (Cert.Spec.col ⟨t.val / 8, hq⟩ p') rfl).trans (V_feats m c _ _))
    (fun j c' => (iblk1_apply m c t j c' (Cert.Spec.col ⟨t.val % 8, hk⟩ j) rfl).trans (V_feats m c _ _)) p]
  unfold tileN; rw [dif_pos hk]

/-- One point of the unweighted branch. -/
theorem step_off (c : Dev nD) (t : Fin cfg0.N) (hb : ¬bandAt t.val) (xs : FVec Ideal S1024x1 .f32) (p : Fin 1024)
    (r : Fin 8192) (hr : r.val = 1024 * (t.val / 8) + p.val) :
    (k0_pay4 (F := Ideal) (iblk m c 0 t) (iblk m c 1 t) xs : S1024x1.Idx → EReal) (ix2 p (0 : Fin 1))
      = xs (ix2 p (0 : Fin 1)) + tileN (featsOf m c) r (t.val % 8) := by
  have hN : t.val < 64 := lt_of_lt_of_eq t.isLt (show cfg0.N = 64 from N_0)
  have hq : t.val / 8 < 8 := by omega
  have hk : t.val % 8 < 8 := by omega
  obtain rfl : r = Cert.Spec.col ⟨t.val / 8, hq⟩ p := Fin.ext hr
  rw [Cert.KPay.pay4_tile (featsOf m c) ⟨t.val / 8, hq⟩ ⟨t.val % 8, hk⟩
    (iblk m c 0 t) (iblk m c 1 t)
    (fun p' c' => (iblk0_apply m c t p' c' (Cert.Spec.col ⟨t.val / 8, hq⟩ p') rfl).trans (V_feats m c _ _))
    (fun j c' => (iblk1_apply m c t j c' (Cert.Spec.col ⟨t.val % 8, hk⟩ j) rfl).trans (V_feats m c _ _)) hb xs p]
  unfold tileN; rw [dif_pos hk]

/-- THE ACCUMULATOR after point n: for row p of the row tile, the sum of the column tiles 0 … n % 8. -/
theorem acc_eq (c : Dev nD) : ∀ (n : ℕ) (hn : n < cfg0.N) (p : Fin 1024) (r : Fin 8192), r.val = 1024 * (n / 8) + p.val →
    ((outsAt0 m c n hn).2 : S1024x1.Idx → EReal) (ix2 p (0 : Fin 1)) = ∑ k' ∈ Finset.range (n % 8 + 1), tileN (featsOf m c) r k' := by
  intro n
  induction n using Nat.strong_induction_on with
  | _ n ih =>
    intro hn p r hr
    have hN : n < 64 := lt_of_lt_of_eq hn (show cfg0.N = 64 from N_0)
    by_cases h0 : n % 8 = 0
    · have h3 : ¬n % 8 = 7 := by omega
      rw [h0, Finset.sum_range_one]
      by_cases hb : bandAt n
      · rw [outsAt0_A m c ⟨n, hn⟩ h0 hb h3]; dsimp only
        rw [sout_A, step_band m c ⟨n, hn⟩ hb _ p r hr, Cert.KPay.pay1_apply, zero_add]
        show tileN (featsOf m c) r (n % 8) = _; rw [h0]
      · rw [outsAt0_B m c ⟨n, hn⟩ h0 hb h3]; dsimp only
        rw [sout_B, step_off m c ⟨n, hn⟩ hb _ p r hr, Cert.KPay.pay1_apply, zero_add]
        show tileN (featsOf m c) r (n % 8) = _; rw [h0]
    · have hprev : ((outsAt0 m c (n - 1) (Nat.lt_of_le_of_lt (Nat.sub_le _ _) hn)).2 : S1024x1.Idx → EReal) (ix2 p (0 : Fin 1))
          = ∑ k' ∈ Finset.range (n % 8), tileN (featsOf m c) r k' := by
        rw [ih (n - 1) (by omega) _ p r (by rw [hr]; congr 2; omega)]
        congr 2; omega
      rw [Finset.sum_range_succ, ← hprev]
      by_cases h3 : n % 8 = 7
      · by_cases hb : bandAt n
        · rw [outsAt0_E m c ⟨n, hn⟩ h0 hb h3]; dsimp only
          rw [sout_E, step_band m c ⟨n, hn⟩ hb _ p r hr]
        · rw [outsAt0_G m c ⟨n, hn⟩ h0 hb h3]; dsimp only
          rw [sout_G, step_off m c ⟨n, hn⟩ hb _ p r hr]
      · by_cases hb : bandAt n
        · rw [outsAt0_C m c ⟨n, hn⟩ h0 hb h3]; dsimp only
          rw [sout_C, step_band m c ⟨n, hn⟩ hb _ p r hr]
        · rw [outsAt0_D m c ⟨n, hn⟩ h0 hb h3]; dsimp only
          rw [sout_D, step_off m c ⟨n, hn⟩ hb _ p r hr]

/-- THE OUTPUT BLOCK at the last column tile: the specification's row value. -/
theorem out_eq (c : Dev nD) (t : Fin cfg0.N) (h3 : t.val % 8 = 7) (p : Fin 1024) (r : Fin 8192) (hr : r.val = 1024 * (t.val / 8) + p.val) :
    ((outsAt0 m c t.val t.isLt).1 : S1024x1.Idx → EReal) (ix2 p (0 : Fin 1)) = Cert.Spec.rowK (featsOf m c) r := by
  have h0 : ¬t.val % 8 = 0 := by omega
  have hacc := acc_eq m c t.val t.isLt p r hr
  rw [h3, sum_tileN] at hacc
  have hpos : (iblk m c 2 t : Vec Ideal S1024x1 .f32) (ix2 p (0 : Fin 1)) = Cert.Spec.posK (featsOf m c) r :=
    (iblk2_apply m c t p r hr).trans (V_pos m c r)
  unfold Cert.Spec.rowK
  by_cases hb : bandAt t.val
  · rw [outsAt0_E m c t h0 hb h3] at hacc ⊢; dsimp only at hacc ⊢
    rw [sout_E] at hacc
    rw [out_E, Cert.KPay.pay5_apply, hacc, hpos]
  · rw [outsAt0_G m c t h0 hb h3] at hacc ⊢; dsimp only at hacc ⊢
    rw [sout_G] at hacc
    rw [out_G, Cert.KPay.pay5_apply, hacc, hpos]

/-- The result array the region leaves: each row's value. -/
def G (c : Dev nD) : S8192x1.Idx → EReal := fun i => Cert.Spec.rowK (featsOf m c) ⟨(i 0).val, (i 0).isLt⟩

/-- What a write-back writes is its block of that array. -/
theorem flushed_eq (c : Dev nD) (t : Fin cfg0.N) (hf : (cfg0.win 3).flush t = true) :
    (dats m 0 c).flushed 3 t = ((cfg0.win 3).blk t).view.read (Elt Ideal) (G m c) := by
  have h3 : t.val % 8 = 7 := (flush0_3 t).mp hf
  have hN : t.val < 64 := lt_of_lt_of_eq t.isLt (show cfg0.N = 64 from N_0)
  show (cfg0.win 3).cut (grid0.coords t) ((dats m 0 c).after 3 t) = _
  rw [after0_3]
  funext j
  obtain ⟨p, u, rfl⟩ : ∃ (p : Fin 1024) (u : Fin 1), j = ix2 p u := ⟨j 0, j 1, eq_ix2 j⟩
  obtain rfl : u = 0 := Subsingleton.elim _ _
  rw [View.read_apply, blk3_emb t p ⟨1024 * (t.val / 8) + p.val, by omega⟩ rfl]
  exact out_eq m c t h3 p _ rfl

/-- The eight write-backs tile the result array, so it ends holding the row values. -/
theorem final (c : Dev nD) : (dats m 0 c).arrAt 3 cfg0.N = G m c :=
  (dats m 0 c).arrAt_eq_of_cover 3 (G m c) (flushed_eq m c) fun i => by
    have hi0 : (i 0).val < 8192 := (i 0).isLt
    have hi1 : (i 1).val < 1 := (i 1).isLt
    have ht : 8 * ((i 0).val / 1024) + 7 < cfg0.N := lt_of_lt_of_eq (by omega : 8 * ((i 0).val / 1024) + 7 < 64) (show cfg0.N = 64 from N_0).symm
    refine ⟨⟨8 * ((i 0).val / 1024) + 7, ht⟩, (flush0_3 _).mpr (by show (8 * ((i 0).val / 1024) + 7) % 8 = 7; omega), ?_⟩
    rw [mem_blk3]
    obtain ⟨e0, e1⟩ := idx3 ⟨8 * ((i 0).val / 1024) + 7, ht⟩
    intro a
    match a with
    | ⟨0, _⟩ =>
      show win0_3.index ⟨8 * ((i 0).val / 1024) + 7, ht⟩ (0 : Fin 2) * 1024 ≤ (i 0).val ∧ (i 0).val < win0_3.index ⟨8 * ((i 0).val / 1024) + 7, ht⟩ (0 : Fin 2) * 1024 + 1024
      rw [e0]; show (8 * ((i 0).val / 1024) + 7) / 8 * 1024 ≤ (i 0).val ∧ (i 0).val < (8 * ((i 0).val / 1024) + 7) / 8 * 1024 + 1024; omega
    | ⟨1, _⟩ =>
      show win0_3.index ⟨8 * ((i 0).val / 1024) + 7, ht⟩ (1 : Fin 2) * 1 ≤ (i 1).val ∧ (i 1).val < win0_3.index ⟨8 * ((i 0).val / 1024) + 7, ht⟩ (1 : Fin 2) * 1 + 1
      rw [e1]; omega

theorem mem_rest_v33 : main_v33 ∈ Pipeline.restRefs sig spec0 := by decide
theorem mem_rest_arg0 : main_arg0 ∈ Pipeline.restRefs sig spec0 := by decide
theorem mem_rest_arg1 : main_arg1 ∈ Pipeline.restRefs sig spec0 := by decide
theorem mem_rest_arg2 : main_arg2 ∈ Pipeline.restRefs sig spec0 := by decide

/-- The contents the later operations start from: the arrays at what the proof data computes, the rest as at the entry. -/
abbrev WN (c : Dev nD) : Valuation τ sig (Elt Ideal) :=
  Pipeline.withArrays spec0 c (V0 m c) fun w => (dats m 0 c).arrAt w cfg0.N

theorem WN_out (c : Dev nD) : WN m c (Proc.devRef .tc main_v30) = (dats m 0 c).arrAt 3 cfg0.N :=
  Pipeline.withArrays_arr_shared cfgs (dats m) 0 c (V0 m c) (A_eq m c) hio cfg0.N 3

theorem WN_arg (c : Dev nD) (b : Ref sig .tc) (hb : ∀ w, Pipeline.arrRef spec0 w ≠ b) :
    WN m c (Proc.devRef .tc b) = V0 m c (Proc.devRef .tc b) :=
  Pipeline.withArrays_of_ne spec0 c (V0 m c) _ b hb

/-- THE RUN, READ: the result is the specification's kernel-side loss of the feature rows; the arguments are unchanged. -/
theorem run : θ_run defs (onTc (τ := τ) (main (F := Ideal))) ⟨m, fun _ => 0, ρ⟩ (fun r => ∀ c : Dev nD,
      r.2.mem ((c.tc : Thread nD τ).loc main_v33) = (fun _ => Cert.Spec.lossK (featsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ)
  · rw [(h c).2 main_v33 mem_rest_v33]
    unfold Pipeline.afterTail₀
    show StableHlo.after (List.flatten [hostOps1 (F := Ideal)]) (WN m c) (Proc.devRef .tc main_v33) = _
    rw [flatten1, Cert.KSide.tail_value, WN_out, final]
    funext _
    unfold Cert.Spec.lossK G
    rfl
  · rw [(h c).2 main_arg0 mem_rest_arg0]
    unfold Pipeline.afterTail₀
    show StableHlo.after (List.flatten [hostOps1 (F := Ideal)]) (WN m c) (Proc.devRef .tc main_arg0) = _
    rw [flatten1, Cert.KSide.tail_arg0, WN_arg m c main_arg0 (by decide)]
    show StableHlo.after (List.flatten [hostOps0 (F := Ideal)]) (fun b => m (c, b)) (Proc.devRef .tc main_arg0) = _
    rw [flatten0, Cert.KSide.entry_arg0]
  · rw [(h c).2 main_arg1 mem_rest_arg1]
    unfold Pipeline.afterTail₀
    show StableHlo.after (List.flatten [hostOps1 (F := Ideal)]) (WN m c) (Proc.devRef .tc main_arg1) = _
    rw [flatten1, Cert.KSide.tail_arg1, WN_arg m c main_arg1 (by decide)]
    show StableHlo.after (List.flatten [hostOps0 (F := Ideal)]) (fun b => m (c, b)) (Proc.devRef .tc main_arg1) = _
    rw [flatten0, Cert.KSide.entry_arg1]
  · rw [(h c).2 main_arg2 mem_rest_arg2]
    unfold Pipeline.afterTail₀
    show StableHlo.after (List.flatten [hostOps1 (F := Ideal)]) (WN m c) (Proc.devRef .tc main_arg2) = _
    rw [flatten1, Cert.KSide.tail_arg2, WN_arg m c main_arg2 (by decide)]
    show StableHlo.after (List.flatten [hostOps0 (F := Ideal)]) (fun b => m (c, b)) (Proc.devRef .tc main_arg2) = _
    rw [flatten0, Cert.KSide.entry_arg2]

end Cert.KernelIdeal.Val

end
-- ==== Proof.KHostInputs.lean ====
/-
  The embeddings are real numbers under the precondition.

  The precondition says that a conjunction of "all" tests is true: for each float argument, every entry's absolute value is
  below the word 0x7F800000, which denotes +∞. A conjunction that is 1 has both conjuncts 1; an "all" that is 1 has every tested
  bit 1; and an extended real whose absolute value max(x, −x) is below +∞ is neither +∞ nor −∞, so it is a real number.
-/
import proofs.«122991_j63007170232511_2_alg».proof.Defs
import proofs.«122991_j63007170232511_2_alg».proof.Proof.Gen.Pre_finite_inputs
import proofs.«122991_j63007170232511_2_alg».proof.Proof.Gen.KernelIdeal
import Idealize.ShloMosaic.Lib.ReduceAll
import Idealize.ShloMosaic.Lib.ValueIdx

noncomputable section

namespace Cert.KSide

open Idealize.ShloMosaic Idealize.ShloMosaic.ValueIdx Idealize.SL.Sem
open Cert.KernelIdeal

/-- An extended real whose absolute value compares below the word of +∞ is a real number. -/
theorem real_of_abs_lt_inf (x : EReal)
    (h : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the embeddings' buffer, on every device, is a real number. -/
theorem inputs_real (m : (ℓ : Loc nD τ sig) → Buf (Elt Ideal) ℓ) (hpre : Cert.Pre_KernelIdeal m) (c : Dev nD) :
    ∀ i, ∃ x : ℝ, (m ((c.tc : Thread nD τ).loc main_arg0) : S16x256x512.Idx → EReal) i = (x : EReal) := by
  intro i
  haveI : Subsingleton Cert.Pre_finite_inputs.S_.Idx := ⟨fun a b => funext fun d => d.elim0⟩
  have h := congrFun (hpre c) ix0
  unfold Cert.Pre_finite_inputs.fn at h
  dsimp only at h
  change IntOp.andi _ _ = 1#1 at h
  have h1 := (IntOp.andi_eq_one.1 h).1
  have h2 := Host.reduce_andi_all _ _ _ _ ix0 h1 i
  exact real_of_abs_lt_inf _ h2

end Cert.KSide

end
-- ==== Proof.KHostReal.lean ====
/-
  Every entry of the feature array is a real number when every entry of the embeddings is.

  An entry of the feature array is an entry of one view divided by that row's divisor. A view's entry is some entry of the
  embeddings, so it is real. The row's sum of squares is then a non-negative real, its square root a real, and the divisor, the
  larger of that square root and the literal 0x2B8CBCCC (the positive real (2^23 + 834764) · 2^(87 − 127 − 23)), is a real
  number that is at least that positive literal, so it is not zero. A real divided by a non-zero real is a real.
-/
import proofs.«122991_j63007170232511_2_alg».proof.Proof.KHostRead

noncomputable section

namespace Cert.KSide

open Idealize.ShloMosaic Idealize.ShloMosaic.ValueIdx
open Cert.KernelIdeal

/-- A finite sum of reals, taken among the extended reals, is the real sum. -/
theorem coe_sum_real {ι : Type} (s : Finset ι) (g : ι → ℝ) :
    ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]

/-- The larger of two reals, taken among the extended reals, is the real maximum. -/
theorem max_coe_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The small literal of the normalisation is a positive real number. -/
theorem eps_pos : ∃ e : ℝ, 0 < e ∧ Ideal.ofBits .f32 0x2B8CBCCC#32 = (e : EReal) := by
  refine ⟨(1 : ℝ) * ((2 ^ 23 + 834764 : ℕ) : ℝ) * (2 : ℝ) ^ ((87 : ℤ) - 127 - 23), by positivity, ?_⟩
  simp [Ideal.ofBits, Ideal.ieee]

/-- A normalised row's entries are real when the rows' entries are. -/
theorem normRows_real (X : FVec Ideal S4096x256 .f32) (hX : ∀ j, ∃ x : ℝ, X j = (x : EReal)) (i : Fin 4096) (k : Fin 256) :
    ∃ x : ℝ, normRows X (ix2 i k) = (x : EReal) := by
  choose f hf using hX
  obtain ⟨e, he, hE⟩ := eps_pos
  rw [normRows_apply, hE]
  have hS : (∑ k' : Fin 256, X (ix2 i k') * X (ix2 i k')) = ((∑ k' : Fin 256, f (ix2 i k') * f (ix2 i k') : ℝ) : EReal) := by
    rw [← coe_sum_real]
    exact Finset.sum_congr rfl fun k' _ => by rw [hf, ← EReal.coe_mul]
  have hS0 : (0 : ℝ) ≤ ∑ k' : Fin 256, f (ix2 i k') * f (ix2 i k') := Finset.sum_nonneg fun k' _ => mul_self_nonneg _
  rw [hS, Ideal.sqrt_coe, if_neg (not_lt.2 hS0), max_coe_real]
  have hd : max (Real.sqrt (∑ k' : Fin 256, f (ix2 i k') * f (ix2 i k'))) e ≠ 0 := (lt_of_lt_of_le he (le_max_right _ _)).ne'
  rw [Ideal.div_coe hd, hf, ← EReal.coe_mul]
  exact ⟨_, rfl⟩

/-- The first view's entries are real when the embeddings' are. -/
theorem viewLo_real (A : FVec Ideal S16x256x512 .f32) (hA : ∀ i, ∃ x : ℝ, A i = (x : EReal)) (j : S4096x256.Idx) :
    ∃ x : ℝ, viewLo A j = (x : EReal) := by
  obtain ⟨i, k, rfl⟩ : ∃ (i : Fin 4096) (k : Fin 256), j = ix2 i k := ⟨j 0, j 1, eq_ix2 j⟩
  have hi := i.isLt
  rw [viewLo_apply A (⟨i.val / 512, by omega⟩ : Fin 8) (⟨i.val % 512, by omega⟩ : Fin 512) k i (by show i.val = i.val / 512 * 512 + i.val % 512; omega)]
  exact hA _

/-- The second view's entries are real when the embeddings' are. -/
theorem viewHi_real (A : FVec Ideal S16x256x512 .f32) (hA : ∀ i, ∃ x : ℝ, A i = (x : EReal)) (j : S4096x256.Idx) :
    ∃ x : ℝ, viewHi A j = (x : EReal) := by
  obtain ⟨i, k, rfl⟩ : ∃ (i : Fin 4096) (k : Fin 256), j = ix2 i k := ⟨j 0, j 1, eq_ix2 j⟩
  have hi := i.isLt
  rw [viewHi_apply A (⟨i.val / 512, by omega⟩ : Fin 8) (⟨i.val % 512, by omega⟩ : Fin 512) k i (by show i.val = i.val / 512 * 512 + i.val % 512; omega)]
  exact hA _

/-- Every entry of the feature array is a real number when every entry of the embeddings is. -/
theorem feats_real (A : FVec Ideal S16x256x512 .f32) (hA : ∀ i, ∃ x : ℝ, A i = (x : EReal)) :
    ∀ (r : Fin 8192) (k : Fin 256), ∃ x : ℝ, featsArr A (ix2 r k) = (x : EReal) := by
  intro r k
  have hr := r.isLt
  by_cases h : r.val < 4096
  · rw [featsArr_lo A r (⟨r.val, h⟩ : Fin 4096) k rfl]
    exact normRows_real _ (viewLo_real A hA) _ _
  · rw [featsArr_hi A r (⟨r.val - 4096, by omega⟩ : Fin 4096) k (by show r.val = r.val - 4096 + 4096; omega)]
    exact normRows_real _ (viewHi_real A hA) _ _

end Cert.KSide

end
-- ==== Proof.RefRunOps.lean ====
/-
  The reference program as a straight line of host operations.

  The reference's entry function calls the functions jax outlined (the row norm, the two selects, the sign-corrected
  remainder and the gather along an axis); a call runs the callee's operations on the call's own buffers, so the whole
  program is one list of elementwise, layout and reduction operations, each writing one buffer. The list is cut where
  the printed program is cut: the first part computes the normalised feature rows, the similarity matrix less its row
  maxima, the banded weight and the diagonal indicator; the second part the masked, weighted exponentials, their row
  sums, the weighted logits less the logarithms of those sums, the positive column of every row, the entry gathered
  there, and the mean of the negated entries. Every weakly fair execution runs the list to its end and leaves every
  buffer at the fold of the operations over the launch contents.
-/
import proofs.«122991_j63007170232511_2_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The first part: from the embeddings to the shifted similarities (the buffer of %24), the banded weight (%43) and the diagonal indicator (%49); the two row norms are the callee's five operations each, the select of the weight's two branches the callee's one. -/
abbrev ops0 : List (HloOp τ sig (Elt F)) :=
  [ StableHlo.unary main_arg0 main_v0 ((extractStridedSlice S8x256x512 ![0, 0, 0] · slices_S16x256x512_S8x256x512_0_0_0) : (⟨S16x256x512, .f32⟩ : BufTy).Contents (Elt F) → (⟨S8x256x512, .f32⟩ : BufTy).Contents (Elt F)),
    StableHlo.unary main_v0 main_v1 ((transpose S8x512x256 [0, 2, 1] · transposes_S8x256x512_S8x512x256_0_2_1) : (⟨S8x256x512, .f32⟩ : BufTy).Contents (Elt F) → (⟨S8x512x256, .f32⟩ : BufTy).Contents (Elt F)),
    StableHlo.reshape main_v1 main_v2 rfl shapeCasts_S8x512x256_S4096x256,
    StableHlo.unary main_arg0 main_v3 ((extractStridedSlice S8x256x512 ![8, 0, 0] · slices_S16x256x512_S8x256x512_8_0_0) : (⟨S16x256x512, .f32⟩ : BufTy).Contents (Elt F) → (⟨S8x256x512, .f32⟩ : BufTy).Contents (Elt F)),
    StableHlo.unary main_v3 main_v4 ((transpose S8x512x256 [0, 2, 1] · transposes_S8x256x512_S8x512x256_0_2_1) : (⟨S8x256x512, .f32⟩ : BufTy).Contents (Elt F) → (⟨S8x512x256, .f32⟩ : BufTy).Contents (Elt F)),
    StableHlo.reshape main_v4 main_v5 rfl shapeCasts_S8x512x256_S4096x256,
    StableHlo.TRef.binary (.of main_v2 : StableHlo.TRef sig ⟨S4096x256, .f32⟩) (.of main_v2 : StableHlo.TRef sig ⟨S4096x256, .f32⟩) main_call0.v0 mulf,
    StableHlo.TRef.nullary main_call0.cst (constant S_ .f32 0x00000000#32),
    StableHlo.TRef.binary main_call0.v0 main_call0.cst main_call0.v1 (fun x v => Host.reduceAdd x v reducesTo_S4096x256_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v7 (broadcastInDim S4096x1 ![] bcast_S_S4096x1 : (⟨S_, .f32⟩ : BufTy).Contents (Elt F) → (⟨S4096x1, .f32⟩ : BufTy).Contents (Elt F)),
    StableHlo.binary main_v6 main_v7 main_v8 (maximumf : (⟨S4096x1, .f32⟩ : BufTy).Contents (Elt F) → (⟨S4096x1, .f32⟩ : BufTy).Contents (Elt F) → (⟨S4096x1, .f32⟩ : BufTy).Contents (Elt F)),
    StableHlo.unary main_v8 main_v9 (broadcastInDim S4096x256 ![0, 1] bcast_S4096x1_S4096x256_0_1 : (⟨S4096x1, .f32⟩ : BufTy).Contents (Elt F) → (⟨S4096x256, .f32⟩ : BufTy).Contents (Elt F)),
    StableHlo.binary main_v2 main_v9 main_v10 (Host.divf : (⟨S4096x256, .f32⟩ : BufTy).Contents (Elt F) → (⟨S4096x256, .f32⟩ : BufTy).Contents (Elt F) → (⟨S4096x256, .f32⟩ : BufTy).Contents (Elt F)),
    StableHlo.TRef.binary (.of main_v5 : StableHlo.TRef sig ⟨S4096x256, .f32⟩) (.of main_v5 : StableHlo.TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v12 (broadcastInDim S4096x1 ![] bcast_S_S4096x1 : (⟨S_, .f32⟩ : BufTy).Contents (Elt F) → (⟨S4096x1, .f32⟩ : BufTy).Contents (Elt F)),
    StableHlo.binary main_v11 main_v12 main_v13 (maximumf : (⟨S4096x1, .f32⟩ : BufTy).Contents (Elt F) → (⟨S4096x1, .f32⟩ : BufTy).Contents (Elt F) → (⟨S4096x1, .f32⟩ : BufTy).Contents (Elt F)),
    StableHlo.unary main_v13 main_v14 (broadcastInDim S4096x256 ![0, 1] bcast_S4096x1_S4096x256_0_1 : (⟨S4096x1, .f32⟩ : BufTy).Contents (Elt F) → (⟨S4096x256, .f32⟩ : BufTy).Contents (Elt F)),
    StableHlo.binary main_v5 main_v14 main_v15 (Host.divf : (⟨S4096x256, .f32⟩ : BufTy).Contents (Elt F) → (⟨S4096x256, .f32⟩ : BufTy).Contents (Elt F) → (⟨S4096x256, .f32⟩ : BufTy).Contents (Elt F)),
    StableHlo.binary main_v10 main_v15 main_v16 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.unary main_v16 main_v17 ((transpose S256x8192 [1, 0] · transposes_S8192x256_S256x8192_1_0) : (⟨S8192x256, .f32⟩ : BufTy).Contents (Elt F) → (⟨S256x8192, .f32⟩ : BufTy).Contents (Elt F)),
    StableHlo.binary main_v16 main_v17 main_v18 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst_1 (constant S_ .f32 0x3D8F5C29#32),
    StableHlo.unary main_cst_1 main_v19 (broadcastInDim S8192x8192 ![] bcast_S_S8192x8192 : (⟨S_, .f32⟩ : BufTy).Contents (Elt F) → (⟨S8192x8192, .f32⟩ : BufTy).Contents (Elt F)),
    StableHlo.binary main_v18 main_v19 main_v20 (Host.divf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0xFF800000#32),
    StableHlo.binary main_v20 main_cst_2 main_v21 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v21 main_v22 (broadcastInDim S8192x1 ![0] bcast_S8192_S8192x1_0 : (⟨S8192, .f32⟩ : BufTy).Contents (Elt F) → (⟨S8192x1, .f32⟩ : BufTy).Contents (Elt F)),
    StableHlo.unary main_v22 main_v23 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v20 main_v23 main_v24 (subf : (⟨S8192x8192, .f32⟩ : BufTy).Contents (Elt F) → (⟨S8192x8192, .f32⟩ : BufTy).Contents (Elt F) → (⟨S8192x8192, .f32⟩ : BufTy).Contents (Elt F)),
    StableHlo.nullary main_v25 (iotaInDim S8192 32 0),
    StableHlo.unary main_v25 main_v26 (broadcastInDim S1x8192 ![1] bcast_S8192_S1x8192_1 : (⟨S8192, .i32⟩ : BufTy).Contents (Elt F) → (⟨S1x8192, .i32⟩ : BufTy).Contents (Elt F)),
    StableHlo.unary main_v25 main_v27 (broadcastInDim S8192x1 ![0] bcast_S8192_S8192x1_0 : (⟨S8192, .i32⟩ : BufTy).Contents (Elt F) → (⟨S8192x1, .i32⟩ : BufTy).Contents (Elt F)),
    StableHlo.unary main_v26 main_v28 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v27 main_v29 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v28 main_v29 main_v30 (subi : (⟨S8192x8192, .i32⟩ : BufTy).Contents (Elt F) → (⟨S8192x8192, .i32⟩ : BufTy).Contents (Elt F) → (⟨S8192x8192, .i32⟩ : BufTy).Contents (Elt F)),
    StableHlo.nullary main_c (constantI S_ 32 0#32),
    StableHlo.unary main_c main_v31 (broadcastInDim S8192x8192 ![] bcast_S_S8192x8192 : (⟨S_, .i32⟩ : BufTy).Contents (Elt F) → (⟨S8192x8192, .i32⟩ : BufTy).Contents (Elt F)),
    StableHlo.binary main_v30 main_v31 main_v32 (cmpi .sge : (⟨S8192x8192, .i32⟩ : BufTy).Contents (Elt F) → (⟨S8192x8192, .i32⟩ : BufTy).Contents (Elt F) → (⟨S8192x8192, .i1⟩ : BufTy).Contents (Elt F)),
    StableHlo.nullary main_c_3 (constantI S_ 32 20#32),
    StableHlo.unary main_c_3 main_v33 (broadcastInDim S8192x8192 ![] bcast_S_S8192x8192 : (⟨S_, .i32⟩ : BufTy).Contents (Elt F) → (⟨S8192x8192, .i32⟩ : BufTy).Contents (Elt F)),
    StableHlo.binary main_v30 main_v33 main_v34 (minsi : (⟨S8192x8192, .i32⟩ : BufTy).Contents (Elt F) → (⟨S8192x8192, .i32⟩ : BufTy).Contents (Elt F) → (⟨S8192x8192, .i32⟩ : BufTy).Contents (Elt F)),
    StableHlo.unary main_v30 main_v35 (negi : (⟨S8192x8192, .i32⟩ : BufTy).Contents (Elt F) → (⟨S8192x8192, .i32⟩ : BufTy).Contents (Elt F)),
    StableHlo.nullary main_c_4 (constantI S_ 32 1#32),
    StableHlo.unary main_c_4 main_v36 (broadcastInDim S8192x8192 ![] bcast_S_S8192x8192 : (⟨S_, .i32⟩ : BufTy).Contents (Elt F) → (⟨S8192x8192, .i32⟩ : BufTy).Contents (Elt F)),
    StableHlo.binary main_v35 main_v36 main_v37 (subi : (⟨S8192x8192, .i32⟩ : BufTy).Contents (Elt F) → (⟨S8192x8192, .i32⟩ : BufTy).Contents (Elt F) → (⟨S8192x8192, .i32⟩ : BufTy).Contents (Elt F)),
    StableHlo.nullary main_c_5 (constantI S_ 32 20#32),
    StableHlo.unary main_c_5 main_v38 (broadcastInDim S8192x8192 ![] bcast_S_S8192x8192 : (⟨S_, .i32⟩ : BufTy).Contents (Elt F) → (⟨S8192x8192, .i32⟩ : BufTy).Contents (Elt F)),
    StableHlo.binary main_v37 main_v38 main_v39 (minsi : (⟨S8192x8192, .i32⟩ : BufTy).Contents (Elt F) → (⟨S8192x8192, .i32⟩ : BufTy).Contents (Elt F) → (⟨S8192x8192, .i32⟩ : BufTy).Contents (Elt F)),
    StableHlo.TRef.ternary (.of main_v32 : StableHlo.TRef sig ⟨S8192x8192, .i1⟩) (.of main_v34 : StableHlo.TRef sig ⟨S8192x8192, .i32⟩) (.of main_v39 : StableHlo.TRef sig ⟨S8192x8192, .i32⟩) main_call2.v0 select,
    StableHlo.unary main_v40 main_v41 (sitofp .f32 : (⟨S8192x8192, .i32⟩ : BufTy).Contents (Elt F) → (⟨S8192x8192, .f32⟩ : BufTy).Contents (Elt F)),
    StableHlo.nullary main_cst_6 (constant S_ .f32 0x41A00000#32),
    StableHlo.unary main_cst_6 main_v42 (broadcastInDim S8192x8192 ![] bcast_S_S8192x8192 : (⟨S_, .f32⟩ : BufTy).Contents (Elt F) → (⟨S8192x8192, .f32⟩ : BufTy).Contents (Elt F)),
    StableHlo.binary main_v41 main_v42 main_v43 (Host.divf : (⟨S8192x8192, .f32⟩ : BufTy).Contents (Elt F) → (⟨S8192x8192, .f32⟩ : BufTy).Contents (Elt F) → (⟨S8192x8192, .f32⟩ : BufTy).Contents (Elt F)),
    StableHlo.nullary main_v44 (iotaInDim S8192x8192 32 0),
    StableHlo.nullary main_v45 (iotaInDim S8192x8192 32 1),
    StableHlo.nullary main_c_7 (constantI S_ 32 0#32),
    StableHlo.unary main_c_7 main_v46 (broadcastInDim S8192x8192 ![] bcast_S_S8192x8192 : (⟨S_, .i32⟩ : BufTy).Contents (Elt F) → (⟨S8192x8192, .i32⟩ : BufTy).Contents (Elt F)),
    StableHlo.binary main_v44 main_v46 main_v47 (addi : (⟨S8192x8192, .i32⟩ : BufTy).Contents (Elt F) → (⟨S8192x8192, .i32⟩ : BufTy).Contents (Elt F) → (⟨S8192x8192, .i32⟩ : BufTy).Contents (Elt F)),
    StableHlo.binary main_v47 main_v45 main_v48 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v48 main_v49 (uitofp .f32 : (⟨S8192x8192, .i1⟩ : BufTy).Contents (Elt F) → (⟨S8192x8192, .f32⟩ : BufTy).Contents (Elt F)) ]

/-- The second part: from those to the loss (%70); the remainder is the callee's twenty-one operations, the gather along the column axis the callee's twenty-two. -/
abbrev ops1 : List (HloOp τ sig (Elt F)) :=
  [ StableHlo.nullary main_cst_8 (constant S_ .f32 0x3F800000#32),
    StableHlo.unary main_cst_8 main_v50 (broadcastInDim S8192x8192 ![] bcast_S_S8192x8192 : (⟨S_, .f32⟩ : BufTy).Contents (Elt F) → (⟨S8192x8192, .f32⟩ : BufTy).Contents (Elt F)),
    StableHlo.binary main_v50 main_v49 main_v51 (subf : (⟨S8192x8192, .f32⟩ : BufTy).Contents (Elt F) → (⟨S8192x8192, .f32⟩ : BufTy).Contents (Elt F) → (⟨S8192x8192, .f32⟩ : BufTy).Contents (Elt F)),
    StableHlo.unary main_v24 main_v52 (Host.exp : (⟨S8192x8192, .f32⟩ : BufTy).Contents (Elt F) → (⟨S8192x8192, .f32⟩ : BufTy).Contents (Elt F)),
    StableHlo.binary main_v52 main_v51 main_v53 (mulf : (⟨S8192x8192, .f32⟩ : BufTy).Contents (Elt F) → (⟨S8192x8192, .f32⟩ : BufTy).Contents (Elt F) → (⟨S8192x8192, .f32⟩ : BufTy).Contents (Elt F)),
    StableHlo.binary main_v53 main_v43 main_v54 (mulf : (⟨S8192x8192, .f32⟩ : BufTy).Contents (Elt F) → (⟨S8192x8192, .f32⟩ : BufTy).Contents (Elt F) → (⟨S8192x8192, .f32⟩ : BufTy).Contents (Elt F)),
    StableHlo.nullary main_cst_9 (constant S_ .f32 0x00000000#32),
    StableHlo.binary main_v54 main_cst_9 main_v55 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v24 main_v43 main_v56 (mulf : (⟨S8192x8192, .f32⟩ : BufTy).Contents (Elt F) → (⟨S8192x8192, .f32⟩ : BufTy).Contents (Elt F) → (⟨S8192x8192, .f32⟩ : BufTy).Contents (Elt F)),
    StableHlo.unary main_v55 main_v57 (Host.log : (⟨S8192, .f32⟩ : BufTy).Contents (Elt F) → (⟨S8192, .f32⟩ : BufTy).Contents (Elt F)),
    StableHlo.unary main_v57 main_v58 (broadcastInDim S8192x1 ![0] bcast_S8192_S8192x1_0 : (⟨S8192, .f32⟩ : BufTy).Contents (Elt F) → (⟨S8192x1, .f32⟩ : BufTy).Contents (Elt F)),
    StableHlo.unary main_v58 main_v59 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v56 main_v59 main_v60 (subf : (⟨S8192x8192, .f32⟩ : BufTy).Contents (Elt F) → (⟨S8192x8192, .f32⟩ : BufTy).Contents (Elt F) → (⟨S8192x8192, .f32⟩ : BufTy).Contents (Elt F)),
    StableHlo.nullary main_c_10 (constantI S_ 32 4096#32),
    StableHlo.unary main_c_10 main_v61 (broadcastInDim S8192 ![] bcast_S_S8192 : (⟨S_, .i32⟩ : BufTy).Contents (Elt F) → (⟨S8192, .i32⟩ : BufTy).Contents (Elt F)),
    StableHlo.binary main_v25 main_v61 main_v62 (addi : (⟨S8192, .i32⟩ : BufTy).Contents (Elt F) → (⟨S8192, .i32⟩ : BufTy).Contents (Elt F) → (⟨S8192, .i32⟩ : BufTy).Contents (Elt F)),
    StableHlo.nullary main_c_11 (constantI S_ 32 8192#32),
    StableHlo.TRef.unary (.of main_c_11 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S8192 ![] bcast_S_S8192),
    StableHlo.TRef.binary (.of main_v62 : StableHlo.TRef sig ⟨S8192, .i32⟩) main_call3.v3 main_call3.v4 Host.remsi,
    StableHlo.TRef.nullary main_call3.c_1 (constantI S_ 32 0#32),
    StableHlo.TRef.unary main_call3.c_1 main_call3.v5 (broadcastInDim S8192 ![] bcast_S_S8192),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S8192 ![] bcast_S_S8192),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S8192 ![] bcast_S_S8192),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S8192 ![] bcast_S_S8192),
    StableHlo.TRef.binary main_call3.v4 main_call3.v13 main_call3.v14 addi,
    StableHlo.TRef.ternary main_call3.v12 main_call3.v14 main_call3.v4 main_call3.v15 select,
    StableHlo.unary main_v63 main_v64 (broadcastInDim S8192x1 ![0] bcast_S8192_S8192x1_0 : (⟨S8192, .i32⟩ : BufTy).Contents (Elt F) → (⟨S8192x1, .i32⟩ : BufTy).Contents (Elt F)),
    StableHlo.TRef.nullary main_call4.c (constantI S_ 32 0#32),
    StableHlo.TRef.unary main_call4.c main_call4.v0 (broadcastInDim S8192x1 ![] bcast_S_S8192x1),
    StableHlo.TRef.binary (.of main_v64 : StableHlo.TRef sig ⟨S8192x1, .i32⟩) main_call4.v0 main_call4.v1 (cmpi .slt),
    StableHlo.TRef.nullary main_call4.c_0 (constantI S_ 32 8192#32),
    StableHlo.TRef.unary main_call4.c_0 main_call4.v2 (broadcastInDim S8192x1 ![] bcast_S_S8192x1),
    StableHlo.TRef.binary (.of main_v64 : StableHlo.TRef sig ⟨S8192x1, .i32⟩) main_call4.v2 main_call4.v3 addi,
    StableHlo.TRef.ternary main_call4.v1 main_call4.v3 (.of main_v64 : StableHlo.TRef sig ⟨S8192x1, .i32⟩) main_call4.v4 select,
    StableHlo.TRef.reshape main_call4.v4 main_call4.v5 rfl shapeCasts_S8192x1_S8192x1x1,
    StableHlo.TRef.nullary main_call4.c_1 (constantI S1 32 8191#32),
    StableHlo.TRef.nullary main_call4.c_2 (constantI S_ 32 0#32),
    StableHlo.TRef.unary main_call4.c_2 main_call4.v6 (broadcastInDim S8192x1x1 ![] bcast_S_S8192x1x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S8192x1x1 ![0, 1, 2] bcast_S1x1x1_S8192x1x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S8192x1x1_S8192x1_d2 h_S_),
    StableHlo.TRef.binary (.of main_v60 : StableHlo.TRef sig ⟨S8192x8192, .f32⟩) main_call4.v5 main_call4.v13 (fun x i => Host.gather gather_S8192x8192_S8192x1x1_S8192x1_n_1_0_0_1_2_11 x i),
    StableHlo.TRef.nullary main_call4.cst (constant S_ .f32 0x7FC00000#32),
    StableHlo.TRef.unary main_call4.cst main_call4.v14 (broadcastInDim S8192x1 ![] bcast_S_S8192x1),
    StableHlo.TRef.ternary main_call4.v12 main_call4.v13 main_call4.v14 main_call4.v15 select,
    StableHlo.reshape main_v65 main_v66 rfl shapeCasts_S8192x1_S8192,
    StableHlo.nullary main_cst_12 (constant S_ .f32 0xBF800000#32),
    StableHlo.unary main_cst_12 main_v67 (broadcastInDim S8192 ![] bcast_S_S8192 : (⟨S_, .f32⟩ : BufTy).Contents (Elt F) → (⟨S8192, .f32⟩ : BufTy).Contents (Elt F)),
    StableHlo.binary main_v67 main_v66 main_v68 (mulf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x00000000#32),
    StableHlo.binary main_v68 main_cst_13 main_v69 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_14 (constant S_ .f32 0x46000000#32),
    StableHlo.binary main_v69 main_cst_14 main_v70 (Host.divf : (⟨S_, .f32⟩ : BufTy).Contents (Elt F) → (⟨S_, .f32⟩ : BufTy).Contents (Elt F) → (⟨S_, .f32⟩ : BufTy).Contents (Elt F)) ]

/-- The whole program's operations. -/
abbrev ops : List (HloOp τ sig (Elt F)) := ops0 ++ ops1

/-- The first part of the entry function is the first list run in order: each call is its callee's body on the call's buffers. -/
theorem main_part0_eq (c : Dev nD) : main_part0 (F := F) c = seq ops0 := by
  simp only [main_part0, fn_norm.body, fn_where.body, seq, bind_assoc, pure_bind]
  rfl

/-- The second part likewise. -/
theorem main_part1_eq (c : Dev nD) : main_part1 (F := F) c = seq ops1 := by
  simp only [main_part1, fn_remainder.body, fn_where_0.body, fn_take_along_axis.body, seq, bind_assoc, pure_bind]

/-- The entry function is the two parts one after the other, so the concatenated list run in order. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., unary_bufs_sub .., reshape_bufs_sub .., unary_bufs_sub .., unary_bufs_sub .., reshape_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., binary_bufs_sub .., nullary_bufs_sub ..,
    unary_bufs_sub .., binary_bufs_sub .., nullary_bufs_sub .., binary_bufs_sub .., unary_bufs_sub .., unary_bufs_sub ..,
    binary_bufs_sub .., nullary_bufs_sub .., unary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    binary_bufs_sub .., nullary_bufs_sub .., nullary_bufs_sub .., nullary_bufs_sub .., unary_bufs_sub .., binary_bufs_sub ..,
    binary_bufs_sub .., unary_bufs_sub ..⟩

theorem ops1_sub : (ops1 : List (HloOp τ sig (Elt F))).Forall fun op => op.bufs ⊆ tcRefs τ sig :=
  ⟨nullary_bufs_sub .., unary_bufs_sub .., binary_bufs_sub .., unary_bufs_sub .., binary_bufs_sub .., binary_bufs_sub ..,
    nullary_bufs_sub .., binary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., nullary_bufs_sub .., unary_bufs_sub ..,
    ternary_bufs_sub .., reshape_bufs_sub .., nullary_bufs_sub .., unary_bufs_sub .., binary_bufs_sub .., nullary_bufs_sub ..,
    binary_bufs_sub .., nullary_bufs_sub .., binary_bufs_sub ..⟩

theorem ops_sub : (ops : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

/-- No operation of either list leaves a buffer's contents undetermined. -/
theorem ops_fresh : ∀ op ∈ (ops : List (HloOp τ sig (Elt F))), op.fresh = ∅ := by
  intro op h
  rcases List.mem_append.1 h with h | h
  · (repeat (cases h with | head => rfl | tail _ h => ?_)); exact nomatch h
  · (repeat (cases h with | head => rfl | tail _ h => ?_)); exact nomatch h

/-- The contents after two lists run one after the other: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- On every device, for any float values, from any memory with zero counters: every weakly fair execution of the
    entry function terminates, and every final state has each buffer at the second list's fold over the first list's
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops1 (after ops0 (launchContents m c)) (b : DevRef τ sig) :=
  (θ_run defs _ _).mono (fun _ h c b => (h c b).trans (congrFun (after_append ops0 ops1 _) _))
    (run_seq scopedRefs_eq scopedSems_eq defs main (fun _ => ops) main_eq (fun _ => ops_sub) m ρ (fun _ => ops_fresh))

end Cert.RefSide

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.RefRunTerm.lean ====
/-
  The reference's result as one term of the embeddings.

  Each buffer the straight line writes holds one operation's function of the buffers written before it, so the loss is a
  composed term of the argument array. The term is named in stages: the normalised feature rows of the two views stacked
  (one view's rows are the channel vectors of eight images laid out row by row, each divided by the larger of its
  2-norm and the constant 1e-12); the similarities (the rows' inner products over the temperature); each row's maximum
  and the similarities less it; the banded weight, a function of the column index less the row index alone (32-bit integers,
  then one division by twenty); the diagonal indicator; the logits times the weight less the logarithm of the row sum
  of the exponentials times (one less the indicator) times the weight; each row's positive column (the row index plus 4096,
  reduced modulo 8192 with the sign correction); the entry gathered there (a NaN where the column were out of range);
  and the mean of the negated entries. The fold of the operations at the result's buffer is this term, by computation.
-/
import proofs.«122991_j63007170232511_2_alg».proof.Proof.RefRunOps
import proofs.«122991_j63007170232511_2_alg».proof.Proof.LibTypedRefs
import Idealize.ShloMosaic.PureOps.Ideal

noncomputable section

namespace Cert.RefSide

open Cert.ReferenceIdeal Cert.ReferenceIdeal.Facts₀ Idealize.ShloMosaic Idealize.ShloMosaic.TcCoe Idealize.SL.Sem Idealize.ShloMosaic.StableHlo

/-! ## The stages -/

/-- One view's rows: eight images' channel vectors, position by position (slice, swap the last two axes, flatten). -/
def viewRows (A : FVec Ideal S16x256x512 .f32) (off : Fin 3 → Nat) (h : S16x256x512.Slices off S8x256x512) :
    FVec Ideal S4096x256 .f32 :=
  shapeCast S4096x256 (transpose S8x512x256 [0, 2, 1] (extractStridedSlice S8x256x512 off A h)
    transposes_S8x256x512_S8x512x256_0_2_1) shapeCasts_S8x512x256_S4096x256

/-- Rows divided by the larger of their 2-norm and 1e-12. -/
def normalise (x : FVec Ideal S4096x256 .f32) : FVec Ideal S4096x256 .f32 :=
  Host.divf x (broadcastInDim S4096x256 ![0, 1] bcast_S4096x1_S4096x256_0_1
    (maximumf (Host.sqrt (broadcastInDim S4096x1 ![0] bcast_S4096_S4096x1_0
        (Host.reduceAdd (mulf x x) (constant S_ .f32 0x00000000#32) reducesTo_S4096x256_S4096_d1 h_S_)))
      (broadcastInDim S4096x1 ![] bcast_S_S4096x1 (constant S_ .f32 0x2B8CBCCC#32))))

/-- The feature array the reference computes from the embeddings: the two views' normalised rows, stacked. -/
def featsArr (A : FVec Ideal S16x256x512 .f32) : FVec Ideal S8192x256 .f32 :=
  concatenate S8192x256 0 [⟨S4096x256, normalise (viewRows A ![0, 0, 0] slices_S16x256x512_S8x256x512_0_0_0)⟩,
    ⟨S4096x256, normalise (viewRows A ![8, 0, 0] slices_S16x256x512_S8x256x512_8_0_0)⟩]
    concatenates_S4096x256_S4096x256_S8192x256_d0

/-- The similarities: the rows' inner products over the temperature. -/
def simArr (f : FVec Ideal S8192x256 .f32) : FVec Ideal S8192x8192 .f32 :=
  Host.divf (Host.dotGeneral dot_S8192x256_S256x8192_S8192x8192_1_0_0_1_n_n none f
      (transpose S256x8192 [1, 0] f transposes_S8192x256_S256x8192_1_0))
    (broadcastInDim S8192x8192 ![] bcast_S_S8192x8192 (constant S_ .f32 0x3D8F5C29#32))

/-- Each row's maximum, folded from −∞. -/
def rowMaxArr (s : FVec Ideal S8192x8192 .f32) : FVec Ideal S8192 .f32 :=
  Host.reduce FloatOps.maximumf s (constant S_ .f32 0xFF800000#32) reducesTo_S8192x8192_S8192_d1 h_S_

/-- A vector as a column, repeated along the rows. -/
def colBcast {α : Type} (v : S8192.Idx → α) : S8192x8192.Idx → α :=
  broadcastInDim S8192x8192 ![0, 1] bcast_S8192x1_S8192x8192_0_1 (broadcastInDim S8192x1 ![0] bcast_S8192_S8192x1_0 v)

/-- The similarities less their row's maximum. -/
def logitsArr (s : FVec Ideal S8192x8192 .f32) : FVec Ideal S8192x8192 .f32 := subf s (colBcast (rowMaxArr s))

/-- The row indices 0 … 8191. -/
def rowIota : IVec S8192 32 := iotaInDim S8192 32 0

/-- The column index less the row index, at every entry. -/
def diffArr : IVec S8192x8192 32 :=
  subi (broadcastInDim S8192x8192 ![0, 1] bcast_S1x8192_S8192x8192_0_1 (broadcastInDim S1x8192 ![1] bcast_S8192_S1x8192_1 rowIota))
    (colBcast rowIota)

/-- A 32-bit integer at every entry of the matrix. -/
def splatI (b : BitVec 32) : IVec S8192x8192 32 := broadcastInDim S8192x8192 ![] bcast_S_S8192x8192 (constantI S_ 32 b)
/-- A float at every entry of the matrix. -/
def splatF (b : BitVec 32) : FVec Ideal S8192x8192 .f32 := broadcastInDim S8192x8192 ![] bcast_S_S8192x8192 (constant S_ .f32 b)

/-- The banded weight: min(d, 20) where the difference d is not negative, min(−d − 1, 20) where it is, over twenty. -/
def wArr : FVec Ideal S8192x8192 .f32 :=
  Host.divf (sitofp .f32 (select (cmpi .sge diffArr (splatI 0#32)) (minsi diffArr (splatI 20#32))
      (minsi (subi (negi diffArr) (splatI 1#32)) (splatI 20#32))))
    (splatF 0x41A00000#32)

/-- The diagonal indicator: 1 where the row index equals the column index. -/
def eyeArr : FVec Ideal S8192x8192 .f32 :=
  uitofp .f32 (cmpi .eq (addi (iotaInDim S8192x8192 32 0) (splatI 0#32)) (iotaInDim S8192x8192 32 1))

/-- The row sums of the exponentials times (one less the indicator) times the weight. -/
def denArr (l w e : FVec Ideal S8192x8192 .f32) : FVec Ideal S8192 .f32 :=
  Host.reduceAdd (mulf (mulf (Host.exp l) (subf (splatF 0x3F800000#32) e)) w) (constant S_ .f32 0x00000000#32)
    reducesTo_S8192x8192_S8192_d1 h_S_

/-- The logits times the weight, less the logarithm of the row's sum. -/
def logProbArr (l w e : FVec Ideal S8192x8192 .f32) : FVec Ideal S8192x8192 .f32 :=
  subf (mulf l w) (colBcast (Host.log (denArr l w e)))

/-- An integer at every row. -/
def splatRow {w : Nat} (x : IVec S_ w) : IVec S8192 w := broadcastInDim S8192 ![] bcast_S_S8192 x

/-- The divisor of the remainder: 8192, or 1 were it zero. -/
def modulus : IVec S_ 32 := select (cmpi .eq (id (constantI S_ 32 8192#32)) (constantI S_ 32 0#32)) (constantI S_ 32 1#32) (id (constantI S_ 32 8192#32))

/-- The truncated remainder of the row index plus 4096 by the divisor. -/
def truncRem (io : IVec S8192 32) : IVec S8192 32 :=
  Host.remsi (addi io (splatRow (constantI S_ 32 4096#32))) (splatRow modulus)

/-- Each row's positive column: the remainder, plus the divisor where the remainder is not zero and its sign is not the divisor's. -/
def posArr (io : IVec S8192 32) : IVec S8192 32 :=
  select (andi (cmpi .ne (cmpi .slt (truncRem io) (splatRow (constantI S_ 32 0#32)))
        (splatRow (cmpi .slt modulus (constantI S_ 32 0#32))))
      (cmpi .ne (truncRem io) (splatRow (constantI S_ 32 0#32))))
    (addi (truncRem io) (splatRow modulus)) (truncRem io)

/-- An integer at every entry of a column. -/
def splatCol (b : BitVec 32) : IVec S8192x1 32 := broadcastInDim S8192x1 ![] bcast_S_S8192x1 (constantI S_ 32 b)

/-- The column of indices with a negative index moved up by 8192, as a [8192, 1, 1] array of start indices. -/
def startIdx (p : IVec S8192x1 32) : IVec S8192x1x1 32 :=
  shapeCast S8192x1x1 (select (cmpi .slt p (splatCol 0#32)) (addi p (splatCol 8192#32)) p) shapeCasts_S8192x1_S8192x1x1

/-- Whether each start index lies in 0 … 8191. -/
def inBounds (q : IVec S8192x1x1 32) : IVec S8192x1 1 :=
  Host.reduce IntOp.andi
    (andi (cmpi .sge q (broadcastInDim S8192x1x1 ![] bcast_S_S8192x1x1 (constantI S_ 32 0#32)))
      (cmpi .sle q (broadcastInDim S8192x1x1 ![0, 1, 2] bcast_S1x1x1_S8192x1x1_0_1_2
        (broadcastInDim S1x1x1 ![2] bcast_S1_S1x1x1_2 (constantI S1 32 8191#32)))))
    (constantI S_ 1 1#1) reducesTo_S8192x1x1_S8192x1_d2 h_S_

/-- One entry per row, at the row's index: the gathered entry where the index is in range, a NaN elsewhere. -/
def takeArr (x : FVec Ideal S8192x8192 .f32) (p : IVec S8192x1 32) : FVec Ideal S8192x1 .f32 :=
  select (inBounds (startIdx p)) (Host.gather gather_S8192x8192_S8192x1x1_S8192x1_n_1_0_0_1_2_11 x (startIdx p))
    (broadcastInDim S8192x1 ![] bcast_S_S8192x1 (constant S_ .f32 0x7FC00000#32))

/-- The mean of the negated entries of a column. -/
def meanNeg (t : FVec Ideal S8192x1 .f32) : FVec Ideal S_ .f32 :=
  Host.divf (Host.reduceAdd (mulf (broadcastInDim S8192 ![] bcast_S_S8192 (constant S_ .f32 0xBF800000#32))
      (shapeCast S8192 t shapeCasts_S8192x1_S8192)) (constant S_ .f32 0x00000000#32) reducesTo_S8192_S_d0 h_S_)
    (constant S_ .f32 0x46000000#32)

/-- The second part's result from the first part's four arrays. -/
def lossOf (l w e : FVec Ideal S8192x8192 .f32) (io : IVec S8192 32) : FVec Ideal S_ .f32 :=
  meanNeg (takeArr (logProbArr l w e) (broadcastInDim S8192x1 ![0] bcast_S8192_S8192x1_0 (posArr io)))

/-! ## The fold at the buffers -/

variable (V : Valuation τ sig (Elt Ideal))

/-- After the first part the buffer of %24 holds the shifted similarities of the feature rows. -/
theorem part0_logits : after (ops0 (F := Ideal)) V (main_v24 : DevRef τ sig)
    = logitsArr (simArr (featsArr (V (main_arg0 : DevRef τ sig)))) := by
  after_results_simp
  rfl

/-- … the buffer of %43 the banded weight, … -/
theorem part0_weight : after (ops0 (F := Ideal)) V (main_v43 : DevRef τ sig) = wArr := by
  after_results_simp
  rfl

/-- … the buffer of %49 the diagonal indicator, … -/
theorem part0_eye : after (ops0 (F := Ideal)) V (main_v49 : DevRef τ sig) = eyeArr := by
  after_results_simp
  rfl

/-- … the buffer of %25 the row indices, … -/
theorem part0_iota : after (ops0 (F := Ideal)) V (main_v25 : DevRef τ sig) = rowIota := by
  after_results_simp
  rfl

/-- … and the arguments what they held. -/
theorem part0_arg0 : after (ops0 (F := Ideal)) V (main_arg0 : DevRef τ sig) = V (main_arg0 : DevRef τ sig) := by
  after_results_simp
theorem part0_arg1 : after (ops0 (F := Ideal)) V (main_arg1 : DevRef τ sig) = V (main_arg1 : DevRef τ sig) := by
  after_results_simp
theorem part0_arg2 : after (ops0 (F := Ideal)) V (main_arg2 : DevRef τ sig) = V (main_arg2 : DevRef τ sig) := by
  after_results_simp

/-- After the second part the result's buffer holds the loss of the four arrays the first part left. -/
theorem part1_loss : after (ops1 (F := Ideal)) V (main_v70 : DevRef τ sig)
    = lossOf (V (main_v24 : DevRef τ sig)) (V (main_v43 : DevRef τ sig)) (V (main_v49 : DevRef τ sig)) (V (main_v25 : DevRef τ sig)) := by
  after_results_simp
  simp only [TRef.ofBuf_toBuf]
  rfl

theorem part1_arg0 : after (ops1 (F := Ideal)) V (main_arg0 : DevRef τ sig) = V (main_arg0 : DevRef τ sig) := by
  after_results_simp
theorem part1_arg1 : after (ops1 (F := Ideal)) V (main_arg1 : DevRef τ sig) = V (main_arg1 : DevRef τ sig) := by
  after_results_simp
theorem part1_arg2 : after (ops1 (F := Ideal)) V (main_arg2 : DevRef τ sig) = V (main_arg2 : DevRef τ sig) := by
  after_results_simp

end Cert.RefSide

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.RefReadSim.lean ====
/-
  The similarities, their row maxima and the shifted similarities, entry by entry.

  The product of the feature rows with their own transpose has at (r, j) the sum over the 256 channels of
  f[r, k] · f[j, k]: the transpose read at (k, j) is the array at (j, k), and the host's product at the extended reals
  is the sum over the one contracted coordinate whatever order it is taken in. Divided by the broadcast temperature this
  is the specification's similarity. The row maximum is the fold of max from −∞ (the word 0xFF800000) over the row's
  8192 columns. A vector made a column and repeated along the rows reads, at (r, j), the vector's entry r.
-/
import proofs.«122991_j63007170232511_2_alg».proof.Proof.RefRunTerm
import proofs.«122991_j63007170232511_2_alg».proof.Proof.Spec
import proofs.«122991_j63007170232511_2_alg».proof.Proof.LibMaxMinFold
import proofs.«122991_j63007170232511_2_alg».proof.Proof.LibRowSum
import Idealize.ShloMosaic.Lib.StackMember
import Idealize.ShloMosaic.Lib.ValueLayout
import Idealize.ShloMosaic.Lib.Pipeline.Value

noncomputable section

namespace Cert.RefSide

open Cert.ReferenceIdeal Cert.ReferenceIdeal.Facts₀ Idealize.ShloMosaic Idealize.ShloMosaic.ValueIdx

/-- A scalar broadcast to the whole matrix reads the scalar everywhere. -/
theorem splat_apply {α : Type} (x : S_.Idx → α) (r j : Fin 8192) :
    broadcastInDim S8192x8192 ![] bcast_S_S8192x8192 x (ix2 r j) = x ix0 :=
  broadcastInDim_apply _ _ x _ ix0 fun a => a.elim0

theorem splatF_apply (b : BitVec 32) (r j : Fin 8192) : splatF b (ix2 r j) = Ideal.ofBits .f32 b :=
  splat_apply _ r j

theorem splatI_apply (b : BitVec 32) (r j : Fin 8192) : splatI b (ix2 r j) = b :=
  splat_apply _ r j

/-- A vector made a column and repeated along the rows reads, at (r, j), the vector's entry r. -/
theorem colBcast_apply {α : Type} (v : S8192.Idx → α) (r j : Fin 8192) : colBcast v (ix2 r j) = v (ix1 r) := by
  unfold colBcast
  refine (broadcastInDim_apply _ _ _ (ix2 r j) (ix2 r (0 : Fin 1)) fun a => ?_).trans ?_
  · match a with
    | ⟨0, _⟩ => rfl
    | ⟨1, _⟩ => rfl
  · exact broadcastInDim_apply _ _ v (ix2 r (0 : Fin 1)) (ix1 r) fun a => by
      match a with
      | ⟨0, _⟩ => rfl

/-- The word 0xFF800000 is −∞. -/
theorem ofBits_neg_inf : Ideal.ofBits .f32 0xFF800000#32 = (⊥ : EReal) := by
  simp [Ideal.ofBits, Ideal.ieee]

/-- The similarity of rows r and j: the channels' products summed, over the temperature. -/
theorem simArr_apply (f : FVec Ideal S8192x256 .f32) (r j : Fin 8192) :
    simArr f (ix2 r j) = Cert.Spec.sim (fun r k => f (ix2 r k)) r j := by
  unfold simArr Cert.Spec.sim Cert.Spec.tau
  show Ideal.div (Host.dotGeneral (DotDims.plain 8192 256 8192) none f
      (transpose S256x8192 [1, 0] f transposes_S8192x256_S256x8192_1_0) (ix2 r j))
    (broadcastInDim S8192x8192 ![] bcast_S_S8192x8192 (constant (F := Ideal) S_ .f32 0x3D8F5C29#32) (ix2 r j)) = _
  rw [StackMember.dotGeneral_plain_apply, splat_apply]
  refine congrArg (fun s => Ideal.div s _) (Finset.sum_congr rfl fun k _ => ?_)
  rw [transpose_ix2_apply]

/-- Row r's maximum: the fold of max from −∞ over the row. -/
theorem rowMaxArr_apply (s : FVec Ideal S8192x8192 .f32) (r : Fin 8192) :
    rowMaxArr s (ix1 r) = (Finset.univ : Finset (Fin 8192)).fold max ⊥ (fun j => s (ix2 r j)) := by
  have h : S8192x8192.Reduces [1] S8192 := by decide
  unfold rowMaxArr
  refine (Cert.MaxMinFold.hostReduce_maximumf_single (φ := .f32) s _ reducesTo_S8192x8192_S8192_d1 h h_S_ (ix1 r)).trans ?_
  show (Finset.univ : Finset (Fin 8192)).fold max (Ideal.ofBits .f32 0xFF800000#32) (s ∘ h.lift (ix1 r)) = _
  rw [ofBits_neg_inf]
  exact Finset.fold_congr fun k _ => congrArg s (RowSum.lift_row h r k)

/-- The shifted similarity at (r, j): the similarity less row r's maximum. -/
theorem logitsArr_apply (s : FVec Ideal S8192x8192 .f32) (r j : Fin 8192) :
    logitsArr s (ix2 r j) = s (ix2 r j) - (Finset.univ : Finset (Fin 8192)).fold max ⊥ (fun j => s (ix2 r j)) := by
  unfold logitsArr
  rw [subf_apply, colBcast_apply, rowMaxArr_apply]

/-- With the similarities of the feature rows: the specification's similarity less the specification's row maximum. -/
theorem logits_sim_apply (f : FVec Ideal S8192x256 .f32) (r j : Fin 8192) :
    logitsArr (simArr f) (ix2 r j)
      = Cert.Spec.sim (fun r k => f (ix2 r k)) r j - Cert.Spec.rowMax (fun r k => f (ix2 r k)) r := by
  rw [logitsArr_apply, simArr_apply]
  unfold Cert.Spec.rowMax
  exact congrArg (fun m => _ - m) (Finset.fold_congr fun k _ => simArr_apply f r k)

end Cert.RefSide

end
-- ==== Proof.RefReadLogProb.lean ====
/-
  The row sums and the logits less their logarithms, entry by entry.

  The host's sum over the columns, from the zero word, is at the extended reals the sum over the row's 8192 entries
  whatever order it is taken in; the summand at column j is the exponential of the logit times (one less the
  indicator) times the weight, multiplied in that order. The logarithm of the row's sum, made a column and repeated
  along the rows, is subtracted from the logit times the weight.
-/
import proofs.«122991_j63007170232511_2_alg».proof.Proof.RefReadSim

noncomputable section

namespace Cert.RefSide

open Cert.ReferenceIdeal Cert.ReferenceIdeal.Facts₀ Idealize.ShloMosaic Idealize.ShloMosaic.ValueIdx

theorem denSummand_unfold (l w e : FVec Ideal S8192x8192 .f32) (i : S8192x8192.Idx) :
    mulf (mulf (Host.exp l) (subf (splatF 0x3F800000#32) e)) w i
      = Ideal.exp (l i) * (splatF 0x3F800000#32 i - e i) * w i := rfl

/-- Row r's sum: over the columns, the exponential of the logit times (one less the indicator) times the weight. -/
theorem denArr_apply (l w e : FVec Ideal S8192x8192 .f32) (r : Fin 8192) :
    denArr l w e (ix1 r)
      = ∑ j : Fin 8192, Ideal.exp (l (ix2 r j)) * (Ideal.ofBits .f32 0x3F800000#32 - e (ix2 r j)) * w (ix2 r j) := by
  have h : S8192x8192.Reduces [1] S8192 := by decide
  unfold denArr
  show Ideal.hostReduceAdd reducesTo_S8192x8192_S8192_d1 _ (Ideal.ofBits .f32 0x00000000#32) (ix1 r) = _
  rw [Ideal.hostReduceAdd_single _ h, Ideal.ofBits_zero_f32, zero_add]
  show ∑ k : Fin 8192, _ = _
  refine Finset.sum_congr rfl fun k _ => ?_
  rw [RowSum.lift_row h r k, denSummand_unfold, splatF_apply]

/-- The entry at (r, j): the logit times the weight, less the logarithm of row r's sum. -/
theorem logProbArr_apply (l w e : FVec Ideal S8192x8192 .f32) (r j : Fin 8192) :
    logProbArr l w e (ix2 r j)
      = l (ix2 r j) * w (ix2 r j)
        - Ideal.log (∑ j : Fin 8192, Ideal.exp (l (ix2 r j)) * (Ideal.ofBits .f32 0x3F800000#32 - e (ix2 r j)) * w (ix2 r j)) := by
  unfold logProbArr
  rw [subf_apply, colBcast_apply, mulf_apply]
  show _ - Ideal.log (denArr l w e (ix1 r)) = _
  rw [denArr_apply]

end Cert.RefSide

end
-- ==== Proof.RefReadWeight.lean ====
/-
  The banded weight, the diagonal indicator and each row's positive column, entry by entry.

  All three are 32-bit integer arithmetic on iotas whose values stay far below 2^31, so no operation wraps and each
  word's signed value is the integer expression it spells. The column index less the row index is j − r; where it is
  not negative the select takes min(j − r, 20), elsewhere min(−(j − r) − 1, 20): the specification's integer numerator,
  converted exactly and divided by twenty. The comparison of the two iotas is 1 exactly on the diagonal. The row index
  plus 4096 is positive and the divisor 8192 is positive, so the truncated remainder is the mathematical one, it is not
  negative, and the sign correction leaves it.
-/
import proofs.«122991_j63007170232511_2_alg».proof.Proof.RefReadSim

noncomputable section

namespace Cert.RefSide

open Cert.ReferenceIdeal Cert.ReferenceIdeal.Facts₀ Idealize.ShloMosaic Idealize.ShloMosaic.ValueIdx

/-! ## Words -/

/-- A number below 2^31 as a 32-bit word has itself as signed value. -/
theorem toInt_ofNat_small (n : Nat) (h : n < 2 ^ 31) : (BitVec.ofNat 32 n).toInt = (n : Int) := by
  rw [BitVec.toInt_eq_toNat_cond, BitVec.toNat_ofNat]
  split <;> omega

/-- The difference of two indices below 8192, as words: its signed value is the difference. -/
theorem diff_toInt (r j : Nat) (hr : r < 8192) (hj : j < 8192) :
    (BitVec.ofNat 32 j - BitVec.ofNat 32 r).toInt = (j : Int) - (r : Int) := by
  rw [BitVec.toInt_eq_toNat_cond, BitVec.toNat_sub, BitVec.toNat_ofNat, BitVec.toNat_ofNat]
  split <;> omega

theorem cmpi_sge_zero (d : BitVec 32) : IntOp.cmpi .sge d 0#32 = if 0 ≤ d.toInt then 1#1 else 0#1 := by
  unfold IntOp.cmpi
  simp only [BitVec.sle]
  by_cases h : 0 ≤ d.toInt
  · simp [h]
  · simp [h]

theorem cmpi_slt_zero (d : BitVec 32) : IntOp.cmpi .slt d 0#32 = if d.toInt < 0 then 1#1 else 0#1 := by
  unfold IntOp.cmpi
  simp only [BitVec.slt]
  by_cases h : d.toInt < 0
  · simp [h]
  · simp [h]

theorem minsi_toInt (x y : BitVec 32) : (IntOp.minsi x y).toInt = min x.toInt y.toInt := by
  unfold IntOp.minsi
  simp only [BitVec.slt]
  by_cases h : x.toInt < y.toInt
  · simp [h]; omega
  · simp [h]; omega

theorem neg_sub_one_toInt (d : BitVec 32) (z : Int) (hd : d.toInt = z) (h1 : -10000 < z) (h2 : z < 10000) :
    (IntOp.subi (-d) 1#32).toInt = -z - 1 := by
  unfold IntOp.subi
  rw [BitVec.toInt_eq_toNat_cond] at hd ⊢
  rw [BitVec.toNat_sub, BitVec.toNat_neg]
  simp only [BitVec.toNat_ofNat]
  split at hd <;> split <;> omega

/-- The weight's integer numerator as the program computes it from the difference word. -/
def wWord (d z t o t' : BitVec 32) : BitVec 32 :=
  Scalar.select (IntOp.cmpi .sge d z) (IntOp.minsi d t) (IntOp.minsi (IntOp.subi (-d) o) t')

/-- Its signed value is the specification's numerator. -/
theorem wWord_toInt (r j : Fin 8192) :
    (wWord (BitVec.ofNat 32 j.val - BitVec.ofNat 32 r.val) 0#32 20#32 1#32 20#32).toInt = Cert.Spec.wInt r j := by
  have hd := diff_toInt r.val j.val r.isLt j.isLt
  have hr := r.isLt
  have hj := j.isLt
  have h20 : (20#32 : BitVec 32).toInt = 20 := by decide
  unfold wWord Cert.Spec.wInt
  rw [cmpi_sge_zero]
  by_cases h : 0 ≤ (BitVec.ofNat 32 j.val - BitVec.ofNat 32 r.val).toInt
  · rw [if_pos h, select_one, minsi_toInt, hd, h20, if_pos (by omega)]
  · rw [if_neg h, select_zero, minsi_toInt, neg_sub_one_toInt _ _ hd (by omega) (by omega), h20, if_neg (by omega)]
    congr 1
    omega

/-- Two indices below 8192 are equal as words exactly when they are equal. -/
theorem eqWord_toNat (r j : Fin 8192) :
    (IntOp.cmpi .eq (IntOp.addi (BitVec.ofNat 32 r.val) 0#32) (BitVec.ofNat 32 j.val)).toNat = if r = j then 1 else 0 := by
  have hr := r.isLt
  have hj := j.isLt
  unfold IntOp.cmpi IntOp.addi
  rw [BitVec.add_zero]
  by_cases h : r = j
  · subst h; simp
  · have hne : BitVec.ofNat 32 r.val ≠ BitVec.ofNat 32 j.val := by
      intro e
      have := congrArg BitVec.toNat e
      simp only [BitVec.toNat_ofNat] at this
      exact h (Fin.ext (by omega))
    simp [h, hne]

/-! ## The arrays at an entry -/

/-- A vector made a row and repeated down the rows reads, at (r, j), the vector's entry j. -/
theorem rowBcast_apply {α : Type} (v : S8192.Idx → α) (r j : Fin 8192) :
    broadcastInDim S8192x8192 ![0, 1] bcast_S1x8192_S8192x8192_0_1 (broadcastInDim S1x8192 ![1] bcast_S8192_S1x8192_1 v) (ix2 r j)
      = v (ix1 j) := by
  refine (broadcastInDim_apply _ _ _ (ix2 r j) (ix2 (0 : Fin 1) j) fun a => ?_).trans ?_
  · match a with
    | ⟨0, _⟩ => rfl
    | ⟨1, _⟩ => rfl
  · exact broadcastInDim_apply _ _ v (ix2 (0 : Fin 1) j) (ix1 j) fun a => by
      match a with
      | ⟨0, _⟩ => rfl

/-- The column index less the row index. -/
theorem diffArr_apply (r j : Fin 8192) : diffArr (ix2 r j) = BitVec.ofNat 32 j.val - BitVec.ofNat 32 r.val := by
  unfold diffArr
  show IntOp.subi (broadcastInDim S8192x8192 ![0, 1] bcast_S1x8192_S8192x8192_0_1
      (broadcastInDim S1x8192 ![1] bcast_S8192_S1x8192_1 rowIota) (ix2 r j)) (colBcast rowIota (ix2 r j)) = _
  rw [colBcast_apply, rowBcast_apply]
  rfl

theorem wArr_unfold (i : S8192x8192.Idx) : wArr i
    = Ideal.div (((wWord (diffArr i) (splatI 0#32 i) (splatI 20#32 i) (splatI 1#32 i) (splatI 20#32 i)).toInt : ℝ) : EReal)
        (splatF 0x41A00000#32 i) := rfl

/-- The banded weight at (r, j) is the specification's. -/
theorem wArr_apply (r j : Fin 8192) : wArr (ix2 r j) = Cert.Spec.wgt r j := by
  rw [wArr_unfold, splatI_apply, splatI_apply, splatI_apply, splatF_apply, diffArr_apply, wWord_toInt]
  rfl

theorem eyeArr_unfold (i : S8192x8192.Idx) : eyeArr i
    = (((IntOp.cmpi .eq (IntOp.addi (BitVec.ofNat 32 (i 0).val) (splatI 0#32 i)) (BitVec.ofNat 32 (i 1).val)).toNat : ℝ) : EReal) := rfl

/-- One less the diagonal indicator at (r, j) is the specification's mask. -/
theorem mask_apply (r j : Fin 8192) :
    Ideal.ofBits .f32 0x3F800000#32 - eyeArr (ix2 r j) = Cert.Spec.mask r j := by
  rw [eyeArr_unfold, splatI_apply]
  show _ - (((IntOp.cmpi .eq (IntOp.addi (BitVec.ofNat 32 r.val) 0#32) (BitVec.ofNat 32 j.val)).toNat : ℝ) : EReal) = _
  rw [eqWord_toNat]
  unfold Cert.Spec.mask Cert.Spec.oneF
  by_cases h : r = j
  · rw [if_pos h, if_pos h]; simp
  · rw [if_neg h, if_neg h]; simp

end Cert.RefSide

end
-- ==== Proof.RefReadPos.lean ====
/-
  Each row's positive column.

  The row index plus 4096 lies between 4096 and 12287 and the divisor is 8192 (the select that would replace a zero
  divisor by one keeps it), so the truncated remainder is the mathematical remainder (r + 4096) mod 8192; it is not
  negative and neither is the divisor, so the two sign tests agree and the correction that would add the divisor is not
  taken. The result at row r is the specification's positive index, as a word.
-/
import proofs.«122991_j63007170232511_2_alg».proof.Proof.RefReadWeight

noncomputable section

namespace Cert.RefSide

open Cert.ReferenceIdeal Cert.ReferenceIdeal.Facts₀ Idealize.ShloMosaic Idealize.ShloMosaic.ValueIdx

/-- The truncated remainder by 8192 of a small non-negative number is its remainder. -/
theorem remsi_small (n : Nat) (hn : n < 2 ^ 20) :
    IntOp.remsi .host (BitVec.ofNat 32 n) 8192#32 = BitVec.ofNat 32 (n % 8192) := by
  have hc : ¬ IntOp.SDivCorner (BitVec.ofNat 32 n) 8192#32 := by
    rintro (h | ⟨_, h⟩) <;> exact absurd h (by decide)
  unfold IntOp.remsi
  rw [if_neg hc]
  apply BitVec.eq_of_toInt_eq
  have h8 : (8192#32 : BitVec 32).toInt = 8192 := by decide
  rw [BitVec.toInt_srem, toInt_ofNat_small n (by omega), toInt_ofNat_small (n % 8192) (by omega), h8]
  rw [Int.tmod_eq_emod_of_nonneg (by omega)]
  omega

/-- A scalar broadcast to every row reads the scalar. -/
theorem splatRow_apply {w : Nat} (x : IVec S_ w) (r : Fin 8192) : splatRow x (ix1 r) = x ix0 :=
  broadcastInDim_apply _ _ x _ ix0 fun a => a.elim0

/-- The divisor is 8192. -/
theorem modulus_apply : modulus ix0 = 8192#32 := by
  show Scalar.select (IntOp.cmpi .eq 8192#32 0#32) 1#32 8192#32 = 8192#32
  decide

theorem truncRem_unfold (io : IVec S8192 32) (i : S8192.Idx) :
    truncRem io i = IntOp.remsi .host (IntOp.addi (io i) (splatRow (constantI S_ 32 4096#32) i)) (splatRow modulus i) := rfl

/-- The truncated remainder at row r. -/
theorem truncRem_apply (r : Fin 8192) :
    truncRem rowIota (ix1 r) = BitVec.ofNat 32 ((r.val + 4096) % 8192) := by
  have hr := r.isLt
  rw [truncRem_unfold, splatRow_apply, splatRow_apply, modulus_apply]
  show IntOp.remsi .host (BitVec.ofNat 32 r.val + BitVec.ofNat 32 4096) 8192#32 = _
  rw [← BitVec.ofNat_add, remsi_small _ (by omega)]

theorem posArr_unfold (io : IVec S8192 32) (i : S8192.Idx) :
    posArr io i = Scalar.select (IntOp.andi (IntOp.cmpi .ne (IntOp.cmpi .slt (truncRem io i) (splatRow (constantI S_ 32 0#32) i))
          (splatRow (cmpi .slt modulus (constantI S_ 32 0#32)) i))
        (IntOp.cmpi .ne (truncRem io i) (splatRow (constantI S_ 32 0#32) i)))
      (IntOp.addi (truncRem io i) (splatRow modulus i)) (truncRem io i) := rfl

/-- Row r's positive column is the specification's, as a word. -/
theorem posArr_apply (r : Fin 8192) : posArr rowIota (ix1 r) = BitVec.ofNat 32 (Cert.Spec.posIdx r).val := by
  have hr := r.isLt
  have hm : (cmpi .slt modulus (constantI S_ 32 0#32) : IVec S_ 1) ix0 = 0#1 := by
    show IntOp.cmpi .slt (modulus ix0) 0#32 = 0#1
    rw [modulus_apply]; decide
  rw [posArr_unfold, splatRow_apply, splatRow_apply, splatRow_apply, truncRem_apply, hm]
  show Scalar.select (IntOp.andi (IntOp.cmpi .ne (IntOp.cmpi .slt (BitVec.ofNat 32 ((r.val + 4096) % 8192)) 0#32) 0#1) _) _ _ = _
  rw [cmpi_slt_zero, toInt_ofNat_small _ (by omega), if_neg (by omega)]
  have h0 : IntOp.cmpi .ne (0#1 : BitVec 1) 0#1 = 0#1 := by decide
  have ha : ∀ x : BitVec 1, IntOp.andi 0#1 x = 0#1 := fun x => by unfold IntOp.andi; simp
  rw [h0, ha, select_zero]
  rfl

end Cert.RefSide

end
-- ==== Proof.RefReadTake.lean ====
/-
  The entry gathered at each row's positive column.

  The column of indices holds, at row r, a word whose signed value c(r) lies in 0 … 8191. It is not negative, so the
  select that would move a negative index up by 8192 keeps it; made a [8192, 1, 1] array of start indices it reads
  the same word at (r, 0, 0). Every start index passes both range tests, so the conjunction reduced over the unit axis
  is 1 at every row and the select takes the gathered entry, never the NaN. The gather batches over the rows and
  collapses the column axis with slices of one entry: at result row r the operand index is r on the batching axis and,
  on the column axis, the start index read signed and clamped into 0 … 8191, which is c(r) itself.
-/
import proofs.«122991_j63007170232511_2_alg».proof.Proof.RefReadWeight

noncomputable section

namespace Cert.RefSide

open Cert.ReferenceIdeal Cert.ReferenceIdeal.Facts₀ Idealize.ShloMosaic Idealize.ShloMosaic.ValueIdx

/-- The gather's dimension numbers. -/
abbrev gDims : GatherDims S8192x8192 S8192x1x1 S8192x1 := gather_S8192x8192_S8192x1x1_S8192x1_n_1_0_0_1_2_11

theorem cmpi_sle (x y : BitVec 32) : IntOp.cmpi .sle x y = if x.toInt ≤ y.toInt then 1#1 else 0#1 := by
  unfold IntOp.cmpi
  simp only [BitVec.sle]
  by_cases h : x.toInt ≤ y.toInt
  · simp [h]
  · simp [h]

/-- A conjunction folded from 1 over terms that are all 1 is 1. -/
theorem foldl_andi_one {ι : Type} (g : ι → BitVec 1) :
    ∀ l : List ι, (∀ n ∈ l, g n = 1#1) → l.foldl (fun r n => IntOp.andi r (g n)) 1#1 = 1#1
  | [], _ => rfl
  | a :: l, h => by
    have h11 : IntOp.andi (1#1 : BitVec 1) 1#1 = 1#1 := by decide
    rw [List.foldl_cons, h a List.mem_cons_self, h11]
    exact foldl_andi_one g l fun n hn => h n (List.mem_cons_of_mem _ hn)

/-- A scalar broadcast to the column reads the scalar. -/
theorem splatCol_apply (b : BitVec 32) (i : S8192x1.Idx) : splatCol b i = b :=
  broadcastInDim_apply _ _ _ i ix0 fun a => a.elim0

theorem startIdx_unfold (p : IVec S8192x1 32) :
    startIdx p = shapeCast S8192x1x1 (fun i => Scalar.select (IntOp.cmpi .slt (p i) (splatCol 0#32 i))
      (IntOp.addi (p i) (splatCol 8192#32 i)) (p i)) shapeCasts_S8192x1_S8192x1x1 := rfl

/-- The start index of row r is the column's word at row r. -/
theorem startIdx_apply (p : IVec S8192x1 32) (c : Fin 8192 → Fin 8192)
    (hp : ∀ r, p (ix2 r (0 : Fin 1)) = BitVec.ofNat 32 (c r).val) (r : Fin 8192) (a b : Fin 1) :
    startIdx p (ix3 r a b) = BitVec.ofNat 32 (c r).val := by
  have hc := (c r).isLt
  have ha := a.isLt
  have hb := b.isLt
  rw [startIdx_unfold]
  refine (shapeCast_apply _ _ (ix3 r a b) (ix2 r (0 : Fin 1)) ?_).trans ?_
  · rw [Shape.rowMajor_val_two, Shape.rowMajor_val_three]
    show r.val * 1 + 0 = (r.val * 1 + a.val) * 1 + b.val
    omega
  · show Scalar.select (IntOp.cmpi .slt (p (ix2 r (0 : Fin 1))) (splatCol 0#32 (ix2 r (0 : Fin 1)))) _ (p (ix2 r (0 : Fin 1))) = _
    rw [splatCol_apply, hp, cmpi_slt_zero, toInt_ofNat_small _ (by omega), if_neg (by omega), select_zero]

theorem inBoundsTest_unfold (q : IVec S8192x1x1 32) (i : S8192x1x1.Idx) :
    andi (cmpi .sge q (broadcastInDim S8192x1x1 ![] bcast_S_S8192x1x1 (constantI S_ 32 0#32)))
      (cmpi .sle q (broadcastInDim S8192x1x1 ![0, 1, 2] bcast_S1x1x1_S8192x1x1_0_1_2
        (broadcastInDim S1x1x1 ![2] bcast_S1_S1x1x1_2 (constantI S1 32 8191#32)))) i
    = IntOp.andi (IntOp.cmpi .sge (q i) (broadcastInDim S8192x1x1 ![] bcast_S_S8192x1x1 (constantI S_ 32 0#32) i))
        (IntOp.cmpi .sle (q i) (broadcastInDim S8192x1x1 ![0, 1, 2] bcast_S1x1x1_S8192x1x1_0_1_2
          (broadcastInDim S1x1x1 ![2] bcast_S1_S1x1x1_2 (constantI S1 32 8191#32)) i)) := rfl

/-- Both range tests pass at a start index in 0 … 8191. -/
theorem inBoundsTest_eq_one (q : IVec S8192x1x1 32) (i : S8192x1x1.Idx) (h0 : 0 ≤ (q i).toInt) (h1 : (q i).toInt ≤ 8191) :
    andi (cmpi .sge q (broadcastInDim S8192x1x1 ![] bcast_S_S8192x1x1 (constantI S_ 32 0#32)))
      (cmpi .sle q (broadcastInDim S8192x1x1 ![0, 1, 2] bcast_S1x1x1_S8192x1x1_0_1_2
        (broadcastInDim S1x1x1 ![2] bcast_S1_S1x1x1_2 (constantI S1 32 8191#32)))) i = 1#1 := by
  have e0 : broadcastInDim S8192x1x1 ![] bcast_S_S8192x1x1 (constantI S_ 32 0#32) i = 0#32 :=
    broadcastInDim_apply _ _ _ i ix0 fun a => a.elim0
  have e1 : broadcastInDim S8192x1x1 ![0, 1, 2] bcast_S1x1x1_S8192x1x1_0_1_2
      (broadcastInDim S1x1x1 ![2] bcast_S1_S1x1x1_2 (constantI S1 32 8191#32)) i = 8191#32 := by
    refine (broadcastInDim_apply _ _ _ i (ix3 (0 : Fin 1) (0 : Fin 1) (0 : Fin 1)) fun a => ?_).trans ?_
    · match a with
      | ⟨0, _⟩ => rfl
      | ⟨1, _⟩ => rfl
      | ⟨2, _⟩ => rfl
    · exact broadcastInDim_apply _ _ _ _ (ix1 (0 : Fin 1)) fun a => by
        match a with
        | ⟨0, _⟩ => rfl
  have h8 : (8191#32 : BitVec 32).toInt = 8191 := by decide
  rw [inBoundsTest_unfold, e0, e1, cmpi_sge_zero, cmpi_sle, h8, if_pos h0, if_pos h1]
  decide

/-- Every row's index is in range. -/
theorem inBounds_eq_one (q : IVec S8192x1x1 32) (hq : ∀ i, 0 ≤ (q i).toInt ∧ (q i).toInt ≤ 8191) (j : S8192x1.Idx) :
    inBounds q j = 1#1 := by
  unfold inBounds Host.reduce
  exact foldl_andi_one _ _ fun n _ => inBoundsTest_eq_one q _ (hq _).1 (hq _).2

/-- The gather at row r reads the operand at (r, c(r)). -/
theorem gather_apply {α : Type} (x : S8192x8192.Idx → α) (q : IVec S8192x1x1 32) (c : Fin 8192 → Fin 8192)
    (hq : ∀ r a b, q (ix3 r a b) = BitVec.ofNat 32 (c r).val) (r : Fin 8192) (u : Fin 1) :
    Host.gather gDims x q (ix2 r u) = x (ix2 r (c r)) := by
  have hc := (c r).isLt
  unfold Host.gather
  refine congrArg x (funext fun a => Fin.ext ?_)
  match a with
  | ⟨0, _⟩ =>
    show gDims.start (ix2 r u) q 0 + gDims.batchCoord (ix2 r u) 0 + gDims.offCoord (ix2 r u) 0 = r.val
    have hb : (0 : Fin 2) ∈ gDims.operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show gDims.start (ix2 r u) q 1 + gDims.batchCoord (ix2 r u) 1 + gDims.offCoord (ix2 r u) 1 = (c r).val
    have hnb : (1 : Fin 2) ∉ gDims.operandBatchingDims := by decide
    have hcol : (1 : Fin 2) ∈ gDims.collapsedSliceDims := List.mem_singleton.mpr rfl
    rw [GatherDims.batchCoord_eq_zero _ _ _ hnb,
      GatherDims.offCoord_eq_zero _ _ _ (fun h => ((GatherDims.mem_sKept _ _).mp h).1 hcol)]
    simp only [Nat.add_zero]
    unfold GatherDims.start
    rw [dif_pos (show (1 : Fin 2) ∈ gDims.startIndexMap from List.mem_singleton.mpr rfl)]
    have hsi : gDims.siIdx (ix2 r u) ⟨List.idxOf (1 : Fin 2) gDims.startIndexMap,
        List.idxOf_lt_length_iff.2 (List.mem_singleton.mpr rfl)⟩ = ix3 r u (0 : Fin 1) := by
      funext b; refine Fin.ext ?_
      match b with
      | ⟨0, _⟩ => rfl
      | ⟨1, _⟩ => rfl
      | ⟨2, _⟩ => rfl
    rw [hsi, hq, toInt_ofNat_small _ (by omega)]
    show min ((c r).val : Int).toNat (8192 - 1) = (c r).val
    rw [Int.toNat_natCast]
    omega

theorem takeArr_unfold (x : FVec Ideal S8192x8192 .f32) (p : IVec S8192x1 32) (i : S8192x1.Idx) :
    takeArr x p i = Scalar.select (inBounds (startIdx p) i) (Host.gather gDims x (startIdx p) i)
      (broadcastInDim S8192x1 ![] bcast_S_S8192x1 (constant (F := Ideal) S_ .f32 0x7FC00000#32) i) := rfl

/-- The entry taken at row r is the operand's at (r, c(r)). -/
theorem takeArr_apply (x : FVec Ideal S8192x8192 .f32) (p : IVec S8192x1 32) (c : Fin 8192 → Fin 8192)
    (hp : ∀ r, p (ix2 r (0 : Fin 1)) = BitVec.ofNat 32 (c r).val) (r : Fin 8192) :
    takeArr x p (ix2 r (0 : Fin 1)) = x (ix2 r (c r)) := by
  have hq := startIdx_apply p c hp
  have hb : ∀ i, 0 ≤ (startIdx p i).toInt ∧ (startIdx p i).toInt ≤ 8191 := fun i => by
    obtain ⟨a, b, d, rfl⟩ : ∃ (a : Fin 8192) (b d : Fin 1), i = ix3 a b d := ⟨i 0, i 1, i 2, eq_ix3 i⟩
    have hc := (c a).isLt
    rw [hq, toInt_ofNat_small _ (by omega)]
    omega
  rw [takeArr_unfold, inBounds_eq_one _ hb, select_one, gather_apply x _ c hq]

end Cert.RefSide

end
-- ==== Proof.LibColumnFlatten.lean ====
/-
  A column `[a, 1]` flattened to a vector `[a]`, read at an index given by its coordinate: the cast keeps the row-major
  position, and the unit axis contributes nothing to it, so entry `i` of the vector is entry `(i, 0)` of the column.
  (The reshape a `keepdims` reduction's result goes through when its kept axis is dropped again.)
-/
import Idealize.ShloMosaic.Lib.Pipeline.Value
import Idealize.ShloMosaic.Lib.ValueIdx

namespace Cert.LayoutFlatten

open Idealize.ShloMosaic Idealize.ShloMosaic.ValueIdx

variable {α : Type}

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    omega)

end Cert.LayoutFlatten
-- ==== Proof.RefReadMean.lean ====
/-
  The mean of the negated entries of a column.

  The column flattened to a vector reads, at r, the column's entry (r, 0). The host's sum over the 8192 rows, from the
  zero word, is at the extended reals the sum of the products of the word −1.0 with the entries, whatever order it is
  taken in; it is divided by the word 8192.0.
-/
import proofs.«122991_j63007170232511_2_alg».proof.Proof.RefRunTerm
import proofs.«122991_j63007170232511_2_alg».proof.Proof.LibColumnFlatten
import Idealize.ShloMosaic.PureOps.Ideal.Laws
import Idealize.ShloMosaic.Lib.Pipeline.Value

noncomputable section

namespace Cert.RefSide

open Cert.ReferenceIdeal Cert.ReferenceIdeal.Facts₀ Idealize.ShloMosaic Idealize.ShloMosaic.ValueIdx

/-- A vector's index set is its one coordinate's range. -/
def idxEquiv1 : Fin 8192 ≃ S8192.Idx where
  toFun r := ix1 r
  invFun i := i 0
  left_inv _ := rfl
  right_inv i := (eq_ix1 i).symm

theorem meanNegSummand_unfold (t : FVec Ideal S8192x1 .f32) (i : S8192.Idx) :
    mulf (broadcastInDim S8192 ![] bcast_S_S8192 (constant (F := Ideal) S_ .f32 0xBF800000#32))
        (shapeCast S8192 t shapeCasts_S8192x1_S8192) i
      = broadcastInDim S8192 ![] bcast_S_S8192 (constant (F := Ideal) S_ .f32 0xBF800000#32) i
        * shapeCast S8192 t shapeCasts_S8192x1_S8192 i := rfl

/-- The mean of the negated entries: the sum over the rows of −1.0 times the entry, over 8192.0. -/
theorem meanNeg_apply (t : FVec Ideal S8192x1 .f32) (i : S_.Idx) :
    meanNeg t i = Ideal.div (∑ r : Fin 8192, Ideal.ofBits .f32 0xBF800000#32 * t (ix2 r (0 : Fin 1)))
      (Ideal.ofBits .f32 0x46000000#32) := by
  unfold meanNeg
  show Ideal.div (Ideal.hostReduceAdd reducesTo_S8192_S_d0 _ (Ideal.ofBits .f32 0x00000000#32) i)
    (Ideal.ofBits .f32 0x46000000#32) = _
  rw [Ideal.hostReduceAdd_total _ (fun b => b.elim0), Ideal.ofBits_zero_f32, zero_add, ← Equiv.sum_comp idxEquiv1]
  refine congrArg (fun s => Ideal.div s _) (Finset.sum_congr rfl fun k _ => ?_)
  show mulf _ _ (ix1 k) = _
  rw [meanNegSummand_unfold, Cert.LayoutFlatten.shapeCast_a1_a_apply,
    broadcastInDim_apply _ _ _ (ix1 k) ix0 (fun a => a.elim0)]
  rfl

end Cert.RefSide

end
-- ==== Proof.RefRead.lean ====
/-
  The reference's loss is the specification's.

  With the first part's arrays — the shifted similarities of the feature rows, the banded weight, the diagonal indicator,
  the row indices — the second part's result is, at its one index, the mean over the rows of −1.0 times the entry taken
  at the row's positive column from the array of logit · weight − log(row sum). Entry by entry these are the
  specification's: the logit is the similarity less the row maximum, the weight and the mask the specification's, the
  positive column the specification's index, and the row sum's summand multiplies in the specification's order.
-/
import proofs.«122991_j63007170232511_2_alg».proof.Proof.RefReadLogProb
import proofs.«122991_j63007170232511_2_alg».proof.Proof.RefReadPos
import proofs.«122991_j63007170232511_2_alg».proof.Proof.RefReadTake
import proofs.«122991_j63007170232511_2_alg».proof.Proof.RefReadMean

noncomputable section

namespace Cert.RefSide

open Cert.ReferenceIdeal Cert.ReferenceIdeal.Facts₀ Idealize.ShloMosaic Idealize.ShloMosaic.ValueIdx

/-- The column of positive indices at row r is the specification's index, as a word. -/
theorem posCol_apply (r : Fin 8192) :
    broadcastInDim S8192x1 ![0] bcast_S8192_S8192x1_0 (posArr rowIota) (ix2 r (0 : Fin 1))
      = BitVec.ofNat 32 (Cert.Spec.posIdx r).val := by
  refine (broadcastInDim_apply _ _ _ (ix2 r (0 : Fin 1)) (ix1 r) fun a => ?_).trans (posArr_apply r)
  match a with
  | ⟨0, _⟩ => rfl

/-- The reference's loss from the feature rows is the specification's, at the result's one index. -/
theorem lossOf_eq (f : FVec Ideal S8192x256 .f32) :
    lossOf (logitsArr (simArr f)) wArr eyeArr rowIota = fun _ => Cert.Spec.lossR (fun r k => f (ix2 r k)) := by
  funext i
  unfold lossOf
  rw [meanNeg_apply]
  unfold Cert.Spec.lossR Cert.Spec.count Cert.Spec.negOneF
  refine congrArg (fun s => Ideal.div s _) (Finset.sum_congr rfl fun r _ => ?_)
  refine congrArg (fun v => _ * v) ?_
  rw [takeArr_apply _ _ Cert.Spec.posIdx posCol_apply r, logProbArr_apply, logits_sim_apply, wArr_apply]
  unfold Cert.Spec.rowR Cert.Spec.den
  refine congrArg (fun s => _ - Ideal.log s) (Finset.sum_congr rfl fun j _ => ?_)
  rw [logits_sim_apply, mask_apply, wArr_apply]

end Cert.RefSide

end
-- ==== Proof.RefRun.lean ====
/-
  The reference's run, read against the specification.

  Every weakly fair execution of the reference's entry function terminates; its result buffer then holds, at its one
  index, the specification's reference loss of the feature rows computed from the embeddings' launch contents, and the
  three argument buffers hold what they held at launch. The run leaves every buffer at the two operation lists' fold
  over the launch contents; the fold at the result's buffer is the composed term of the first part's arrays, which
  entry by entry is the specification's loss.
-/
import proofs.«122991_j63007170232511_2_alg».proof.Proof.RefRead

noncomputable section

namespace Cert.RefSide

open Cert.ReferenceIdeal Idealize.ShloMosaic Idealize.ShloMosaic.TcCoe Idealize.SL.Sem Idealize.ShloMosaic.StableHlo

/-- The fold of the whole program at the result's buffer is the specification's loss of the feature rows. -/
theorem result_eq (V : Valuation τ sig (Elt Ideal)) :
    after (ops1 (F := Ideal)) (after (ops0 (F := Ideal)) V) (main_v70 : DevRef τ sig)
      = fun _ => Cert.Spec.lossR (fun r k => featsArr (V (main_arg0 : DevRef τ sig)) (Idealize.ShloMosaic.ValueIdx.ix2 r k)) := by
  rw [part1_loss, part0_logits, part0_weight, part0_eye, part0_iota, lossOf_eq]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = (fun _ => Cert.Spec.lossR (fun r k => featsArr (m ((c.tc : Thread nD τ).loc main_arg0)) (Idealize.ShloMosaic.ValueIdx.ix2 r k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v70).trans (result_eq (launchContents m c)),
        (h c main_arg0).trans ((part1_arg0 _).trans (part0_arg0 _)),
        (h c main_arg1).trans ((part1_arg1 _).trans (part0_arg1 _)),
        (h c main_arg2).trans ((part1_arg2 _).trans (part0_arg2 _))⟩)
    (run_main m ρ)

end Cert.RefSide

end
-- ==== Proof.SpecLawConsts.lean ====
/-
  The float literals of the two sides as extended reals.

  The patterns 1.0, -1.0 and 20.0 denote the reals 1, -1 and 20. The temperature literal denotes a nonzero real and the
  shift literal a real; their exact values play no part in the law between the two sides.
-/
import proofs.«122991_j63007170232511_2_alg».proof.Proof.Spec

noncomputable section

namespace Cert.Spec

open Idealize.ShloMosaic

/-- The pattern of 1.0 denotes 1. -/
theorem oneF_eq : oneF = 1 := by
  simp [oneF, Ideal.ofBits, Ideal.ieee, -EReal.coe_mul]; norm_num

/-- The pattern of -1.0 denotes -1. -/
theorem negOneF_eq : negOneF = -1 := by
  simp [negOneF, Ideal.ofBits, Ideal.ieee, -EReal.coe_mul]; norm_num

/-- The pattern of 20.0 denotes the real 20. -/
theorem twenty_eq : twenty = ((20 : ℝ) : EReal) := by
  simp [twenty, Ideal.ofBits, Ideal.ieee, -EReal.coe_mul]; norm_num

/-- The temperature literal denotes a nonzero real. -/
theorem tau_real : ∃ t : ℝ, t ≠ 0 ∧ tau = (t : EReal) := by
  refine ⟨(1 * (2 ^ 23 + 1006633 : ℕ) * (2 : ℝ) ^ ((123 : ℤ) - (2 ^ (8 - 1) - 1) - 23) : ℝ), ?_, ?_⟩
  · positivity
  · simp [tau, Ideal.ofBits, Ideal.ieee, -EReal.coe_mul]

/-- The shift literal denotes a real. -/
theorem shift_real : ∃ a : ℝ, shift = (a : EReal) := by
  refine ⟨(1 * (2 ^ 23 + 6591049 : ℕ) * (2 : ℝ) ^ ((130 : ℤ) - (2 ^ (8 - 1) - 1) - 23) : ℝ), ?_⟩
  simp [shift, Ideal.ofBits, Ideal.ieee, -EReal.coe_mul]

end Cert.Spec

end
-- ==== Proof.SpecLawWeight.lean ====
/-
  The banded weight and the diagonal mask as real numbers.

  The weight's integer numerator is min(j − r, 20) for j ≥ r and min(r − j − 1, 20) for j < r: never negative, 0 on the
  diagonal, and 20 as soon as j ≥ r + 20 or j + 21 ≤ r. Divided by 20 it is a real in [0, 1] that is 1 far from the
  diagonal: at the positive column (4096 away) and on every column tile that is neither the row's own nor a neighbour of it.
  The mask is 0 on the diagonal and 1 off it; as the weight vanishes on the diagonal, mask · weight = weight.
-/
import proofs.«122991_j63007170232511_2_alg».proof.Proof.SpecLawConsts

noncomputable section

namespace Cert.Spec

open Idealize.ShloMosaic

/-- The numerator is never negative. -/
theorem wInt_nonneg (r j : Fin 8192) : 0 ≤ wInt r j := by
  unfold wInt
  split <;> omega

/-- The numerator vanishes on the diagonal. -/
theorem wInt_self (r : Fin 8192) : wInt r r = 0 := by
  unfold wInt
  rw [if_pos le_rfl]
  omega

/-- The numerator is 20 far from the diagonal. -/
theorem wInt_far (r j : Fin 8192) (h : r.val + 20 ≤ j.val ∨ j.val + 21 ≤ r.val) : wInt r j = 20 := by
  unfold wInt
  split <;> omega

/-- The weight as a real number. -/
def wR (r j : Fin 8192) : ℝ := ((wInt r j : Int) : ℝ) / 20

/-- The weight is the coercion of that real. -/
theorem wgt_eq (r j : Fin 8192) : wgt r j = ((wR r j : ℝ) : EReal) := by
  rw [wgt, twenty_eq, Ideal.div_coe (by norm_num : (20 : ℝ) ≠ 0), ← EReal.coe_mul, wR, mul_one_div]

theorem wR_nonneg (r j : Fin 8192) : 0 ≤ wR r j :=
  div_nonneg (by exact_mod_cast wInt_nonneg r j) (by norm_num)

theorem wR_self (r : Fin 8192) : wR r r = 0 := by
  rw [wR, wInt_self, Int.cast_zero, zero_div]

theorem wR_far (r j : Fin 8192) (h : r.val + 20 ≤ j.val ∨ j.val + 21 ≤ r.val) : wR r j = 1 := by
  rw [wR, wInt_far r j h]
  norm_num

/-- The positive column is 4096 away from the row. -/
theorem wR_posIdx (r : Fin 8192) : wR r (posIdx r) = 1 := by
  apply wR_far
  have := r.isLt
  show r.val + 20 ≤ (r.val + 4096) % 8192 ∨ (r.val + 4096) % 8192 + 21 ≤ r.val
  omega

/-- A column of a tile that is neither the row's own nor a neighbour of it is at least 1025 away from the row. -/
theorem wR_offBand (r : Fin 8192) (k : Fin 8) (j' : Fin 1024) (h : ¬ onBand (rowTile r) k) : wR r (col k j') = 1 := by
  apply wR_far
  have hr := r.isLt
  have hk := k.isLt
  have hj := j'.isLt
  have h' : ¬ (k.val ≤ r.val / 1024 + 1 ∧ r.val / 1024 ≤ k.val + 1) := h
  show r.val + 20 ≤ 1024 * k.val + j'.val ∨ 1024 * k.val + j'.val + 21 ≤ r.val
  omega

/-- The mask as a real number: 0 on the diagonal, 1 off it. -/
def mR (r j : Fin 8192) : ℝ := if r = j then 0 else 1

theorem mask_eq (r j : Fin 8192) : mask r j = ((mR r j : ℝ) : EReal) := by
  unfold mask mR
  rw [oneF_eq]
  by_cases h : r = j
  · rw [if_pos h, if_pos h, ← EReal.coe_one, ← EReal.coe_sub, sub_self]
  · rw [if_neg h, if_neg h, ← EReal.coe_one, ← EReal.coe_zero, ← EReal.coe_sub, sub_zero]

/-- The weight already vanishes where the mask does. -/
theorem mR_mul_wR (r j : Fin 8192) : mR r j * wR r j = wR r j := by
  unfold mR
  by_cases h : r = j
  · rw [if_pos h, ← h, wR_self, mul_zero]
  · rw [if_neg h, one_mul]

end Cert.Spec

end
-- ==== Proof.SpecLawSum.lean ====
/-
  Two facts about finite families of real numbers read as extended reals.

  1. The sum of the coercions of finitely many reals is the coercion of their sum.
  2. The maximum, folded from -∞, of the coercions of a nonempty finite family of reals is the coercion of a real.
-/
import Mathlib.Data.EReal.Operations
import Mathlib.Data.Finset.Fold
import Mathlib.Algebra.BigOperators.Group.Finset.Basic

namespace Cert.SpecLaw

open Finset

/-- A finite sum of coerced reals is the coerced sum. -/
theorem coe_sum {ι : Type*} (S : Finset ι) (g : ι → ℝ) :
    ∑ j ∈ S, ((g j : ℝ) : EReal) = ((∑ j ∈ S, g j : ℝ) : EReal) := by
  classical
  induction S using Finset.induction_on with
  | empty => simp
  | insert a S ha ih => rw [Finset.sum_insert ha, Finset.sum_insert ha, ih, EReal.coe_add]

/-- The maximum folded from -∞ over a finite family of coerced reals is -∞ or a coerced real. -/
theorem fold_max_bot_or_real {ι : Type*} (S : Finset ι) (g : ι → ℝ) :
    S.fold max (⊥ : EReal) (fun j => ((g j : ℝ) : EReal)) = ⊥
      ∨ ∃ M : ℝ, S.fold max (⊥ : EReal) (fun j => ((g j : ℝ) : EReal)) = (M : EReal) := by
  classical
  induction S using Finset.induction_on with
  | empty => left; simp
  | insert a S ha ih =>
    right
    rw [Finset.fold_insert ha]
    rcases ih with h | ⟨M, h⟩
    · exact ⟨g a, by rw [h, max_eq_left bot_le]⟩
    · exact ⟨max (g a) M, by rw [h]; exact (EReal.coe_strictMono.monotone.map_max).symm⟩

/-- Over a nonempty family it is a coerced real. -/
theorem fold_max_real {ι : Type*} (S : Finset ι) (g : ι → ℝ) {a : ι} (ha : a ∈ S) :
    ∃ M : ℝ, S.fold max (⊥ : EReal) (fun j => ((g j : ℝ) : EReal)) = (M : EReal) := by
  rcases fold_max_bot_or_real S g with h | h
  · exfalso
    have hle : ((g a : ℝ) : EReal) ≤ S.fold max (⊥ : EReal) (fun j => ((g j : ℝ) : EReal)) :=
      (Finset.le_fold_max _).2 (Or.inr ⟨a, ha, le_rfl⟩)
    rw [h] at hle
    exact absurd (le_bot_iff.mp hle) (EReal.coe_ne_bot _)
  · exact h

end Cert.SpecLaw
-- ==== Proof.SpecLawSim.lean ====
/-
  The similarities of real feature rows are real.

  When every feature is (the coercion of) a real x r k and the temperature literal is the nonzero real t, the scaled
  inner product of rows r and j is the real (Σ_k x r k · x j k) · (1/t); the row maximum, a maximum from −∞ over the
  8192 reals of the row, is then a real too. The positive term the kernel computes from the two views' rows is the
  similarity of row r and the row 4096 away: for r < 4096 the two views' rows are r and r + 4096 in this order, for
  r ≥ 4096 in the other order, and the product of two extended reals commutes.
-/
import proofs.«122991_j63007170232511_2_alg».proof.Proof.SpecLawConsts
import proofs.«122991_j63007170232511_2_alg».proof.Proof.SpecLawSum

noncomputable section

namespace Cert.Spec

open Idealize.ShloMosaic

/-- The similarity as a real number. -/
def sR (x : Fin 8192 → Fin 256 → ℝ) (t : ℝ) (r j : Fin 8192) : ℝ := (∑ k : Fin 256, x r k * x j k) * (1 / t)

theorem sim_eq (f : Feats) (x : Fin 8192 → Fin 256 → ℝ) (hx : ∀ r k, f r k = ((x r k : ℝ) : EReal))
    (t : ℝ) (ht : t ≠ 0) (htau : tau = (t : EReal)) (r j : Fin 8192) :
    sim f r j = ((sR x t r j : ℝ) : EReal) := by
  have hsum : ∑ k : Fin 256, f r k * f j k = ((∑ k : Fin 256, x r k * x j k : ℝ) : EReal) := by
    rw [← Cert.SpecLaw.coe_sum]
    refine Finset.sum_congr rfl fun k _ => ?_
    rw [hx, hx, EReal.coe_mul]
  rw [sim, htau, Ideal.div_coe ht, hsum, ← EReal.coe_mul, sR]

/-- The row maximum is a real. -/
theorem rowMax_real (f : Feats) (x : Fin 8192 → Fin 256 → ℝ) (hx : ∀ r k, f r k = ((x r k : ℝ) : EReal))
    (t : ℝ) (ht : t ≠ 0) (htau : tau = (t : EReal)) (r : Fin 8192) :
    ∃ M : ℝ, rowMax f r = (M : EReal) := by
  have hfun : (fun j => sim f r j) = fun j => ((sR x t r j : ℝ) : EReal) :=
    funext fun j => sim_eq f x hx t ht htau r j
  rw [rowMax, hfun]
  exact Cert.SpecLaw.fold_max_real Finset.univ (fun j => sR x t r j) (Finset.mem_univ r)

/-- The kernel's positive term is the similarity of the row and the row 4096 away. -/
theorem posK_eq_sim (f : Feats) (r : Fin 8192) : posK f r = sim f r (posIdx r) := by
  have hr := r.isLt
  unfold posK sim
  congr 1
  by_cases h : r.val < 4096
  · have h1 : lo r = r := Fin.ext (by show r.val % 4096 = r.val; omega)
    have h2 : hi r = posIdx r := Fin.ext (by show r.val % 4096 + 4096 = (r.val + 4096) % 8192; omega)
    rw [h1, h2]
  · have h1 : lo r = posIdx r := Fin.ext (by show r.val % 4096 = (r.val + 4096) % 8192; omega)
    have h2 : hi r = r := Fin.ext (by show r.val % 4096 + 4096 = r.val; omega)
    rw [h1, h2]
    exact Finset.sum_congr rfl fun k _ => mul_comm _ _

end Cert.Spec

end
-- ==== Proof.SpecLawShift.lean ====
/-
  The shift law for a weighted log-sum-exp over the reals.

  For reals s_j and weights v_j ≥ 0, not all zero, the number a + log Σ_j exp(s_j − a)·v_j does not depend on the real a:
  exp(s_j − a) = exp(s_j − b)·exp(b − a), so the sum at a is exp(b − a) times the (positive) sum at b, and the logarithm of
  the product is the sum of the logarithms.
-/
import Mathlib.Analysis.SpecialFunctions.Log.Basic
import Mathlib.Algebra.BigOperators.Group.Finset.Basic

namespace Cert.SpecLaw

open Finset

/-- The weighted exponential sum is positive when the weights are nonnegative and one of them is positive. -/
theorem wsum_pos {ι : Type*} [Fintype ι] (s v : ι → ℝ) (hv : ∀ j, 0 ≤ v j) (hpos : ∃ j, 0 < v j) (a : ℝ) :
    0 < ∑ j, Real.exp (s j - a) * v j := by
  obtain ⟨j0, hj0⟩ := hpos
  refine Finset.sum_pos' (fun j _ => mul_nonneg (Real.exp_pos _).le (hv j)) ⟨j0, Finset.mem_univ _, ?_⟩
  exact mul_pos (Real.exp_pos _) hj0

/-- The shift law. -/
theorem shift_law {ι : Type*} [Fintype ι] (s v : ι → ℝ) (hv : ∀ j, 0 ≤ v j) (hpos : ∃ j, 0 < v j) (a b : ℝ) :
    a + Real.log (∑ j, Real.exp (s j - a) * v j) = b + Real.log (∑ j, Real.exp (s j - b) * v j) := by
  have hb : 0 < ∑ j, Real.exp (s j - b) * v j := wsum_pos s v hv hpos b
  have hfac : ∑ j, Real.exp (s j - a) * v j = Real.exp (b - a) * ∑ j, Real.exp (s j - b) * v j := by
    rw [Finset.mul_sum]
    refine Finset.sum_congr rfl fun j _ => ?_
    rw [← mul_assoc, ← Real.exp_add]
    congr 2
    ring
  rw [hfac, Real.log_mul (Real.exp_pos _).ne' hb.ne', Real.log_exp]
  ring

end Cert.SpecLaw
-- ==== Proof.SpecLawTile.lean ====
/-
  The eight column tiles of 1024 make up the 8192 columns: a sum over the tiles of the sums over the positions inside
  each tile is the sum over all the columns, column 1024·k + j' being position j' of tile k.
-/
import proofs.«122991_j63007170232511_2_alg».proof.Proof.Spec
import Mathlib.Algebra.BigOperators.Ring.Finset

noncomputable section

namespace Cert.Spec

/-- The pair (tile, position) and the column determine each other. -/
def colEquiv : Fin 8 × Fin 1024 ≃ Fin 8192 where
  toFun p := col p.1 p.2
  invFun j := (⟨j.val / 1024, by omega⟩, ⟨j.val % 1024, by omega⟩)
  left_inv p := by
    obtain ⟨k, j'⟩ := p
    apply Prod.ext
    · apply Fin.ext
      show (1024 * k.val + j'.val) / 1024 = k.val
      omega
    · apply Fin.ext
      show (1024 * k.val + j'.val) % 1024 = j'.val
      omega
  right_inv j := by
    apply Fin.ext
    show 1024 * (j.val / 1024) + j.val % 1024 = j.val
    omega

/-- A sum over the tiles of the sums inside each tile is the sum over the columns. -/
theorem sum_tiles {M : Type*} [AddCommMonoid M] (g : Fin 8192 → M) :
    ∑ k : Fin 8, ∑ j' : Fin 1024, g (col k j') = ∑ j : Fin 8192, g j := by
  rw [← Fintype.sum_prod_type' (fun k j' => g (col k j'))]
  exact Fintype.sum_equiv colEquiv _ _ (fun _ => rfl)

end Cert.Spec

end
-- ==== Proof.SpecLawRow.lean ====
/-
  One row: the kernel's value is the negation of the reference's.

  With real features, the kernel's row value is the real σ + log(Σ_j exp(s_j − σ)·w_j) − s_p (the eight tiles are the whole
  row, the weight being 1 wherever the kernel leaves it out) and the reference's is (s_p − M) − log(Σ_j exp(s_j − M)·w_j)
  (the weight at the positive column is 1, and mask · weight = weight). The weights are nonnegative and the one at the
  positive column is 1, so the shift law applies: σ + log Σ exp(s − σ)·w = M + log Σ exp(s − M)·w.
-/
import proofs.«122991_j63007170232511_2_alg».proof.Proof.SpecLawWeight
import proofs.«122991_j63007170232511_2_alg».proof.Proof.SpecLawSim
import proofs.«122991_j63007170232511_2_alg».proof.Proof.SpecLawShift
import proofs.«122991_j63007170232511_2_alg».proof.Proof.SpecLawTile

noncomputable section

namespace Cert.Spec

open Idealize.ShloMosaic

section

variable (f : Feats) (x : Fin 8192 → Fin 256 → ℝ) (hx : ∀ r k, f r k = ((x r k : ℝ) : EReal))
  (t : ℝ) (ht : t ≠ 0) (htau : tau = (t : EReal))

/-- The weighted exponential sum of a row at the shift c. -/
def wsum (r : Fin 8192) (c : ℝ) : ℝ := ∑ j : Fin 8192, Real.exp (sR x t r j - c) * wR r j

include hx ht htau in
/-- A shifted exponential of a similarity. -/
theorem exp_sim_sub (r j : Fin 8192) (c : ℝ) :
    Ideal.exp (sim f r j - (c : EReal)) = ((Real.exp (sR x t r j - c) : ℝ) : EReal) := by
  rw [sim_eq f x hx t ht htau, ← EReal.coe_sub, Ideal.exp_coe]

include hx ht htau in
/-- One column tile's contribution. -/
theorem tile_eq (a : ℝ) (ha : shift = (a : EReal)) (r : Fin 8192) (k : Fin 8) :
    tile f r k = ((∑ j' : Fin 1024, Real.exp (sR x t r (col k j') - a) * wR r (col k j') : ℝ) : EReal) := by
  unfold tile
  rw [← Cert.SpecLaw.coe_sum]
  split
  · refine Finset.sum_congr rfl fun j' _ => ?_
    rw [ha, exp_sim_sub f x hx t ht htau, wgt_eq, EReal.coe_mul]
  · rename_i hb
    refine Finset.sum_congr rfl fun j' _ => ?_
    rw [ha, exp_sim_sub f x hx t ht htau, wR_offBand r k j' hb, mul_one]

include hx ht htau in
/-- The eight tiles together are the whole row. -/
theorem sum_tile_eq (a : ℝ) (ha : shift = (a : EReal)) (r : Fin 8192) :
    ∑ k : Fin 8, tile f r k = ((wsum x t r a : ℝ) : EReal) := by
  have h1 : ∀ k : Fin 8, tile f r k
      = (((fun k : Fin 8 => ∑ j' : Fin 1024, Real.exp (sR x t r (col k j') - a) * wR r (col k j')) k : ℝ) : EReal) :=
    fun k => tile_eq f x hx t ht htau a ha r k
  rw [Finset.sum_congr rfl fun k _ => h1 k, Cert.SpecLaw.coe_sum, wsum,
    ← sum_tiles (fun j : Fin 8192 => Real.exp (sR x t r j - a) * wR r j)]

include hx ht htau in
/-- The reference's denominator. -/
theorem den_eq (r : Fin 8192) (M : ℝ) (hM : rowMax f r = (M : EReal)) :
    den f r = ((wsum x t r M : ℝ) : EReal) := by
  unfold den wsum
  rw [← Cert.SpecLaw.coe_sum]
  refine Finset.sum_congr rfl fun j _ => ?_
  rw [hM, exp_sim_sub f x hx t ht htau, mask_eq, wgt_eq, ← EReal.coe_mul, ← EReal.coe_mul, mul_assoc, mR_mul_wR]

/-- The weighted exponential sum is positive: the weight at the positive column is 1. -/
theorem wsum_pos' (r : Fin 8192) (c : ℝ) : 0 < wsum x t r c :=
  Cert.SpecLaw.wsum_pos (fun j => sR x t r j) (fun j => wR r j) (fun j => wR_nonneg r j)
    ⟨posIdx r, by rw [wR_posIdx]; exact one_pos⟩ c

include hx ht htau in
/-- The kernel's row value is minus the reference's. -/
theorem rowK_eq (r : Fin 8192) : rowK f r = negOneF * rowR f r := by
  obtain ⟨a, ha⟩ := shift_real
  obtain ⟨M, hM⟩ := rowMax_real f x hx t ht htau r
  have hlaw : a + Real.log (wsum x t r a) = M + Real.log (wsum x t r M) :=
    Cert.SpecLaw.shift_law (fun j => sR x t r j) (fun j => wR r j) (fun j => wR_nonneg r j)
      ⟨posIdx r, by rw [wR_posIdx]; exact one_pos⟩ a M
  have hK : rowK f r = ((a + Real.log (wsum x t r a) - sR x t r (posIdx r) : ℝ) : EReal) := by
    rw [rowK, sum_tile_eq f x hx t ht htau a ha r, Ideal.log_coe, if_neg (not_le.mpr (wsum_pos' x t r a)), ha,
      posK_eq_sim, sim_eq f x hx t ht htau, ← EReal.coe_add, ← EReal.coe_sub]
  have hR : rowR f r = (((sR x t r (posIdx r) - M) * 1 - Real.log (wsum x t r M) : ℝ) : EReal) := by
    rw [rowR, den_eq f x hx t ht htau r M hM, Ideal.log_coe, if_neg (not_le.mpr (wsum_pos' x t r M)), hM,
      sim_eq f x hx t ht htau, wgt_eq, wR_posIdx, ← EReal.coe_sub, ← EReal.coe_mul, ← EReal.coe_sub]
  have hneg : negOneF = (((-1 : ℝ)) : EReal) := by
    rw [negOneF_eq, EReal.coe_neg, EReal.coe_one]
  rw [hK, hR, hneg, ← EReal.coe_mul]
  congr 1
  linarith

end

end Cert.Spec

end
-- ==== Proof.SpecLaw.lean ====
/-
  The law between the two sides of the claim, for feature rows that are real numbers: the kernel's loss, computed with the
  constant shift σ over eight column tiles, is the reference's, computed with each row's maximum as the shift.

  Row by row the kernel's value is the negation of the reference's (the shift law, in another module); the two losses
  divide the same sum by the same count, and the kernel's final factor is 1.
-/
import proofs.«122991_j63007170232511_2_alg».proof.Proof.SpecLawRow

noncomputable section

namespace Cert.Spec

open Idealize.ShloMosaic

theorem lossK_eq_lossR (f : Feats) (hf : ∀ r k, ∃ x : ℝ, f r k = (x : EReal)) : lossK f = lossR f := by
  choose x hx using hf
  obtain ⟨t, ht, htau⟩ := tau_real
  have hrow : ∑ r : Fin 8192, rowK f r = ∑ r : Fin 8192, negOneF * rowR f r :=
    Finset.sum_congr rfl fun r _ => rowK_eq f x hx t ht htau r
  rw [lossK, lossR, oneF_eq, mul_one, hrow]

end Cert.Spec

end
-- ==== Proof.lean ====
/-
  The certificate's claims, assembled.

  Both programs compute a supervised-contrastive loss over the 8192 unit-normalised feature rows cut from the embeddings.
  The kernel accumulates, per row and over eight column tiles, Σ_j exp(sim − σ)·w with a CONSTANT shift σ in place of the
  row maximum, skips the banded weight where it is 1, takes the positive term from the two views' rows directly, and
  returns the mean of σ + log(accumulator) − positive term; the reference shifts by the row maximum, masks the diagonal
  (where the weight is already 0) and gathers the positive column. On the extended reals, for finite embeddings, both are
  the mean over rows of M + log Σ_j exp(sim_rj − M)·w_rj − sim_r,p for ANY finite shift M: shift + log Σ exp(· − shift) does
  not depend on the shift. The three frames: the kernel's region is run case by case of its conditionals and launched
  with the one feature array dealt in half shares to the two windows that read it; the reference is a straight host program.
  The idealization rewrote nothing, so its preservation conjunct is trivial.
-/
import proofs.«122991_j63007170232511_2_alg».proof.Defs
import proofs.«122991_j63007170232511_2_alg».proof.Proof.Gen.Kernel
import proofs.«122991_j63007170232511_2_alg».proof.Proof.Gen.KernelIdeal
import proofs.«122991_j63007170232511_2_alg».proof.Proof.Gen.ReferenceIdeal
import proofs.«122991_j63007170232511_2_alg».proof.Proof.Gen.Pre_finite_inputs
import proofs.«122991_j63007170232511_2_alg».proof.Proof.KBFrameArgs
import proofs.«122991_j63007170232511_2_alg».proof.Proof.KIValue
import proofs.«122991_j63007170232511_2_alg».proof.Proof.KHostInputs
import proofs.«122991_j63007170232511_2_alg».proof.Proof.KHostReal
import proofs.«122991_j63007170232511_2_alg».proof.Proof.RefRun
import proofs.«122991_j63007170232511_2_alg».proof.Proof.SpecLaw
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Hand.frame m ρ

/-- So does its idealization: its value run with the result dropped. -/
theorem frame_ki : Cert.frame_KernelIdeal := fun m ρ _ =>
  (θ_run (Cert.KernelIdeal.defs (F := Ideal)) _ _).mono (fun _ h c => (h c).2) (Cert.KernelIdeal.Val.run m ρ)

/-- And the reference: its run with the result dropped. -/
theorem frame_ri : Cert.frame_ReferenceIdeal := fun m ρ _ =>
  (θ_run (Cert.ReferenceIdeal.defs (F := Ideal)) _ _).mono (fun _ h c => (h c).2) (Cert.RefSide.run m ρ)

/-- The ideal pass rewrote nothing. -/
theorem preserves : Cert.preserves_Kernel_KernelIdeal := trivial

/-- The two programs compute the same feature rows from the same embeddings: one chain of host operations. -/
theorem feats_eq (A : FVec Ideal Cert.KernelIdeal.S16x256x512 .f32) : Cert.RefSide.featsArr A = Cert.KSide.featsArr A := rfl

/-- Both end with the same loss: the kernel's constant shift against the reference's row maximum, for finite embeddings. -/
theorem algebraic : Cert.algebraic_KernelIdeal_ReferenceIdeal := by
  intro m ρ m' ρ' hpre hagree
  refine ⟨fun c => fun _ => Cert.Spec.lossK (Cert.KernelIdeal.Val.featsOf m c), Cert.KernelIdeal.Val.run m ρ, ?_⟩
  refine (θ_run (Cert.ReferenceIdeal.defs (F := Ideal)) _ _).mono (fun _ h c => ⟨(h c).1.trans ?_, (h c).2⟩)
    (Cert.RefSide.run m' ρ')
  rw [(hagree c).1, feats_eq]
  funext _
  exact (Cert.Spec.lossK_eq_lossR (Cert.KernelIdeal.Val.featsOf m c)
    (fun r k => Cert.KSide.feats_real _ (Cert.KSide.inputs_real m hpre c) r k)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
